-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v18_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v18_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100000 : Shape := ⟨2, ![16, 100000]⟩
abbrev S100000 : Shape := ⟨1, ![100000]⟩
abbrev S100000x64 : Shape := ⟨2, ![100000, 64]⟩
abbrev S_ : Shape := ⟨0, ![]⟩

class Facts : Prop where
  bcast_S_S16x100000 : S_.BroadcastsInDim S16x100000 (![] : Fin 0 → Fin S16x100000.rank)
  reducesTo_S16x100000_S_d0_1 : S16x100000.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn_part1 {F : FTy → Type} [FloatOps F] (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  main_v18

def fn {F : FTy → Type} [FloatOps F] (main_arg0 : FVec F S16x100000 .f32) (main_arg1 : IVec S100000 32) (main_arg2 : FVec F S16x100000 .f32) (main_arg3 : FVec F S100000x64 .f32) (main_arg4 : FVec F S100000x64 .f32) : IVec S_ 1 :=
  let main_v0 : FVec F S16x100000 .f32 := Host.absf main_arg0
  let main_cst : FVec F S_ .f32 := constant S_ .f32 0x7F800000#32
  let main_v1 : FVec F S16x100000 .f32 := broadcastInDim S16x100000 ![] bcast_S_S16x100000 main_cst
  let main_v2 : IVec S16x100000 1 := cmpf .olt main_v0 main_v1
  let main_c : IVec S_ 1 := constantI S_ 1 1#1
  let main_v3 : IVec S_ 1 := (fun x v => Host.reduce IntOp.andi x v reducesTo_S16x100000_S_d0_1 h_S_) main_v2 main_c
  let main_v4 : FVec F S16x100000 .f32 := Host.absf main_arg2
  let main_cst_0 : FVec F S_ .f32 := constant S_ .f32 0x7F800000#32
  let main_v5 : FVec F S16x100000 .f32 := broadcastInDim S16x100000 ![] bcast_S_S16x100000 main_cst_0
  let main_v6 : IVec S16x100000 1 := cmpf .olt main_v4 main_v5
  let main_c_1 : IVec S_ 1 := constantI S_ 1 1#1
  let main_v7 : IVec S_ 1 := (fun x v => Host.reduce IntOp.andi x v reducesTo_S16x100000_S_d0_1 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S100000x64 .f32 := Host.absf main_arg4
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_v13 main_v16
-- ==== Kernel.lean ====
abbrev S16x100000 : Shape := ⟨2, ![16, 100000]⟩
abbrev S100000 : Shape := ⟨1, ![100000]⟩
abbrev S100000x64 : Shape := ⟨2, ![100000, 64]⟩
abbrev S_ : Shape := ⟨0, ![]⟩
abbrev S100000x1 : Shape := ⟨2, ![100000, 1]⟩
abbrev S16x102400 : Shape := ⟨2, ![16, 102400]⟩
abbrev S102400x64 : Shape := ⟨2, ![102400, 64]⟩
abbrev S16x64 : Shape := ⟨2, ![16, 64]⟩
abbrev S16x1 : Shape := ⟨2, ![16, 1]⟩
abbrev S16x6400 : Shape := ⟨2, ![16, 6400]⟩
abbrev S6400x64 : Shape := ⟨2, ![6400, 64]⟩
abbrev S16 : Shape := ⟨1, ![16]⟩
abbrev S16x100352 : Shape := ⟨2, ![16, 100352]⟩
abbrev S100352x64 : Shape := ⟨2, ![100352, 64]⟩
abbrev S16x100352x64 : Shape := ⟨3, ![16, 100352, 64]⟩
abbrev S16x1024 : Shape := ⟨2, ![16, 1024]⟩
abbrev S1024x64 : Shape := ⟨2, ![1024, 64]⟩
abbrev S16x1024x64 : Shape := ⟨3, ![16, 1024, 64]⟩
abbrev S16x1024x1 : Shape := ⟨3, ![16, 1024, 1]⟩
abbrev S1x1024x64 : Shape := ⟨3, ![1, 1024, 64]⟩
abbrev S16x1x64 : Shape := ⟨3, ![16, 1, 64]⟩
abbrev S16x100000x64 : Shape := ⟨3, ![16, 100000, 64]⟩

abbrev nBuf : Space → Nat
  | .hbm => 51
  | .vmem => 24
  | .smem => 0
  | _ => 0

abbrev bufTy : (tb : Table) → Fin (tcTables nBuf tb) → BufTy
  | .hbm, ⟨0, _⟩ => ⟨S16x100000, .f32⟩
  | .hbm, ⟨1, _⟩ => ⟨S100000, .i32⟩
  | .hbm, ⟨2, _⟩ => ⟨S16x100000, .f32⟩
  | .hbm, ⟨3, _⟩ => ⟨S100000x64, .f32⟩
  | .hbm, ⟨4, _⟩ => ⟨S100000x64, .f32⟩
  | .hbm, ⟨5, _⟩ => ⟨S_, .i32⟩
  | .hbm, ⟨6, _⟩ => ⟨S100000, .i32⟩
  | .hbm, ⟨7, _⟩ => ⟨S100000, .i1⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S100000, .i32⟩
  | .hbm, ⟨12, _⟩ => ⟨S100000x1, .i32⟩
  | .hbm, ⟨13, _⟩ => ⟨S100000x64, .f32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x64, .f32⟩
  | .hbm, ⟨23, _⟩ => ⟨S_, .i32⟩
  | .hbm, ⟨24, _⟩ => ⟨S_, .f32⟩
  | .hbm, ⟨25, _⟩ => ⟨S16x102400, .f32⟩
  | .hbm, ⟨26, _⟩ => ⟨S_, .i32⟩
  | .hbm, ⟨27, _⟩ => ⟨S_, .f32⟩
  | .hbm, ⟨28, _⟩ => ⟨S16x102400, .f32⟩
  | .hbm, ⟨29, _⟩ => ⟨S_, .i32⟩
  | .hbm, ⟨30, _⟩ => ⟨S_, .f32⟩
  | .hbm, ⟨31, _⟩ => ⟨S102400x64, .f32⟩
  | .hbm, ⟨32, _⟩ => ⟨S_, .i32⟩
  | .hbm, ⟨33, _⟩ => ⟨S_, .f32⟩
  | .hbm, ⟨34, _⟩ => ⟨S102400x64, .f32⟩
  | .hbm, ⟨35, _⟩ => ⟨S16x64, .f32⟩
  | .hbm, ⟨36, _⟩ => ⟨S16x1, .f32⟩
  | .hbm, ⟨37, _⟩ => ⟨S_, .i32⟩
  | .hbm, ⟨38, _⟩ => ⟨S_, .f32⟩
  | .hbm, ⟨39, _⟩ => ⟨S16x100352, .f32⟩
  | .hbm, ⟨40, _⟩ => ⟨S_, .i32⟩
  | .hbm, ⟨41, _⟩ => ⟨S_, .f32⟩
  | .hbm, ⟨42, _⟩ => ⟨S16x100352, .f32⟩
  | .hbm, ⟨43, _⟩ => ⟨S_, .i32⟩
  | .hbm, ⟨44, _⟩ => ⟨S_, .f32⟩
  | .hbm, ⟨45, _⟩ => ⟨S100352x64, .f32⟩
  | .hbm, ⟨46, _⟩ => ⟨S_, .i32⟩
  | .hbm, ⟨47, _⟩ => ⟨S_, .f32⟩
  | .hbm, ⟨48, _⟩ => ⟨S100352x64, .f32⟩
  | .hbm, ⟨49, _⟩ => ⟨S16x100352x64, .f32⟩
  | .hbm, ⟨50, _⟩ => ⟨S16x100000x64, .f32⟩
  | .local _ .vmem, ⟨0, _⟩ => ⟨S16x6400, .f32⟩
  | .local _ .vmem, ⟨1, _⟩ => ⟨S16x6400, .f32⟩
  | .local _ .vmem, ⟨2, _⟩ => ⟨S16x6400, .f32⟩
  | .local _ .vmem, ⟨3, _⟩ => ⟨S16x6400, .f32⟩
  | .local _ .vmem, ⟨4, _⟩ => ⟨S6400x64, .f32⟩
  | .local _ .vmem, ⟨5, _⟩ => ⟨S6400x64, .f32⟩
  | .local _ .vmem, ⟨6, _⟩ => ⟨S6400x64, .f32⟩
  | .local _ .vmem, ⟨7, _⟩ => ⟨S6400x64, .f32⟩
  | .local _ .vmem, ⟨8, _⟩ => ⟨S16x64, .f32⟩
  | .local _ .vmem, ⟨9, _⟩ => ⟨S16x1, .f32⟩
  | .local _ .vmem, ⟨10, _⟩ => ⟨S16x64, .f32⟩
  | .local _ .vmem, ⟨11, _⟩ => ⟨S16x1, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | .local _ .vmem, ⟨20, _⟩ => ⟨S16x64, .f32⟩
  | .local _ .vmem, ⟨21, _⟩ => ⟨S16x1, .f32⟩
  | .local _ .vmem, ⟨22, _⟩ => ⟨S16x1024x64, .f32⟩
  | .local _ .vmem, ⟨23, _⟩ => ⟨S16x1024x64, .f32⟩
  | _, _ => ⟨S16x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_call0_v0 : Ref sig .tc := ⟨.hbm, 24, rfl⟩
abbrev main_v14 : Ref sig .tc := ⟨.hbm, 25, rfl⟩
abbrev main_c_4 : Ref sig .tc := ⟨.hbm, 26, rfl⟩
abbrev main_call1_v0 : Ref sig .tc := ⟨.hbm, 27, rfl⟩
abbrev main_v15 : Ref sig .tc := ⟨.hbm, 28, rfl⟩
abbrev main_c_5 : Ref sig .tc := ⟨.hbm, 29, rfl⟩
abbrev main_call2_v0 : Ref sig .tc := ⟨.hbm, 30, rfl⟩
abbrev main_v16 : Ref sig .tc := ⟨.hbm, 31, rfl⟩
abbrev main_c_6 : Ref sig .tc := ⟨.hbm, 32, rfl⟩
abbrev main_call3_v0 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_c_7 : Ref sig .tc := ⟨.hbm, 37, rfl⟩
abbrev main_call4_v0 : Ref sig .tc := ⟨.hbm, 38, rfl⟩
abbrev main_v19 : Ref sig .tc := ⟨.hbm, 39, rfl⟩
abbrev main_c_8 : Ref sig .tc := ⟨.hbm, 40, rfl⟩
abbrev main_call5_v0 : Ref sig .tc := ⟨.hbm, 41, rfl⟩
abbrev main_v20 : Ref sig .tc := ⟨.hbm, 42, rfl⟩
abbrev main_c_9 : Ref sig .tc := ⟨.hbm, 43, rfl⟩
abbrev main_call6_v0 : Ref sig .tc := ⟨.hbm, 44, rfl⟩
abbrev main_v21 : Ref sig .tc := ⟨.hbm, 45, rfl⟩
abbrev main_c_10 : Ref sig .tc := ⟨.hbm, 46, rfl⟩
abbrev main_call7_v0 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v31 : BitVec 1 := Scalar.cmpi .eq arg0 c15_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![98], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S16x1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  pads_S16x100000_S16x102400_000_024000 : S16x100000.Pads (![0, 0] : Fin 2 → Nat) ![0, 2400] ![0, 0] S16x102400
  h_S_ : 0 < S_.numel
  pads_S100000x64_S102400x64_024000_000 : S100000x64.Pads (![0, 0] : Fin 2 → Nat) ![2400, 0] ![0, 0] S102400x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x6400_S16x6400_0_0 : ∀ a, (![0, 0] : Fin 2 → Nat) a + S16x6400.size a ≤ S16x6400.size a
  h_S16x6400 : 0 < S16x6400.numel
  shapeCasts_S16x6400_S16x6400 : S16x6400.ShapeCasts S16x6400
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  reduces_S16x6400_S16 : S16x6400.Reduces [1] S16
  shapeCasts_S16_S16x1 : S16.ShapeCasts S16x1
  pads_S16x100000_S16x100352_000_03520 : S16x100000.Pads (![0, 0] : Fin 2 → Nat) ![0, 352] ![0, 0] S16x100352
  pads_S100000x64_S100352x64_03520_000 : S100000x64.Pads (![0, 0] : Fin 2 → Nat) ![352, 0] ![0, 0] S100352x64
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S16x1024_S16x1024x1 : S16x1024.ShapeCasts S16x1024x1
  shapeCasts_S1024x64_S1x1024x64 : S1024x64.ShapeCasts S1x1024x64
  broadcasts_S16x1024x1_S16x1024x64 : S16x1024x1.Broadcasts S16x1024x64
  broadcasts_S1x1024x64_S16x1024x64 : S1x1024x64.Broadcasts S16x1024x64
  broadcasts_S16x1_S16x1024 : S16x1.Broadcasts S16x1024
  shapeCasts_S16x64_S16x1x64 : S16x64.ShapeCasts S16x1x64
  broadcasts_S16x1x64_S16x1024x64 : S16x1x64.Broadcasts S16x1024x64
  inb_S16x1024x64_S16x1024x64_0_0_0 : ∀ a, (![0, 0, 0] : Fin 3 → Nat) a + S16x1024x64.size a ≤ S16x1024x64.size a
  h_S16x1024x64 : 0 < S16x1024x64.numel
  slices_S16x100352x64_S16x100000x64_0_0_0 : S16x100352x64.Slices ![0, 0, 0] S16x100000x64
  gather_S100000x64_S100000x1_S100000x64_1_0_n_n_0_1_164_wf : GatherDims.WF S100000x64 S100000x1 S100000x64 [1] [0] [] [0] [] 1 ![1, 64]
  dot_S16x6400_S6400x64_S16x64_1_0_0_1_n_n_wf : DotDims.WF S16x6400 S6400x64 S16x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x6400.size a ≤ S16x102400.size a
  hwx0_0 : ∀ i : grid0.Coords, EltTy.bits .f32 = 32 ∨ (Rect.block (s := S16x102400) S16x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x6400.size a ≤ S16x102400.size a
  hwx0_1 : ∀ i : grid0.Coords, EltTy.bits .f32 = 32 ∨ (Rect.block (s := S16x102400) S16x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x64.size a ≤ S102400x64.size a
  hwx0_2 : ∀ i : grid0.Coords, EltTy.bits .f32 = 32 ∨ (Rect.block (s := S102400x64) S6400x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x64.size a ≤ S102400x64.size a
  hwx0_3 : ∀ i : grid0.Coords, EltTy.bits .f32 = 32 ∨ (Rect.block (s := S102400x64) S6400x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x1024.size a ≤ S16x100352.size a
  hwx1_0 : ∀ i : grid1.Coords, EltTy.bits .f32 = 32 ∨ (Rect.block (s := S16x100352) S16x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x1024.size a ≤ S16x100352.size a
  hwx1_1 : ∀ i : grid1.Coords, EltTy.bits .f32 = 32 ∨ (Rect.block (s := S16x100352) S16x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S100352x64.size a
  hwx1_2 : ∀ i : grid1.Coords, EltTy.bits .f32 = 32 ∨ (Rect.block (s := S100352x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S100352x64.size a
  hwx1_3 : ∀ i : grid1.Coords, EltTy.bits .f32 = 32 ∨ (Rect.block (s := S100352x64) S1024x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x1.size a ≤ S16x1.size a
  hwx1_5 : ∀ i : grid1.Coords, EltTy.bits .f32 = 32 ∨ (Rect.block (s := S16x1) S16x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16x1024x64.size a ≤ S16x100352x64.size a
  hwx1_6 : ∀ i : grid1.Coords, EltTy.bits .f32 = 32 ∨ (Rect.block (s := S16x100352x64) S16x1024x64.size (cc1_transform_6 i) (hinb1_6 i)).WholeWords (EltTy.packing .f32)

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S16x6400_S6400x64_S16x64_1_0_0_1_n_n : DotDims S16x6400 S6400x64 S16x64 where
  lhsContracting := [1]
  rhsContracting := [0]
  lhsNonContracting := [0]
  rhsNonContracting := [1]
  lhsBatch := []
  rhsBatch := []
  wf := dot_S16x6400_S6400x64_S16x64_1_0_0_1_n_n_wf

abbrev win0_0 : Pipeline.Window sig grid0 :=
  Pipeline.Window.ofSpec (Memref.whole main_v14) S16x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S16x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S6400x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S6400x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_0) S16x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_1) S16x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v19) S16x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S16x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18_0) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18_1) S16x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S16x1024x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16x100000 : Shape := ⟨2, ![16, 100000]⟩
abbrev S100000 : Shape := ⟨1, ![100000]⟩
abbrev S100000x64 : Shape := ⟨2, ![100000, 64]⟩
abbrev S_ : Shape := ⟨0, ![]⟩
abbrev S100000x1 : Shape := ⟨2, ![100000, 1]⟩
abbrev S16x100000x1 : Shape := ⟨3, ![16, 100000, 1]⟩
abbrev S1x100000x64 : Shape := ⟨3, ![1, 100000, 64]⟩
abbrev S16x100000x64 : Shape := ⟨3, ![16, 100000, 64]⟩
abbrev S16x64 : Shape := ⟨2, ![16, 64]⟩
abbrev S16 : Shape := ⟨1, ![16]⟩
abbrev S16x1 : Shape := ⟨2, ![16, 1]⟩
abbrev S16x1x1 : Shape := ⟨3, ![16, 1, 1]⟩
abbrev S16x1x64 : Shape := ⟨3, ![16, 1, 64]⟩

abbrev nBuf : Space → Nat
  | .hbm => 55
  | .vmem => 0
  | .smem => 0
  | _ => 0

abbrev bufTy : (tb : Table) → Fin (tcTables nBuf tb) → BufTy
  | .hbm, ⟨0, _⟩ => ⟨S16x100000, .f32⟩
  | .hbm, ⟨1, _⟩ => ⟨S100000, .i32⟩
  | .hbm, ⟨2, _⟩ => ⟨S16x100000, .f32⟩
  | .hbm, ⟨3, _⟩ => ⟨S100000x64, .f32⟩
  | .hbm, ⟨4, _⟩ => ⟨S100000x64, .f32⟩
  | .hbm, ⟨5, _⟩ => ⟨S_, .i32⟩
  | .hbm, ⟨6, _⟩ => ⟨S100000, .i32⟩
  | .hbm, ⟨7, _⟩ => ⟨S100000, .i1⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S100000, .i32⟩
  | .hbm, ⟨12, _⟩ => ⟨S100000x1, .i32⟩
  | .hbm, ⟨13, _⟩ => ⟨S100000x64, .f32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x64, .f32⟩
  | .hbm, ⟨23, _⟩ => ⟨S16x100000x1, .f32⟩
  | .hbm, ⟨24, _⟩ => ⟨S1x100000x64, .f32⟩
  | .hbm, ⟨25, _⟩ => ⟨S16x100000x64, .f32⟩
  | .hbm, ⟨26, _⟩ => ⟨S16x100000x64, .f32⟩
  | .hbm, ⟨27, _⟩ => ⟨S16x100000x64, .f32⟩
  | .hbm, ⟨28, _⟩ => ⟨S1x100000x64, .f32⟩
  | .hbm, ⟨29, _⟩ => ⟨S16x100000x64, .f32⟩
  | .hbm, ⟨30, _⟩ => ⟨S16x100000x64, .f32⟩
  | .hbm, ⟨31, _⟩ => ⟨S16x100000x1, .f32⟩
  | .hbm, ⟨32, _⟩ => ⟨S16x100000x64, .f32⟩
  | .hbm, ⟨33, _⟩ => ⟨S16x100000x64, .f32⟩
  | .hbm, ⟨34, _⟩ => ⟨S_, .f32⟩
  | .hbm, ⟨35, _⟩ => ⟨S16x64, .f32⟩
  | .hbm, ⟨36, _⟩ => ⟨S_, .f32⟩
  | .hbm, ⟨37, _⟩ => ⟨S16, .f32⟩
  | .hbm, ⟨38, _⟩ => ⟨S16x1, .f32⟩
  | .hbm, ⟨39, _⟩ => ⟨S16x1x1, .f32⟩
  | .hbm, ⟨40, _⟩ => ⟨S16x100000x1, .f32⟩
  | .hbm, ⟨41, _⟩ => ⟨S16x100000x1, .f32⟩
  | .hbm, ⟨42, _⟩ => ⟨S16x100000x1, .f32⟩
  | .hbm, ⟨43, _⟩ => ⟨S_, .f32⟩
  | .hbm, ⟨44, _⟩ => ⟨S_, .f32⟩
  | .hbm, ⟨45, _⟩ => ⟨S16x100000x1, .f32⟩
  | .hbm, ⟨46, _⟩ => ⟨S16x100000x1, .f32⟩
  | .hbm, ⟨47, _⟩ => ⟨S_, .f32⟩
  | .hbm, ⟨48, _⟩ => ⟨S16x100000x1, .f32⟩
  | .hbm, ⟨49, _⟩ => ⟨S16x100000x1, .f32⟩
  | .hbm, ⟨50, _⟩ => ⟨S16x1x64, .f32⟩
  | .hbm, ⟨51, _⟩ => ⟨S16x100000x64, .f32⟩
  | .hbm, ⟨52, _⟩ => ⟨S16x100000x64, .f32⟩
  | .hbm, ⟨53, _⟩ => ⟨S16x100000x64, .f32⟩
  | .hbm, ⟨54, _⟩ => ⟨S16x100000x64, .f32⟩
  | _, _ => ⟨S16x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S16x100000_S16x100000x1_0_1 : S16x100000.BroadcastsInDim S16x100000x1 (![0, 1] : Fin 2 → Fin S16x100000x1.rank)
  bcast_S100000x64_S1x100000x64_1_2 : S100000x64.BroadcastsInDim S1x100000x64 (![1, 2] : Fin 2 → Fin S1x100000x64.rank)
  bcast_S16x100000x1_S16x100000x64_0_1_2 : S16x100000x1.BroadcastsInDim S16x100000x64 (![0, 1, 2] : Fin 3 → Fin S16x100000x64.rank)
  bcast_S1x100000x64_S16x100000x64_0_1_2 : S1x100000x64.BroadcastsInDim S16x100000x64 (![0, 1, 2] : Fin 3 → Fin S16x100000x64.rank)
  reducesTo_S16x100000x64_S16x64_d1 : S16x100000x64.ReducesTo [1] S16x64
  h_S_ : 0 < S_.numel
  reducesTo_S16x100000_S16_d1 : S16x100000.ReducesTo [1] S16
  bcast_S16_S16x1_0 : S16.BroadcastsInDim S16x1 (![0] : Fin 1 → Fin S16x1.rank)
  bcast_S16x1_S16x1x1_0_1 : S16x1.BroadcastsInDim S16x1x1 (![0, 1] : Fin 2 → Fin S16x1x1.rank)
  bcast_S16x1x1_S16x100000x1_0_1_2 : S16x1x1.BroadcastsInDim S16x100000x1 (![0, 1, 2] : Fin 3 → Fin S16x100000x1.rank)
  bcast_S_S16x100000x1 : S_.BroadcastsInDim S16x100000x1 (![] : Fin 0 → Fin S16x100000x1.rank)
  bcast_S16x64_S16x1x64_0_2 : S16x64.BroadcastsInDim S16x1x64 (![0, 2] : Fin 2 → Fin S16x1x64.rank)
  bcast_S16x1x64_S16x100000x64_0_1_2 : S16x1x64.BroadcastsInDim S16x100000x64 (![0, 1, 2] : Fin 3 → Fin S16x100000x64.rank)
  gather_S100000x64_S100000x1_S100000x64_1_0_n_n_0_1_164_wf : GatherDims.WF S100000x64 S100000x1 S100000x64 [1] [0] [] [0] [] 1 ![1, 64]

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf

class Facts : Prop extends Facts₀ where

variable [Facts]
-- ==== Proof.K.Reg0.lean ====
import proofs.«127450_j71554155152270_2_alg».proof.Proof.Gen.Kernel.Launch
import proofs.«127450_j71554155152270_2_alg».proof.Proof.Gen.Kernel.Skeleton
import proofs.«127450_j71554155152270_2_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks of the first call -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two accumulators, point by point -/

/-- What the two scratch accumulators hold after grid point `n`: the running sum of the chunks' matrix products
    (first component) and the running row sums of the mask (second component). At the first point both start from
    the zero fill; afterwards each adds this point's chunk to what the point before left. -/
def accAt (c : Dev nD) : (n : ℕ) → n < cfg0.N → Vec F S16x64 .f32 × Vec F S16x1 .f32
  | 0, hn => (k0_pay4 (iblk0 V c 0 ⟨0, hn⟩) (iblk0 V c 1 ⟨0, hn⟩) (iblk0 V c 2 ⟨0, hn⟩) (iblk0 V c 3 ⟨0, hn⟩) (k0_pay1 (F := F)),
      k0_pay5 (iblk0 V c 1 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (iblk0 V c 3 ⟨n + 1, hn⟩) (accAt c n (Nat.lt_of_succ_lt hn)).1,
      k0_pay5 (iblk0 V c 1 ⟨n + 1, hn⟩) (accAt c n (Nat.lt_of_succ_lt hn)).2)

theorem accAt_first (c : Dev nD) (t : Fin cfg0.N) (h : t.val = 0) :
    accAt V c t.val t.isLt = (k0_pay4 (iblk0 V c 0 t) (iblk0 V c 1 t) (iblk0 V c 2 t) (iblk0 V c 3 t) (k0_pay1 (F := F)), k0_pay5 (iblk0 V c 1 t) (k0_pay2 (F := F))) := by
  obtain ⟨n, hn⟩ := t
  cases n with
  | zero => rfl
  | succ n => exact absurd h (Nat.succ_ne_zero n)

theorem accAt_later (c : Dev nD) (t : Fin cfg0.N) (h : t.val ≠ 0) :
    accAt V c t.val t.isLt = (k0_pay4 (iblk0 V c 0 t) (iblk0 V c 1 t) (iblk0 V c 2 t) (iblk0 V c 3 t) (accAt V c (t.val - 1) (Nat.lt_of_le_of_lt (Nat.sub_le _ _) t.isLt)).1,
      k0_pay5 (iblk0 V c 1 t) (accAt V c (t.val - 1) (Nat.lt_of_le_of_lt (Nat.sub_le _ _) t.isLt)).2) := by
  obtain ⟨n, hn⟩ := t
  cases n with
  | zero => exact absurd rfl h
  | succ n => rfl

/-! ## The region invariant -/

/-- The two scratch operands as whole memrefs. -/
abbrev scM0_0 : Memref sig .tc .vmem S16x64 .f32 := Memref.whole cc0_scratch0
abbrev scM0_1 : Memref sig .tc .vmem S16x1 .f32 := Memref.whole cc0_scratch1

/-- Every other scoped buffer that is no staging buffer of this call, at some contents. -/
def restB (c : Dev nD) : sProp 𝕄 :=
  Pipeline.scopedRestBut (Ix := Unit) (Name := ℕ) (U := UR sig nD τ) (Lvl := ℕ) (Val := Elt F) spec0 c [cc0_scratch0, cc0_scratch1]

/-- Before the first point: the scoped rest at anything and the generator register. After point `n`: the two
    accumulators at `accAt n`, the other scoped buffers at anything, the generator register. -/
def PhiS (c : Dev nD) : (n : ℕ) → n ≤ cfg0.N → sProp 𝕄
  | 0, _ => Pipeline.ΦA spec0 c
  | n + 1, hn => iprop(owns (c : Thread nD τ) scM0_0 fullShare (accAt V c n hn).1 ∗ owns (c : Thread nD τ) scM0_1 fullShare (accAt V c n hn).2
      ∗ restB (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0_0 fullShare (accAt V c n hn).1 ∗ owns (c : Thread nD τ) scM0_1 fullShare (accAt V c n hn).2
      ∗ restB (F := F) c ∗ (∃ r, prngReg c r)) := rfl

theorem PhiS_pos (c : Dev nD) (n : ℕ) (h : n ≤ cfg0.N) (hz : n ≠ 0) :
    PhiS V c n h = iprop(owns (c : Thread nD τ) scM0_0 fullShare (accAt V c (n - 1) (by omega)).1 ∗ owns (c : Thread nD τ) scM0_1 fullShare (accAt V c (n - 1) (by omega)).2
      ∗ restB (F := F) c ∗ (∃ r, prngReg c r)) := by
  cases n with
  | zero => exact absurd rfl hz
  | succ n => rfl

/-! ## The proof data of the first call -/

/-- The arrays as the region finds them; after the body each input's buffer at its block, the two outputs' at the
    accumulators (they are stored at the last point only, and written back there only); the invariant `PhiS`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (accAt V c t.val t.isLt).1
    | ⟨5, _⟩ => (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (accAt V c t.val t.isLt).1 := by dsimp only [dat0]
theorem after0_5 (c : Dev nD) (t : Fin cfg0.N) : (dat0 V c).after 5 t = (accAt V c t.val t.isLt).2 := by dsimp only [dat0]

/-! ## The body's accesses: every load and store is the whole buffer -/

theorem hz2 : (![0, 0] : Fin 2 → Nat) = fun _ => 0 := by funext a; fin_cases a <;> rfl

abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1

/-- The first branch is taken at the first grid point only, the second at the last only. -/
theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 15 :=
  (by decide +kernel : ∀ t : Fin grid0.N, cond0_1 (grid0.coords t) ↔ t.val = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The body's triples, one per case of its two conditionals -/

set_option maxHeartbeats 4000000 in
theorem runB (c : Dev nD) (E : Set ℕ) (i : grid0.Coords) (arg1 : Memref sig .tc .vmem S16x6400 .f32) (harg1 : arg1.IsWhole) (arg2 : Memref sig .tc .vmem S16x6400 .f32) (harg2 : arg2.IsWhole) (arg3 : Memref sig .tc .vmem S6400x64 .f32) (harg3 : arg3.IsWhole) (arg4 : Memref sig .tc .vmem S6400x64 .f32) (harg4 : arg4.IsWhole) (arg5 : Memref sig .tc .vmem S16x64 .f32) (harg5 : arg5.IsWhole) (arg6 : Memref sig .tc .vmem S16x1 .f32) (harg6 : arg6.IsWhole) (arg7 : Memref sig .tc .vmem S16x64 .f32) (harg7 : arg7.IsWhole) (arg8 : Memref sig .tc .vmem S16x1 .f32) (harg8 : arg8.IsWhole)
    (hc0 : ¬cond0_0 i) (hc1 : ¬cond0_1 i)
    (x0 x1 : Vec F S16x6400 .f32) (x2 x3 : Vec F S6400x64 .f32) (y4 : Vec F S16x64 .f32) (y5 : Vec F S16x1 .f32) (s : Vec F S16x64 .f32) (n : Vec F S16x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5 ∗ owns (c : Thread nD τ) arg7 fullShare s ∗ owns (c : Thread nD τ) arg8 fullShare n
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y4 ∗ owns (c : Thread nD τ) arg6 fullShare y5 ∗ owns (c : Thread nD τ) arg7 fullShare (k0_pay4 x0 x1 x2 x3 s) ∗ owns (c : Thread nD τ) arg8 fullShare (k0_pay5 x1 n)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [View.read_writes_eq_canon _ _ _ (View.cover_of_tiled _ S16x64.size (by rfl)), View.canon_unit_zero hz2]
    simp only [View.readAt_eq_ld, Memref.IsWhole.read_unread, View.ld_unit_zero (S := S16x6400) hz2, View.ld_unit_zero (S := S6400x64) hz2, View.ld_unit_zero (S := S16x64) hz2]
  iexists _; isplitr
  swap; · iexact H8
  ipureintro
  rw [View.read_writes_eq_canon _ _ _ (View.cover_of_tiled _ S16x1.size (by rfl)), View.canon_unit_zero hz2]
  simp only [View.readAt_eq_ld, Memref.IsWhole.read_unread, View.ld_unit_zero (S := S16x6400) hz2, View.ld_unit_zero (S := S16x1) hz2]

set_option maxHeartbeats 4000000 in
theorem runA (c : Dev nD) (E : Set ℕ) (i : grid0.Coords) (arg1 : Memref sig .tc .vmem S16x6400 .f32) (harg1 : arg1.IsWhole) (arg2 : Memref sig .tc .vmem S16x6400 .f32) (harg2 : arg2.IsWhole) (arg3 : Memref sig .tc .vmem S6400x64 .f32) (harg3 : arg3.IsWhole) (arg4 : Memref sig .tc .vmem S6400x64 .f32) (harg4 : arg4.IsWhole) (arg5 : Memref sig .tc .vmem S16x64 .f32) (harg5 : arg5.IsWhole) (arg6 : Memref sig .tc .vmem S16x1 .f32) (harg6 : arg6.IsWhole) (arg7 : Memref sig .tc .vmem S16x64 .f32) (harg7 : arg7.IsWhole) (arg8 : Memref sig .tc .vmem S16x1 .f32) (harg8 : arg8.IsWhole)
    (hc0 : cond0_0 i) (hc1 : ¬cond0_1 i)
    (x0 x1 : Vec F S16x6400 .f32) (x2 x3 : Vec F S6400x64 .f32) (y4 : Vec F S16x64 .f32) (y5 : Vec F S16x1 .f32) (s : Vec F S16x64 .f32) (n : Vec F S16x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5 ∗ owns (c : Thread nD τ) arg7 fullShare s ∗ owns (c : Thread nD τ) arg8 fullShare n
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y4 ∗ owns (c : Thread nD τ) arg6 fullShare y5 ∗ owns (c : Thread nD τ) arg7 fullShare (k0_pay4 x0 x1 x2 x3 (k0_pay1 (F := F))) ∗ owns (c : Thread nD τ) arg8 fullShare (k0_pay5 x1 (k0_pay2 (F := F)))) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_run_names
    refine (View.read_writes_of_cover_last _ _ arg7.view (harg7.unread s) _ _ [] (View.mem_set_unit_zero (S := S16x64) hz2 inb_S16x64_S16x64_0_0)).trans ?_
    rw [View.read_writes_eq_canon _ _ _ (View.cover_of_tiled _ S16x64.size (by rfl)), View.canon_unit_zero hz2]
    simp only [View.readAt_eq_ld, Memref.IsWhole.read_unread, View.ld_unit_zero (S := S16x6400) hz2, View.ld_unit_zero (S := S6400x64) hz2, View.ld_unit_zero (S := S16x64) hz2]
    exact congrArg (k0_pay4 x0 x1 x2 x3) (View.readCov_unit_zero (S := S16x64) arg7.view hz2 _ _)
  iexists _; isplitr
  swap; · iexact H8
  ipureintro
  sl_unfold_run_names
  refine (View.read_writes_of_cover_last _ _ arg8.view (harg8.unread n) _ _ [] (View.mem_set_unit_zero (S := S16x1) hz2 inb_S16x1_S16x1_0_0)).trans ?_
  rw [View.read_writes_eq_canon _ _ _ (View.cover_of_tiled _ S16x1.size (by rfl)), View.canon_unit_zero hz2]
  simp only [View.readAt_eq_ld, Memref.IsWhole.read_unread, View.ld_unit_zero (S := S16x6400) hz2, View.ld_unit_zero (S := S16x1) hz2]
  exact congrArg (k0_pay5 x1) (View.readCov_unit_zero (S := S16x1) arg8.view hz2 _ _)

set_option maxHeartbeats 4000000 in
theorem runC (c : Dev nD) (E : Set ℕ) (i : grid0.Coords) (arg1 : Memref sig .tc .vmem S16x6400 .f32) (harg1 : arg1.IsWhole) (arg2 : Memref sig .tc .vmem S16x6400 .f32) (harg2 : arg2.IsWhole) (arg3 : Memref sig .tc .vmem S6400x64 .f32) (harg3 : arg3.IsWhole) (arg4 : Memref sig .tc .vmem S6400x64 .f32) (harg4 : arg4.IsWhole) (arg5 : Memref sig .tc .vmem S16x64 .f32) (harg5 : arg5.IsWhole) (arg6 : Memref sig .tc .vmem S16x1 .f32) (harg6 : arg6.IsWhole) (arg7 : Memref sig .tc .vmem S16x64 .f32) (harg7 : arg7.IsWhole) (arg8 : Memref sig .tc .vmem S16x1 .f32) (harg8 : arg8.IsWhole)
    (hc0 : ¬cond0_0 i) (hc1 : cond0_1 i)
    (x0 x1 : Vec F S16x6400 .f32) (x2 x3 : Vec F S6400x64 .f32) (y4 : Vec F S16x64 .f32) (y5 : Vec F S16x1 .f32) (s : Vec F S16x64 .f32) (n : Vec F S16x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5 ∗ owns (c : Thread nD τ) arg7 fullShare s ∗ owns (c : Thread nD τ) arg8 fullShare n
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay4 x0 x1 x2 x3 s) ∗ owns (c : Thread nD τ) arg6 fullShare (k0_pay5 x1 n) ∗ owns (c : Thread nD τ) arg7 fullShare (k0_pay4 x0 x1 x2 x3 s) ∗ owns (c : Thread nD τ) arg8 fullShare (k0_pay5 x1 n)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (View.cover_of_tiled _ S16x64.size (by rfl)), View.canon_unit_zero hz2]
    simp only [View.readAt_eq_ld, Memref.IsWhole.read_unread, View.ld_unit_zero (S := S16x6400) hz2, View.ld_unit_zero (S := S6400x64) hz2, View.ld_unit_zero (S := S16x64) hz2]
    exact View.readCov_unit_zero (S := S16x64) arg7.view hz2 _ _
  isplitl [H6]
  · iexists _; isplitr
    swap; · iexact H6
    ipureintro
    sl_unfold_run_names
    rw [View.read_writes_eq_canon _ _ _ (View.cover_of_tiled _ S16x1.size (by rfl)), View.canon_unit_zero hz2]
    simp only [View.readAt_eq_ld, Memref.IsWhole.read_unread, View.ld_unit_zero (S := S16x6400) hz2, View.ld_unit_zero (S := S16x1) hz2]
    exact View.readCov_unit_zero (S := S16x1) arg8.view hz2 _ _
  isplitl [H7]
  · iexists _; isplitr
    swap; · iexact H7
    ipureintro
    sl_unfold_run_names
    rw [View.read_writes_eq_canon _ _ _ (View.cover_of_tiled _ S16x64.size (by rfl)), View.canon_unit_zero hz2]
    simp only [View.readAt_eq_ld, Memref.IsWhole.read_unread, View.ld_unit_zero (S := S16x6400) hz2, View.ld_unit_zero (S := S6400x64) hz2, View.ld_unit_zero (S := S16x64) hz2]
  iexists _; isplitr
  swap; · iexact H8
  ipureintro
  sl_unfold_run_names
  rw [View.read_writes_eq_canon _ _ _ (View.cover_of_tiled _ S16x1.size (by rfl)), View.canon_unit_zero hz2]
  simp only [View.readAt_eq_ld, Memref.IsWhole.read_unread, View.ld_unit_zero (S := S16x6400) hz2, View.ld_unit_zero (S := S16x1) hz2]

/-! ## The inputs' buffers hold their blocks at every point -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

/-! ## The class invariant split at the two accumulators -/

theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ restB (F := F) c) :=
  Pipeline.scopedRest_split_of_list spec0 c [cc0_scratch0, cc0_scratch1] (by decide) (by decide)

theorem PhiA0_split (c : Dev nD) :
    (Pipeline.ΦA spec0 c : sProp 𝕄) ⊢ iprop((∃ d, owns (c : Thread nD τ) scM0_0 fullShare d) ∗ (∃ d, owns (c : Thread nD τ) scM0_1 fullShare d) ∗ restB (F := F) c ∗ (∃ r, prngReg c r)) := by
  unfold Pipeline.ΦA
  rw [scopedRest0_split]
  simp only [scM0_0, scM0_1, owns_whole]
  iintro ⟨⟨⟨H0, H1⟩, HR⟩, Hg⟩
  isplitl [H0]; · iexact H0
  isplitl [H1]; · iexact H1
  isplitl [HR]; · iexact HR
  iexact Hg

theorem PhiA0_join (c : Dev nD) :
    iprop((∃ d, owns (c : Thread nD τ) scM0_0 fullShare d) ∗ (∃ d, owns (c : Thread nD τ) scM0_1 fullShare d) ∗ restB (F := F) c ∗ (∃ r, prngReg c r)) ⊢ (Pipeline.ΦA spec0 c : sProp 𝕄) := by
  unfold Pipeline.ΦA
  rw [scopedRest0_split]
  simp only [scM0_0, scM0_1, owns_whole]
  iintro ⟨H0, H1, HR, Hg⟩
  isplitl [H0 H1 HR]
  · isplitl [H0 H1]
    · isplitl [H0]; · iexact H0
      iexact H1
    iexact HR
  iexact Hg

theorem PhiS_castSucc (c : Dev nD) (t : Fin cfg0.N) :
    (dat0 V c).Φ t.castSucc = PhiS V c t.val (Nat.le_of_lt t.isLt) := by
  dsimp only [dat0]; simp only [Fin.coe_castSucc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- At every point the inputs' buffers hold their blocks and the invariant hands the body the two accumulators at what
    the point before left (anything at the first point); the body leaves them at this point's sums, and at the last
    point also stores them into the two outputs. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  by_cases h1 : t.val = 15
  · have h0 : ¬ t.val = 0 := by omega
    rw [show (dat0 V c).leavesExact 4 t = owns (c : Thread nD τ) (st0_4 t) fullShare ((dat0 V c).after 4 t) from by
      unfold Dat.leavesExact; rw [liveAt0_4 t ((hcond0_1 t).mpr h1)], after0_4]
    rw [show (dat0 V c).leavesExact 5 t = owns (c : Thread nD τ) (st0_5 t) fullShare ((dat0 V c).after 5 t) from by
      unfold Dat.leavesExact; rw [liveAt0_5 t ((hcond0_1 t).mpr h1)], after0_5]
    rw [accAt_later V c t h0]; dsimp only
    rw [PhiS_castSucc V c t, PhiS_pos V c _ _ h0]
    iintro ⟨⟨HS0, HS1, HR, Hg⟩, Ho, ⟨%d0, H0⟩, ⟨%d1, H1⟩, ⟨%d2, H2⟩, ⟨%d3, H3⟩, ⟨%d4, H4⟩, ⟨%d5, H5⟩⟩
    iapply (runC c Set.univ (grid0.coords t) _ _ _ _ _ _ _ _ _ _ _ _ _ _ _ _ (fun h => h0 ((hcond0_0 t).mp h)) ((hcond0_1 t).mpr h1)
      (iblk0 V c 0 t) (iblk0 V c 1 t) (iblk0 V c 2 t) (iblk0 V c 3 t) _ _
      (accAt V c (t.val - 1) (Nat.lt_of_le_of_lt (Nat.sub_le _ _) t.isLt)).1 (accAt V c (t.val - 1) (Nat.lt_of_le_of_lt (Nat.sub_le _ _) t.isLt)).2 _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    by_cases h0 : t.val = 0
    · rw [accAt_first V c t h0]; dsimp only
      rw [PhiS_castSucc V c t, PhiS_zero V c _ _ h0]
      iintro ⟨HΦ, Ho, ⟨%d0, H0⟩, ⟨%d1, H1⟩, ⟨%d2, H2⟩, ⟨%d3, H3⟩, ⟨%d4, H4⟩, ⟨%d5, H5⟩⟩
      ihave HΦ' := PhiA0_split (F := F) c $$ HΦ
      icases HΦ' with ⟨⟨%e0, HS0⟩, ⟨%e1, HS1⟩, HR, Hg⟩
      iapply (runA c Set.univ (grid0.coords t) _ _ _ _ _ _ _ _ _ _ _ _ _ _ _ _ ((hcond0_0 t).mpr h0) (fun h => h1 ((hcond0_1 t).mp h))
        (iblk0 V c 0 t) (iblk0 V c 1 t) (iblk0 V c 2 t) (iblk0 V c 3 t) _ _ e0 e1 _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [accAt_later V c t h0]; dsimp only
      rw [PhiS_castSucc V c t, PhiS_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩⟩
      iapply (runB c Set.univ (grid0.coords t) _ _ _ _ _ _ _ _ _ _ _ _ _ _ _ _ (fun h => h0 ((hcond0_0 t).mp h)) (fun h => h1 ((hcond0_1 t).mp h))
        (iblk0 V c 0 t) (iblk0 V c 1 t) (iblk0 V c 2 t) (iblk0 V c 3 t) _ _
        (accAt V c (t.val - 1) (Nat.lt_of_le_of_lt (Nat.sub_le _ _) t.isLt)).1 (accAt V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega)]
  refine .trans ?_ (PhiA0_join (F := F) c)
  iintro ⟨HS0, HS1, HR, Hg⟩
  isplitl [HS0]; · iexists _; iexact HS0
  isplitl [HS1]; · iexists _; iexact HS1
  isplitl [HR]; · iexact HR
  iexact Hg

end Region0

end Cert.Kernel.Hand

end
-- ==== Proof.K.Reg1.lean ====
/- Region 1 of @main (custom_call 1, the second pass `cc1__pass2_kernel`, pipeline 1), its class-A half at a
   parameter `V` — the TensorCore's buffer contents when the region is entered —, generic in the float
   interpretation `F`: each window's block at a point (`iblk1`), what the body leaves in the output window's
   buffer as a function of the six input blocks (`out1_6`: the one whole-buffer store of the quotient
   `(S − (z·w + b)·m) / (max(n − m, 1) + ε)`), the body's triple (`sound_kernel1`), the pipeline's proof data
   (`dat1`) and the body obligation at every grid point (`body_obligation1`). Windows 4 and 5 (the first pass's
   sums `S` and `n`) have a constant block index: they are fetched at the first point only and their staging
   buffers hold the same block at every later point. -/
import proofs.«127450_j71554155152270_2_alg».proof.Proof.Gen.Kernel.Launch
import proofs.«127450_j71554155152270_2_alg».proof.Proof.Gen.Kernel.Skeleton
import proofs.«127450_j71554155152270_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the previous point's block is this point's; the window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the window is not
    fetched its block index has not moved, so the previous point's block is this point's; the window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the window is not
    fetched its block index has not moved, so the previous point's block is this point's; the window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): where the window is not
    fetched its block index has not moved, so the previous point's block is this point's; the window is uncut and
    never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): where the window is not
    fetched its block index has not moved, so the previous point's block is this point's; the window is uncut and
    never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): where the window is not
    fetched its block index has not moved, so the previous point's block is this point's; the window is uncut and
    never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store is a whole buffer -/

abbrev r1_0 : Rect S16x1024 := Rect.unit (s := S16x1024) ![0, 0] S16x1024.size inb_S16x1024_S16x1024_0_0
abbrev r1_1 : Rect S1024x64 := Rect.unit (s := S1024x64) ![0, 0] S1024x64.size inb_S1024x64_S1024x64_0_0
abbrev r1_2 : Rect S16x64 := Rect.unit (s := S16x64) ![0, 0] S16x64.size inb_S16x64_S16x64_0_0
abbrev r1_3 : Rect S16x1 := Rect.unit (s := S16x1) ![0, 0] S16x1.size inb_S16x1_S16x1_0_0
abbrev r1_4 : Rect S16x1024x64 := Rect.unit (s := S16x1024x64) ![0, 0, 0] S16x1024x64.size inb_S16x1024x64_S16x1024x64_0_0_0

/-! ## What the body leaves in the output window's buffer -/

/-- Window 6's staging buffer after the body, from the six input windows' blocks: its one store as a piece, the
    payload the skeleton's `k1_pay1` of the six whole-buffer loads. -/
def out1_6 (x0 : Vec F S16x1024 .f32) (x1 : Vec F S16x1024 .f32) (x2 : Vec F S1024x64 .f32) (x3 : Vec F S1024x64 .f32)
    (x4 : Vec F S16x64 .f32) (x5 : Vec F S16x1 .f32) : Vec F S16x1024x64 .f32 :=
  View.canon [⟨r1_4, k1_pay1 (View.ld x0 r1_0) (View.ld x1 r1_0) (View.ld x2 r1_1) (View.ld x3 r1_1) (View.ld x4 r1_2) (View.ld x5 r1_3)⟩]

/-- The one store is the whole buffer, so it covers it. -/
theorem cover1_6 (p0 : Vec F S16x1024x64 .f32) (y : S16x1024x64.Idx) :
    ∃ pc ∈ ([⟨r1_4, p0⟩] : List (View.Piece (Elt F) S16x1024x64 .f32)), y ∈ pc.1.set :=
  View.cover_of_tiled [⟨r1_4, p0⟩] S16x1024x64.size (by rfl) y

/-! ## The body's triple -/

set_option maxHeartbeats 1000000 in
/-- The kernel body on whole staging memrefs, the inputs' at read contents `xW` and the output's at anything, runs to
    the continuation holding the inputs' as they were and the output's at `out1_6` of the inputs': the printed
    function is its skeleton, whose six loads, the load of the output buffer and the one store are run in order. -/
theorem sound_kernel1 (c : Dev nD) (E : Set ℕ) (i : grid1.Coords)
    (arg1 : Memref sig .tc .vmem S16x1024 .f32) (harg1 : arg1.IsWhole) (arg2 : Memref sig .tc .vmem S16x1024 .f32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S16x64 .f32) (harg5 : arg5.IsWhole) (arg6 : Memref sig .tc .vmem S16x1 .f32) (harg6 : arg6.IsWhole)
    (arg7 : Memref sig .tc .vmem S16x1024x64 .f32) (harg7 : arg7.IsWhole)
    (x0 : Vec F S16x1024 .f32) (x1 : Vec F S16x1024 .f32) (x2 : Vec F S1024x64 .f32) (x3 : Vec F S1024x64 .f32)
    (x4 : Vec F S16x64 .f32) (x5 : Vec F S16x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__pass2_kernel i arg1 harg1 arg2 harg2 arg3 harg3 arg4 harg4 arg5 harg5 arg6 harg6 arg7 harg7) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and the output's at `out1_6` of the six input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/- THE RUN of @main through its 19 items — 17 host stretches and the two kernel regions —, generic in the float
   interpretation `F`: the TensorCore's buffer contents at every boundary between items, a fold from the launch
   memory (`W0` … `W19`: a host stretch's operations applied in order; a region's arrays at what its write-backs
   leave, every other buffer as entered); every region's proof data at its entry contents (`V8e`, `V17e`); each item as
   a segment over the thread state "every unscoped buffer at the boundary's contents, the generator register at some
   state, nothing owed"; and the launch. `run_all`: every weakly fair execution terminates and every final memory
   holds, at every unscoped buffer, the last boundary's contents `W19`. Read off it: the frame (each argument array
   walks back through the fold to its launch contents), the result `main_v24` as the last host operation applied to
   region 1's output array, and region 0's first output array `main_v18_0` as region 0 left it. -/
import proofs.«127450_j71554155152270_2_alg».proof.Proof.K.Reg0
import proofs.«127450_j71554155152270_2_alg».proof.Proof.K.Reg1
import proofs.«127450_j71554155152270_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- After `hostOps0_7`. -/
abbrev W8 : Dev nD → Valuation τ sig (Elt F) := fun c => StableHlo.after hostOps0_7 (W7 m ρ c)
/-- Region 0's entry contents, read at the TensorCore's references (what region 0's proof data take). -/
abbrev V8e : (c : Dev nD) → (b : Ref sig .tc) → Buf (Elt F) ((c : Thread nD τ).loc b) := fun c b => W8 m ρ c b
/-- At region 0's exit: its arrays at what the pipeline leaves (the inputs as entered, each output's write-backs
    folded), every other buffer as entered. -/
def W9 (c : Dev nD) : Valuation τ sig (Elt F) :=
  Pipeline.withArrays spec0 c (W8 m ρ c) fun w => (dat0 (V8e m ρ) c).arrAt w cfg0.N
theorem W9_arr (c : Dev nD) (w : Fin cfg0.W) :
    W9 m ρ c (Proc.devRef .tc (Pipeline.arrRef spec0 w)) = (dat0 (V8e m ρ) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m ρ c (Proc.devRef .tc b) = W8 m ρ c (Proc.devRef .tc b) := by
  unfold W9; exact Pipeline.withArrays_of_ne spec0 c _ _ b hb
/-- The same read at the TensorCore's references (region 0's exit contents). -/
abbrev V9x : (c : Dev nD) → (b : Ref sig .tc) → Buf (Elt F) ((c : Thread nD τ).loc b) := fun c b => W9 m ρ c b
/-- At region 0's exit each of its arrays holds what the pipeline leaves (`hF0`) and every other buffer what it
    held at entry (`hrest0`). -/
theorem hF0 (c : Dev nD) (w : Fin cfg0.W) : (dat0 (V8e m ρ) c).arrAt w cfg0.N = V9x m ρ c (Pipeline.arrRef spec0 w) :=
  (W9_arr m ρ c w).symm
theorem hrest0 (c : Dev nD) : ∀ b, b ∉ Finset.univ.image (Pipeline.arrRef spec0) → V9x m ρ c b = V8e m ρ c b :=
  fun b hb => W9_of_ne m ρ c b fun w e => hb (Finset.mem_image.mpr ⟨w, Finset.mem_univ _, e⟩)

/-- After `hostOps1`. -/
abbrev W10 : Dev nD → Valuation τ sig (Elt F) := fun c => StableHlo.after hostOps1 (W9 m ρ c)
/-- After `hostOps1_1`. -/
abbrev W11 : Dev nD → Valuation τ sig (Elt F) := fun c => StableHlo.after hostOps1_1 (W10 m ρ c)
/-- After `hostOps1_2`. -/
abbrev W12 : Dev nD → Valuation τ sig (Elt F) := fun c => StableHlo.after hostOps1_2 (W11 m ρ c)
/-- After `hostOps1_3`. -/
abbrev W13 : Dev nD → Valuation τ sig (Elt F) := fun c => StableHlo.after hostOps1_3 (W12 m ρ c)
/-- After `hostOps1_4`. -/
abbrev W14 : Dev nD → Valuation τ sig (Elt F) := fun c => StableHlo.after hostOps1_4 (W13 m ρ c)
/-- After `hostOps1_5`. -/
abbrev W15 : Dev nD → Valuation τ sig (Elt F) := fun c => StableHlo.after hostOps1_5 (W14 m ρ c)
/-- After `hostOps1_6`. -/
abbrev W16 : Dev nD → Valuation τ sig (Elt F) := fun c => StableHlo.after hostOps1_6 (W15 m ρ c)
/-- After `hostOps1_7`. -/
abbrev W17 : Dev nD → Valuation τ sig (Elt F) := fun c => StableHlo.after hostOps1_7 (W16 m ρ c)
/-- Region 1's entry contents, read at the TensorCore's references (what region 1's proof data take). -/
abbrev V17e : (c : Dev nD) → (b : Ref sig .tc) → Buf (Elt F) ((c : Thread nD τ).loc b) := fun c b => W17 m ρ c b
/-- At region 1's exit: its arrays at what the pipeline leaves (the inputs as entered, each output's write-backs
    folded), every other buffer as entered. -/
def W18 (c : Dev nD) : Valuation τ sig (Elt F) :=
  Pipeline.withArrays spec1 c (W17 m ρ c) fun w => (dat1 (V17e m ρ) c).arrAt w cfg1.N
theorem W18_arr (c : Dev nD) (w : Fin cfg1.W) :
    W18 m ρ c (Proc.devRef .tc (Pipeline.arrRef spec1 w)) = (dat1 (V17e m ρ) c).arrAt w cfg1.N := by
  unfold W18; exact Pipeline.withArrays_arr spec1 launch1.win.arr_inj c _ _ w
theorem W18_of_ne (c : Dev nD) (b : Ref sig .tc) (hb : ∀ w, Pipeline.arrRef spec1 w ≠ b) :
    W18 m ρ c (Proc.devRef .tc b) = W17 m ρ c (Proc.devRef .tc b) := by
  unfold W18; exact Pipeline.withArrays_of_ne spec1 c _ _ b hb
/-- The same read at the TensorCore's references (region 1's exit contents). -/
abbrev V18x : (c : Dev nD) → (b : Ref sig .tc) → Buf (Elt F) ((c : Thread nD τ).loc b) := fun c b => W18 m ρ c b
/-- At region 1's exit each of its arrays holds what the pipeline leaves (`hF1`) and every other buffer what it
    held at entry (`hrest1`). -/
theorem hF1 (c : Dev nD) (w : Fin cfg1.W) : (dat1 (V17e m ρ) c).arrAt w cfg1.N = V18x m ρ c (Pipeline.arrRef spec1 w) :=
  (W18_arr m ρ c w).symm
theorem hrest1 (c : Dev nD) : ∀ b, b ∉ Finset.univ.image (Pipeline.arrRef spec1) → V18x m ρ c b = V17e m ρ c b :=
  fun b hb => W18_of_ne m ρ c b fun w e => hb (Finset.mem_image.mpr ⟨w, Finset.mem_univ _, e⟩)

/-- After `hostOps2`. -/
abbrev W19 : Dev nD → Valuation τ sig (Elt F) := fun c => StableHlo.after hostOps2 (W18 m ρ c)

/-! ## What each host stretch leaves unchanged: a reference none of its operations writes -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W10_of (c : Dev nD) (r : Ref sig .tc) (h : r ∉ hostOps1_W) : W10 m ρ c (Proc.devRef .tc r) = W9 m ρ c (Proc.devRef .tc r) :=
  StableHlo.after_of_writes_sub hostOps1 _ hostOps1_writes h
theorem W11_of (c : Dev nD) (r : Ref sig .tc) (h : r ∉ hostOps1_1_W) : W11 m ρ c (Proc.devRef .tc r) = W10 m ρ c (Proc.devRef .tc r) :=
  StableHlo.after_of_writes_sub hostOps1_1 _ hostOps1_1_writes h
theorem W12_of (c : Dev nD) (r : Ref sig .tc) (h : r ∉ hostOps1_2_W) : W12 m ρ c (Proc.devRef .tc r) = W11 m ρ c (Proc.devRef .tc r) :=
  StableHlo.after_of_writes_sub hostOps1_2 _ hostOps1_2_writes h
theorem W13_of (c : Dev nD) (r : Ref sig .tc) (h : r ∉ hostOps1_3_W) : W13 m ρ c (Proc.devRef .tc r) = W12 m ρ c (Proc.devRef .tc r) :=
  StableHlo.after_of_writes_sub hostOps1_3 _ hostOps1_3_writes h
theorem W14_of (c : Dev nD) (r : Ref sig .tc) (h : r ∉ hostOps1_4_W) : W14 m ρ c (Proc.devRef .tc r) = W13 m ρ c (Proc.devRef .tc r) :=
  StableHlo.after_of_writes_sub hostOps1_4 _ hostOps1_4_writes h
theorem W15_of (c : Dev nD) (r : Ref sig .tc) (h : r ∉ hostOps1_5_W) : W15 m ρ c (Proc.devRef .tc r) = W14 m ρ c (Proc.devRef .tc r) :=
  StableHlo.after_of_writes_sub hostOps1_5 _ hostOps1_5_writes h
theorem W16_of (c : Dev nD) (r : Ref sig .tc) (h : r ∉ hostOps1_6_W) : W16 m ρ c (Proc.devRef .tc r) = W15 m ρ c (Proc.devRef .tc r) :=
  StableHlo.after_of_writes_sub hostOps1_6 _ hostOps1_6_writes h
theorem W17_of (c : Dev nD) (r : Ref sig .tc) (h : r ∉ hostOps1_7_W) : W17 m ρ c (Proc.devRef .tc r) = W16 m ρ c (Proc.devRef .tc r) :=
  StableHlo.after_of_writes_sub hostOps1_7 _ hostOps1_7_writes h
theorem W19_of (c : Dev nD) (r : Ref sig .tc) (h : r ∉ hostOps2_W) : W19 m ρ c (Proc.devRef .tc r) = W18 m ρ c (Proc.devRef .tc r) :=
  StableHlo.after_of_writes_sub hostOps2 _ hostOps2_writes h

/-! ## The arguments end as launched -/

/-- `main_arg0` ends as launched: no host stretch writes it and it is no window's array of either region. -/
theorem W19_main_arg0 (c : Dev nD) : W19 m ρ c (Proc.devRef .tc main_arg0) = m ((c : Thread nD τ).loc main_arg0) :=
  (W19_of m ρ c main_arg0 (by decide)).trans <|
  (W18_of_ne m ρ c main_arg0 (by decide)).trans <|
  (W17_of m ρ c main_arg0 (by decide)).trans <|
  (W16_of m ρ c main_arg0 (by decide)).trans <|
  (W15_of m ρ c main_arg0 (by decide)).trans <|
  (W14_of m ρ c main_arg0 (by decide)).trans <|
  (W13_of m ρ c main_arg0 (by decide)).trans <|
  (W12_of m ρ c main_arg0 (by decide)).trans <|
  (W11_of m ρ c main_arg0 (by decide)).trans <|
  (W10_of m ρ c main_arg0 (by decide)).trans <|
  (W9_of_ne m ρ c main_arg0 (by decide)).trans <|
  (W8_of m ρ c main_arg0 (by decide)).trans <|
  (W7_of m ρ c main_arg0 (by decide)).trans <|
  (W6_of m ρ c main_arg0 (by decide)).trans <|
  (W5_of m ρ c main_arg0 (by decide)).trans <|
  (W4_of m ρ c main_arg0 (by decide)).trans <|
  (W3_of m ρ c main_arg0 (by decide)).trans <|
  (W2_of m ρ c main_arg0 (by decide)).trans <|
  (W1_of m ρ c main_arg0 (by decide)).trans <|
  rfl
/-- `main_arg1` ends as launched: no host stretch writes it and it is no window's array of either region. -/
theorem W19_main_arg1 (c : Dev nD) : W19 m ρ c (Proc.devRef .tc main_arg1) = m ((c : Thread nD τ).loc main_arg1) :=
  (W19_of m ρ c main_arg1 (by decide)).trans <|
  (W18_of_ne m ρ c main_arg1 (by decide)).trans <|
  (W17_of m ρ c main_arg1 (by decide)).trans <|
  (W16_of m ρ c main_arg1 (by decide)).trans <|
  (W15_of m ρ c main_arg1 (by decide)).trans <|
  (W14_of m ρ c main_arg1 (by decide)).trans <|
  (W13_of m ρ c main_arg1 (by decide)).trans <|
  (W12_of m ρ c main_arg1 (by decide)).trans <|
  (W11_of m ρ c main_arg1 (by decide)).trans <|
  (W10_of m ρ c main_arg1 (by decide)).trans <|
  (W9_of_ne m ρ c main_arg1 (by decide)).trans <|
  (W8_of m ρ c main_arg1 (by decide)).trans <|
  (W7_of m ρ c main_arg1 (by decide)).trans <|
  (W6_of m ρ c main_arg1 (by decide)).trans <|
  (W5_of m ρ c main_arg1 (by decide)).trans <|
  (W4_of m ρ c main_arg1 (by decide)).trans <|
  (W3_of m ρ c main_arg1 (by decide)).trans <|
  (W2_of m ρ c main_arg1 (by decide)).trans <|
  (W1_of m ρ c main_arg1 (by decide)).trans <|
  rfl
/-- `main_arg2` ends as launched: no host stretch writes it and it is no window's array of either region. -/
theorem W19_main_arg2 (c : Dev nD) : W19 m ρ c (Proc.devRef .tc main_arg2) = m ((c : Thread nD τ).loc main_arg2) :=
  (W19_of m ρ c main_arg2 (by decide)).trans <|
  (W18_of_ne m ρ c main_arg2 (by decide)).trans <|
  (W17_of m ρ c main_arg2 (by decide)).trans <|
  (W16_of m ρ c main_arg2 (by decide)).trans <|
  (W15_of m ρ c main_arg2 (by decide)).trans <|
  (W14_of m ρ c main_arg2 (by decide)).trans <|
  (W13_of m ρ c main_arg2 (by decide)).trans <|
  (W12_of m ρ c main_arg2 (by decide)).trans <|
  (W11_of m ρ c main_arg2 (by decide)).trans <|
  (W10_of m ρ c main_arg2 (by decide)).trans <|
  (W9_of_ne m ρ c main_arg2 (by decide)).trans <|
  (W8_of m ρ c main_arg2 (by decide)).trans <|
  (W7_of m ρ c main_arg2 (by decide)).trans <|
  (W6_of m ρ c main_arg2 (by decide)).trans <|
  (W5_of m ρ c main_arg2 (by decide)).trans <|
  (W4_of m ρ c main_arg2 (by decide)).trans <|
  (W3_of m ρ c main_arg2 (by decide)).trans <|
  (W2_of m ρ c main_arg2 (by decide)).trans <|
  (W1_of m ρ c main_arg2 (by decide)).trans <|
  rfl
/-- `main_arg3` ends as launched: no host stretch writes it and it is no window's array of either region. -/
theorem W19_main_arg3 (c : Dev nD) : W19 m ρ c (Proc.devRef .tc main_arg3) = m ((c : Thread nD τ).loc main_arg3) :=
  (W19_of m ρ c main_arg3 (by decide)).trans <|
  (W18_of_ne m ρ c main_arg3 (by decide)).trans <|
  (W17_of m ρ c main_arg3 (by decide)).trans <|
  (W16_of m ρ c main_arg3 (by decide)).trans <|
  (W15_of m ρ c main_arg3 (by decide)).trans <|
  (W14_of m ρ c main_arg3 (by decide)).trans <|
  (W13_of m ρ c main_arg3 (by decide)).trans <|
  (W12_of m ρ c main_arg3 (by decide)).trans <|
  (W11_of m ρ c main_arg3 (by decide)).trans <|
  (W10_of m ρ c main_arg3 (by decide)).trans <|
  (W9_of_ne m ρ c main_arg3 (by decide)).trans <|
  (W8_of m ρ c main_arg3 (by decide)).trans <|
  (W7_of m ρ c main_arg3 (by decide)).trans <|
  (W6_of m ρ c main_arg3 (by decide)).trans <|
  (W5_of m ρ c main_arg3 (by decide)).trans <|
  (W4_of m ρ c main_arg3 (by decide)).trans <|
  (W3_of m ρ c main_arg3 (by decide)).trans <|
  (W2_of m ρ c main_arg3 (by decide)).trans <|
  (W1_of m ρ c main_arg3 (by decide)).trans <|
  rfl
/-- `main_arg4` ends as launched: no host stretch writes it and it is no window's array of either region. -/
theorem W19_main_arg4 (c : Dev nD) : W19 m ρ c (Proc.devRef .tc main_arg4) = m ((c : Thread nD τ).loc main_arg4) :=
  (W19_of m ρ c main_arg4 (by decide)).trans <|
  (W18_of_ne m ρ c main_arg4 (by decide)).trans <|
  (W17_of m ρ c main_arg4 (by decide)).trans <|
  (W16_of m ρ c main_arg4 (by decide)).trans <|
  (W15_of m ρ c main_arg4 (by decide)).trans <|
  (W14_of m ρ c main_arg4 (by decide)).trans <|
  (W13_of m ρ c main_arg4 (by decide)).trans <|
  (W12_of m ρ c main_arg4 (by decide)).trans <|
  (W11_of m ρ c main_arg4 (by decide)).trans <|
  (W10_of m ρ c main_arg4 (by decide)).trans <|
  (W9_of_ne m ρ c main_arg4 (by decide)).trans <|
  (W8_of m ρ c main_arg4 (by decide)).trans <|
  (W7_of m ρ c main_arg4 (by decide)).trans <|
  (W6_of m ρ c main_arg4 (by decide)).trans <|
  (W5_of m ρ c main_arg4 (by decide)).trans <|
  (W4_of m ρ c main_arg4 (by decide)).trans <|
  (W3_of m ρ c main_arg4 (by decide)).trans <|
  (W2_of m ρ c main_arg4 (by decide)).trans <|
  (W1_of m ρ c main_arg4 (by decide)).trans <|
  rfl

/-! ## The two arrays the values are read from -/

/-- Region 0's first output array `main_v18_0` at the end is what region 0 left in it: region 1 stages it through an
    input window (which leaves the array as entered) and no host stretch after region 0 writes it. -/
theorem W19_v18_0 (c : Dev nD) : W19 m ρ c (Proc.devRef .tc main_v18_0) = (dat0 (V8e m ρ) c).arrAt 4 cfg0.N :=
  (W19_of m ρ c main_v18_0 (by decide)).trans <|
  ((W18_arr m ρ c 4).trans (((dat1 (V17e m ρ) c).arrAt_in 4 rfl _).trans (A_eq1 (V17e m ρ) c 4))).trans <|
  (W17_of m ρ c main_v18_0 (by decide)).trans <|
  (W16_of m ρ c main_v18_0 (by decide)).trans <|
  (W15_of m ρ c main_v18_0 (by decide)).trans <|
  (W14_of m ρ c main_v18_0 (by decide)).trans <|
  (W13_of m ρ c main_v18_0 (by decide)).trans <|
  (W12_of m ρ c main_v18_0 (by decide)).trans <|
  (W11_of m ρ c main_v18_0 (by decide)).trans <|
  (W10_of m ρ c main_v18_0 (by decide)).trans <|
  W9_arr m ρ c 4

/-- The result `main_v24` at the end is the last host operation, the slice to the first 100000 rows, applied to
    region 1's output array as region 1 left it. -/
theorem W19_v24 (c : Dev nD) : W19 m ρ c (Proc.devRef .tc main_v24)
    = extractStridedSlice S16x100000x64 ![0, 0, 0] ((dat1 (V17e m ρ) c).arrAt 6 cfg1.N) slices_S16x100352x64_S16x100000x64_0_0_0 :=
  by
  have h6 : W18 m ρ c (Proc.devRef .tc main_v23) = (dat1 (V17e m ρ) c).arrAt 6 cfg1.N := W18_arr m ρ c 6
  show (StableHlo.unary main_v23 main_v24 ((extractStridedSlice S16x100000x64 ![0, 0, 0] · slices_S16x100352x64_S16x100000x64_0_0_0) : (⟨S16x100352x64, .f32⟩ : BufTy).Contents (Elt F) → (⟨S16x100000x64, .f32⟩ : BufTy).Contents (Elt F)) : HloOp τ sig (Elt F)).result (W18 m ρ c) (Proc.devRef .tc main_v24) = _
  rw [StableHlo.unary_result', h6]

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V8e m ρ) c
  | ⟨1, _⟩ => fun c => dat1 (V17e m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it ends with
    those references at the stretch's operations applied to `W c`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W19`, the
    generator register at some state. -/
abbrev Tₙ (c : Dev nD) : sProp 𝕄 := iprop(StableHlo.held (c : Thread nD τ) (Pipeline.ucRefs τ sig) (W19 m ρ c) ∗ ∃ r, prngReg c r)

/-! ## The regions as segments -/

set_option backward.isDefEq.respectTransparency.types false in
/-- REGION 0 (custom_call 0) over the thread state: entered from every unscoped buffer at `W8`, left at `W9`. Its
    arrays are split out of the unscoped buffers at entry and put back at the exit contents; the generator register
    goes into the region's invariant and comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V8e m ρ) c).loose
  hwaits := Pipeline.hwaits_of_owed_zero _ _ _ _ L lv 0 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec0 c (V8e m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V8e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop((∃ r, prngReg c r) ∗ Pipeline.prefHeld (pcfgs (F := F) 0).pre c (fun _ => fullShare) (adm (F := F) 0).1 ∗ Pipeline.scopedRest (Pipeline.pin (pcfgs (F := F)) adm 0).spec c) ⊢ (Pipeline.ΦA spec0 c : sProp 𝕄) from ?_).trans
      (show (Pipeline.ΦA spec0 c : sProp 𝕄) ⊢ (pdats m ρ 0 c).Φ 0 from hin0 (V8e m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from hout0 (V8e m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V8e m ρ c) (V9x m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W17`, left at `W18`. Its
    arrays are split out of the unscoped buffers at entry and put back at the exit contents; the generator register
    goes into the region's invariant and comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V17e m ρ) c).loose
  hwaits := Pipeline.hwaits_of_owed_zero _ _ _ _ L lv 1 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec1 c (V17e m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V17e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V17e m ρ c) (V18x m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 19 segments in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .region (reg0 m ρ),
    .host (hseg hostOps1 hostOps1_sub hostOps1_fresh (W9 m ρ)),
    .host (hseg hostOps1_1 hostOps1_1_sub hostOps1_1_fresh (W10 m ρ)),
    .host (hseg hostOps1_2 hostOps1_2_sub hostOps1_2_fresh (W11 m ρ)),
    .host (hseg hostOps1_3 hostOps1_3_sub hostOps1_3_fresh (W12 m ρ)),
    .host (hseg hostOps1_4 hostOps1_4_sub hostOps1_4_fresh (W13 m ρ)),
    .host (hseg hostOps1_5 hostOps1_5_sub hostOps1_5_fresh (W14 m ρ)),
    .host (hseg hostOps1_6 hostOps1_6_sub hostOps1_6_fresh (W15 m ρ)),
    .host (hseg hostOps1_7 hostOps1_7_sub hostOps1_7_fresh (W16 m ρ)),
    .region (reg1 m ρ),
    .host (hseg hostOps2 hostOps2_sub hostOps2_fresh (W18 m ρ)) ]

/-- @main is the run of the segments: @main is the chain of its items, and so is the segments' run. -/
theorem main_run (c : Dev nD) : main (F := F) c = Pipeline.Seg.run (segs m ρ) := by
  rw [main_chain c, Pipeline.Seg.run_eq_chain]
  rfl

set_option backward.isDefEq.respectTransparency.types false in
/-- THE RUN: at the compiled mesh, from any memory with zero counters, every weakly fair execution of @main on the
    TensorCores terminates, nothing faulting, and every final memory holds at every unscoped buffer of every core the
    last boundary's contents `W19`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W19 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- THE FRAME, at any `F`: every weakly fair execution of @main terminates and every final memory has the five
    argument arrays as launched — each read off `run_all`'s post and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W19_main_arg0 m ρ c),
     (h c _ (mem_uc main_arg1 (by decide))).trans (W19_main_arg1 m ρ c),
     (h c _ (mem_uc main_arg2 (by decide))).trans (W19_main_arg2 m ρ c),
     (h c _ (mem_uc main_arg3 (by decide))).trans (W19_main_arg3 m ρ c),
     (h c _ (mem_uc main_arg4 (by decide))).trans (W19_main_arg4 m ρ c)⟩) (run_all m ρ)

end Cert.Kernel.Hand

end
-- ==== Proof.KI.Reg0.lean ====
import proofs.«127450_j71554155152270_2_alg».proof.Proof.Gen.KernelIdeal.Launch
import proofs.«127450_j71554155152270_2_alg».proof.Proof.Gen.KernelIdeal.Skeleton
import proofs.«127450_j71554155152270_2_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks of the first call -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two accumulators, point by point -/

/-- What the two scratch accumulators hold after grid point `n`: the running sum of the chunks' matrix products
    (first component) and the running row sums of the mask (second component). At the first point both start from
    the zero fill; afterwards each adds this point's chunk to what the point before left. -/
def accAt (c : Dev nD) : (n : ℕ) → n < cfg0.N → Vec F S16x64 .f32 × Vec F S16x1 .f32
  | 0, hn => (k0_pay4 (iblk0 V c 0 ⟨0, hn⟩) (iblk0 V c 1 ⟨0, hn⟩) (iblk0 V c 2 ⟨0, hn⟩) (iblk0 V c 3 ⟨0, hn⟩) (k0_pay1 (F := F)),
      k0_pay5 (iblk0 V c 1 ⟨0, hn⟩) (k0_pay2 (F := F)))
  | n + 1, hn => (k0_pay4 (iblk0 V c 0 ⟨n + 1, hn⟩) (iblk0 V c 1 ⟨n + 1, hn⟩) (iblk0 V c 2 ⟨n + 1, hn⟩) (iblk0 V c 3 ⟨n + 1, hn⟩) (accAt c n (Nat.lt_of_succ_lt hn)).1,
      k0_pay5 (iblk0 V c 1 ⟨n + 1, hn⟩) (accAt c n (Nat.lt_of_succ_lt hn)).2)

theorem accAt_first (c : Dev nD) (t : Fin cfg0.N) (h : t.val = 0) :
    accAt V c t.val t.isLt = (k0_pay4 (iblk0 V c 0 t) (iblk0 V c 1 t) (iblk0 V c 2 t) (iblk0 V c 3 t) (k0_pay1 (F := F)), k0_pay5 (iblk0 V c 1 t) (k0_pay2 (F := F))) := by
  obtain ⟨n, hn⟩ := t
  cases n with
  | zero => rfl
  | succ n => exact absurd h (Nat.succ_ne_zero n)

theorem accAt_later (c : Dev nD) (t : Fin cfg0.N) (h : t.val ≠ 0) :
    accAt V c t.val t.isLt = (k0_pay4 (iblk0 V c 0 t) (iblk0 V c 1 t) (iblk0 V c 2 t) (iblk0 V c 3 t) (accAt V c (t.val - 1) (Nat.lt_of_le_of_lt (Nat.sub_le _ _) t.isLt)).1,
      k0_pay5 (iblk0 V c 1 t) (accAt V c (t.val - 1) (Nat.lt_of_le_of_lt (Nat.sub_le _ _) t.isLt)).2) := by
  obtain ⟨n, hn⟩ := t
  cases n with
  | zero => exact absurd rfl h
  | succ n => rfl

/-! ## The region invariant -/

/-- The two scratch operands as whole memrefs. -/
abbrev scM0_0 : Memref sig .tc .vmem S16x64 .f32 := Memref.whole cc0_scratch0
abbrev scM0_1 : Memref sig .tc .vmem S16x1 .f32 := Memref.whole cc0_scratch1

/-- Every other scoped buffer that is no staging buffer of this call, at some contents. -/
def restB (c : Dev nD) : sProp 𝕄 :=
  Pipeline.scopedRestBut (Ix := Unit) (Name := ℕ) (U := UR sig nD τ) (Lvl := ℕ) (Val := Elt F) spec0 c [cc0_scratch0, cc0_scratch1]

/-- Before the first point: the scoped rest at anything and the generator register. After point `n`: the two
    accumulators at `accAt n`, the other scoped buffers at anything, the generator register. -/
def PhiS (c : Dev nD) : (n : ℕ) → n ≤ cfg0.N → sProp 𝕄
  | 0, _ => Pipeline.ΦA spec0 c
  | n + 1, hn => iprop(owns (c : Thread nD τ) scM0_0 fullShare (accAt V c n hn).1 ∗ owns (c : Thread nD τ) scM0_1 fullShare (accAt V c n hn).2
      ∗ restB (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scM0_0 fullShare (accAt V c n hn).1 ∗ owns (c : Thread nD τ) scM0_1 fullShare (accAt V c n hn).2
      ∗ restB (F := F) c ∗ (∃ r, prngReg c r)) := rfl

theorem PhiS_pos (c : Dev nD) (n : ℕ) (h : n ≤ cfg0.N) (hz : n ≠ 0) :
    PhiS V c n h = iprop(owns (c : Thread nD τ) scM0_0 fullShare (accAt V c (n - 1) (by omega)).1 ∗ owns (c : Thread nD τ) scM0_1 fullShare (accAt V c (n - 1) (by omega)).2
      ∗ restB (F := F) c ∗ (∃ r, prngReg c r)) := by
  cases n with
  | zero => exact absurd rfl hz
  | succ n => rfl

/-! ## The proof data of the first call -/

/-- The arrays as the region finds them; after the body each input's buffer at its block, the two outputs' at the
    accumulators (they are stored at the last point only, and written back there only); the invariant `PhiS`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (accAt V c t.val t.isLt).1
    | ⟨5, _⟩ => (accAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (accAt V c t.val t.isLt).1 := by dsimp only [dat0]
theorem after0_5 (c : Dev nD) (t : Fin cfg0.N) : (dat0 V c).after 5 t = (accAt V c t.val t.isLt).2 := by dsimp only [dat0]

/-! ## The body's accesses: every load and store is the whole buffer -/

theorem hz2 : (![0, 0] : Fin 2 → Nat) = fun _ => 0 := by funext a; fin_cases a <;> rfl

abbrev cond0_0 (i : grid0.Coords) : Prop := (Scalar.cmpi .ne (Scalar.extui (Scalar.cmpi .eq (BitVec.ofNat 32 (i 0).val) 0#32)) 0#32) = 1#1
abbrev cond0_1 (i : grid0.Coords) : Prop := k0_cond2 i = 1#1

/-- The first branch is taken at the first grid point only, the second at the last only. -/
theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 15 :=
  (by decide +kernel : ∀ t : Fin grid0.N, cond0_1 (grid0.coords t) ↔ t.val = 15)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The body's triples, one per case of its two conditionals -/

set_option maxHeartbeats 4000000 in
theorem runB (c : Dev nD) (E : Set ℕ) (i : grid0.Coords) (arg1 : Memref sig .tc .vmem S16x6400 .f32) (harg1 : arg1.IsWhole) (arg2 : Memref sig .tc .vmem S16x6400 .f32) (harg2 : arg2.IsWhole) (arg3 : Memref sig .tc .vmem S6400x64 .f32) (harg3 : arg3.IsWhole) (arg4 : Memref sig .tc .vmem S6400x64 .f32) (harg4 : arg4.IsWhole) (arg5 : Memref sig .tc .vmem S16x64 .f32) (harg5 : arg5.IsWhole) (arg6 : Memref sig .tc .vmem S16x1 .f32) (harg6 : arg6.IsWhole) (arg7 : Memref sig .tc .vmem S16x64 .f32) (harg7 : arg7.IsWhole) (arg8 : Memref sig .tc .vmem S16x1 .f32) (harg8 : arg8.IsWhole)
    (hc0 : ¬cond0_0 i) (hc1 : ¬cond0_1 i)
    (x0 x1 : Vec F S16x6400 .f32) (x2 x3 : Vec F S6400x64 .f32) (y4 : Vec F S16x64 .f32) (y5 : Vec F S16x1 .f32) (s : Vec F S16x64 .f32) (n : Vec F S16x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5 ∗ owns (c : Thread nD τ) arg7 fullShare s ∗ owns (c : Thread nD τ) arg8 fullShare n
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y4 ∗ owns (c : Thread nD τ) arg6 fullShare y5 ∗ owns (c : Thread nD τ) arg7 fullShare (k0_pay4 x0 x1 x2 x3 s) ∗ owns (c : Thread nD τ) arg8 fullShare (k0_pay5 x1 n)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [View.read_writes_eq_canon _ _ _ (View.cover_of_tiled _ S16x64.size (by rfl)), View.canon_unit_zero hz2]
    simp only [View.readAt_eq_ld, Memref.IsWhole.read_unread, View.ld_unit_zero (S := S16x6400) hz2, View.ld_unit_zero (S := S6400x64) hz2, View.ld_unit_zero (S := S16x64) hz2]
  iexists _; isplitr
  swap; · iexact H8
  ipureintro
  rw [View.read_writes_eq_canon _ _ _ (View.cover_of_tiled _ S16x1.size (by rfl)), View.canon_unit_zero hz2]
  simp only [View.readAt_eq_ld, Memref.IsWhole.read_unread, View.ld_unit_zero (S := S16x6400) hz2, View.ld_unit_zero (S := S16x1) hz2]

set_option maxHeartbeats 4000000 in
theorem runA (c : Dev nD) (E : Set ℕ) (i : grid0.Coords) (arg1 : Memref sig .tc .vmem S16x6400 .f32) (harg1 : arg1.IsWhole) (arg2 : Memref sig .tc .vmem S16x6400 .f32) (harg2 : arg2.IsWhole) (arg3 : Memref sig .tc .vmem S6400x64 .f32) (harg3 : arg3.IsWhole) (arg4 : Memref sig .tc .vmem S6400x64 .f32) (harg4 : arg4.IsWhole) (arg5 : Memref sig .tc .vmem S16x64 .f32) (harg5 : arg5.IsWhole) (arg6 : Memref sig .tc .vmem S16x1 .f32) (harg6 : arg6.IsWhole) (arg7 : Memref sig .tc .vmem S16x64 .f32) (harg7 : arg7.IsWhole) (arg8 : Memref sig .tc .vmem S16x1 .f32) (harg8 : arg8.IsWhole)
    (hc0 : cond0_0 i) (hc1 : ¬cond0_1 i)
    (x0 x1 : Vec F S16x6400 .f32) (x2 x3 : Vec F S6400x64 .f32) (y4 : Vec F S16x64 .f32) (y5 : Vec F S16x1 .f32) (s : Vec F S16x64 .f32) (n : Vec F S16x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5 ∗ owns (c : Thread nD τ) arg7 fullShare s ∗ owns (c : Thread nD τ) arg8 fullShare n
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare y4 ∗ owns (c : Thread nD τ) arg6 fullShare y5 ∗ owns (c : Thread nD τ) arg7 fullShare (k0_pay4 x0 x1 x2 x3 (k0_pay1 (F := F))) ∗ owns (c : Thread nD τ) arg8 fullShare (k0_pay5 x1 (k0_pay2 (F := F)))) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    sl_unfold_run_names
    refine (View.read_writes_of_cover_last _ _ arg7.view (harg7.unread s) _ _ [] (View.mem_set_unit_zero (S := S16x64) hz2 inb_S16x64_S16x64_0_0)).trans ?_
    rw [View.read_writes_eq_canon _ _ _ (View.cover_of_tiled _ S16x64.size (by rfl)), View.canon_unit_zero hz2]
    simp only [View.readAt_eq_ld, Memref.IsWhole.read_unread, View.ld_unit_zero (S := S16x6400) hz2, View.ld_unit_zero (S := S6400x64) hz2, View.ld_unit_zero (S := S16x64) hz2]
    exact congrArg (k0_pay4 x0 x1 x2 x3) (View.readCov_unit_zero (S := S16x64) arg7.view hz2 _ _)
  iexists _; isplitr
  swap; · iexact H8
  ipureintro
  sl_unfold_run_names
  refine (View.read_writes_of_cover_last _ _ arg8.view (harg8.unread n) _ _ [] (View.mem_set_unit_zero (S := S16x1) hz2 inb_S16x1_S16x1_0_0)).trans ?_
  rw [View.read_writes_eq_canon _ _ _ (View.cover_of_tiled _ S16x1.size (by rfl)), View.canon_unit_zero hz2]
  simp only [View.readAt_eq_ld, Memref.IsWhole.read_unread, View.ld_unit_zero (S := S16x6400) hz2, View.ld_unit_zero (S := S16x1) hz2]
  exact congrArg (k0_pay5 x1) (View.readCov_unit_zero (S := S16x1) arg8.view hz2 _ _)

set_option maxHeartbeats 4000000 in
theorem runC (c : Dev nD) (E : Set ℕ) (i : grid0.Coords) (arg1 : Memref sig .tc .vmem S16x6400 .f32) (harg1 : arg1.IsWhole) (arg2 : Memref sig .tc .vmem S16x6400 .f32) (harg2 : arg2.IsWhole) (arg3 : Memref sig .tc .vmem S6400x64 .f32) (harg3 : arg3.IsWhole) (arg4 : Memref sig .tc .vmem S6400x64 .f32) (harg4 : arg4.IsWhole) (arg5 : Memref sig .tc .vmem S16x64 .f32) (harg5 : arg5.IsWhole) (arg6 : Memref sig .tc .vmem S16x1 .f32) (harg6 : arg6.IsWhole) (arg7 : Memref sig .tc .vmem S16x64 .f32) (harg7 : arg7.IsWhole) (arg8 : Memref sig .tc .vmem S16x1 .f32) (harg8 : arg8.IsWhole)
    (hc0 : ¬cond0_0 i) (hc1 : cond0_1 i)
    (x0 x1 : Vec F S16x6400 .f32) (x2 x3 : Vec F S6400x64 .f32) (y4 : Vec F S16x64 .f32) (y5 : Vec F S16x1 .f32) (s : Vec F S16x64 .f32) (n : Vec F S16x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare y4 ∗ owns (c : Thread nD τ) arg6 fullShare y5 ∗ owns (c : Thread nD τ) arg7 fullShare s ∗ owns (c : Thread nD τ) arg8 fullShare n
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay4 x0 x1 x2 x3 s) ∗ owns (c : Thread nD τ) arg6 fullShare (k0_pay5 x1 n) ∗ owns (c : Thread nD τ) arg7 fullShare (k0_pay4 x0 x1 x2 x3 s) ∗ owns (c : Thread nD τ) arg8 fullShare (k0_pay5 x1 n)) -∗ K ⟨⟩))
      ⊢ wp frame (wpE (defs₀ (F := F)) Variants.none c none) E (cc0__pass1_kernel i arg1 harg1 arg2 harg2 arg3 harg3 arg4 harg4 arg5 harg5 arg6 harg6 arg7 harg7 arg8 harg8) K := by
  simp only [cc0__pass1_kernel_eq_skeleton]; unfold cc0__pass1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_eq_canon _ _ _ (View.cover_of_tiled _ S16x64.size (by rfl)), View.canon_unit_zero hz2]
    simp only [View.readAt_eq_ld, Memref.IsWhole.read_unread, View.ld_unit_zero (S := S16x6400) hz2, View.ld_unit_zero (S := S6400x64) hz2, View.ld_unit_zero (S := S16x64) hz2]
    exact View.readCov_unit_zero (S := S16x64) arg7.view hz2 _ _
  isplitl [H6]
  · iexists _; isplitr
    swap; · iexact H6
    ipureintro
    sl_unfold_run_names
    rw [View.read_writes_eq_canon _ _ _ (View.cover_of_tiled _ S16x1.size (by rfl)), View.canon_unit_zero hz2]
    simp only [View.readAt_eq_ld, Memref.IsWhole.read_unread, View.ld_unit_zero (S := S16x6400) hz2, View.ld_unit_zero (S := S16x1) hz2]
    exact View.readCov_unit_zero (S := S16x1) arg8.view hz2 _ _
  isplitl [H7]
  · iexists _; isplitr
    swap; · iexact H7
    ipureintro
    sl_unfold_run_names
    rw [View.read_writes_eq_canon _ _ _ (View.cover_of_tiled _ S16x64.size (by rfl)), View.canon_unit_zero hz2]
    simp only [View.readAt_eq_ld, Memref.IsWhole.read_unread, View.ld_unit_zero (S := S16x6400) hz2, View.ld_unit_zero (S := S6400x64) hz2, View.ld_unit_zero (S := S16x64) hz2]
  iexists _; isplitr
  swap; · iexact H8
  ipureintro
  sl_unfold_run_names
  rw [View.read_writes_eq_canon _ _ _ (View.cover_of_tiled _ S16x1.size (by rfl)), View.canon_unit_zero hz2]
  simp only [View.readAt_eq_ld, Memref.IsWhole.read_unread, View.ld_unit_zero (S := S16x6400) hz2, View.ld_unit_zero (S := S16x1) hz2]

/-! ## The inputs' buffers hold their blocks at every point -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_2 (c : Dev nD) (t : Fin cfg0.N) (d) : (dat0 V c).before 2 t d = iblk0 V c 2 t :=
  before0_2_of V (dat0 V c) (A_eq0 V c 2) (after0_2 V c) t d

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_3 (c : Dev nD) (t : Fin cfg0.N) (d) : (dat0 V c).before 3 t d = iblk0 V c 3 t :=
  before0_3_of V (dat0 V c) (A_eq0 V c 3) (after0_3 V c) t d

/-! ## The class invariant split at the two accumulators -/

theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ restB (F := F) c) :=
  Pipeline.scopedRest_split_of_list spec0 c [cc0_scratch0, cc0_scratch1] (by decide) (by decide)

theorem PhiA0_split (c : Dev nD) :
    (Pipeline.ΦA spec0 c : sProp 𝕄) ⊢ iprop((∃ d, owns (c : Thread nD τ) scM0_0 fullShare d) ∗ (∃ d, owns (c : Thread nD τ) scM0_1 fullShare d) ∗ restB (F := F) c ∗ (∃ r, prngReg c r)) := by
  unfold Pipeline.ΦA
  rw [scopedRest0_split]
  simp only [scM0_0, scM0_1, owns_whole]
  iintro ⟨⟨⟨H0, H1⟩, HR⟩, Hg⟩
  isplitl [H0]; · iexact H0
  isplitl [H1]; · iexact H1
  isplitl [HR]; · iexact HR
  iexact Hg

theorem PhiA0_join (c : Dev nD) :
    iprop((∃ d, owns (c : Thread nD τ) scM0_0 fullShare d) ∗ (∃ d, owns (c : Thread nD τ) scM0_1 fullShare d) ∗ restB (F := F) c ∗ (∃ r, prngReg c r)) ⊢ (Pipeline.ΦA spec0 c : sProp 𝕄) := by
  unfold Pipeline.ΦA
  rw [scopedRest0_split]
  simp only [scM0_0, scM0_1, owns_whole]
  iintro ⟨H0, H1, HR, Hg⟩
  isplitl [H0 H1 HR]
  · isplitl [H0 H1]
    · isplitl [H0]; · iexact H0
      iexact H1
    iexact HR
  iexact Hg

theorem PhiS_castSucc (c : Dev nD) (t : Fin cfg0.N) :
    (dat0 V c).Φ t.castSucc = PhiS V c t.val (Nat.le_of_lt t.isLt) := by
  dsimp only [dat0]; simp only [Fin.coe_castSucc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- At every point the inputs' buffers hold their blocks and the invariant hands the body the two accumulators at what
    the point before left (anything at the first point); the body leaves them at this point's sums, and at the last
    point also stores them into the two outputs. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  by_cases h1 : t.val = 15
  · have h0 : ¬ t.val = 0 := by omega
    rw [show (dat0 V c).leavesExact 4 t = owns (c : Thread nD τ) (st0_4 t) fullShare ((dat0 V c).after 4 t) from by
      unfold Dat.leavesExact; rw [liveAt0_4 t ((hcond0_1 t).mpr h1)], after0_4]
    rw [show (dat0 V c).leavesExact 5 t = owns (c : Thread nD τ) (st0_5 t) fullShare ((dat0 V c).after 5 t) from by
      unfold Dat.leavesExact; rw [liveAt0_5 t ((hcond0_1 t).mpr h1)], after0_5]
    rw [accAt_later V c t h0]; dsimp only
    rw [PhiS_castSucc V c t, PhiS_pos V c _ _ h0]
    iintro ⟨⟨HS0, HS1, HR, Hg⟩, Ho, ⟨%d0, H0⟩, ⟨%d1, H1⟩, ⟨%d2, H2⟩, ⟨%d3, H3⟩, ⟨%d4, H4⟩, ⟨%d5, H5⟩⟩
    iapply (runC c Set.univ (grid0.coords t) _ _ _ _ _ _ _ _ _ _ _ _ _ _ _ _ (fun h => h0 ((hcond0_0 t).mp h)) ((hcond0_1 t).mpr h1)
      (iblk0 V c 0 t) (iblk0 V c 1 t) (iblk0 V c 2 t) (iblk0 V c 3 t) _ _
      (accAt V c (t.val - 1) (Nat.lt_of_le_of_lt (Nat.sub_le _ _) t.isLt)).1 (accAt V c (t.val - 1) (Nat.lt_of_le_of_lt (Nat.sub_le _ _) t.isLt)).2 _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 HR Hg]
    · isplitl [HS0]; · iexact HS0
      isplitl [HS1]; · iexact HS1
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    by_cases h0 : t.val = 0
    · rw [accAt_first V c t h0]; dsimp only
      rw [PhiS_castSucc V c t, PhiS_zero V c _ _ h0]
      iintro ⟨HΦ, Ho, ⟨%d0, H0⟩, ⟨%d1, H1⟩, ⟨%d2, H2⟩, ⟨%d3, H3⟩, ⟨%d4, H4⟩, ⟨%d5, H5⟩⟩
      ihave HΦ' := PhiA0_split (F := F) c $$ HΦ
      icases HΦ' with ⟨⟨%e0, HS0⟩, ⟨%e1, HS1⟩, HR, Hg⟩
      iapply (runA c Set.univ (grid0.coords t) _ _ _ _ _ _ _ _ _ _ _ _ _ _ _ _ ((hcond0_0 t).mpr h0) (fun h => h1 ((hcond0_1 t).mp h))
        (iblk0 V c 0 t) (iblk0 V c 1 t) (iblk0 V c 2 t) (iblk0 V c 3 t) _ _ e0 e1 _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [accAt_later V c t h0]; dsimp only
      rw [PhiS_castSucc V c t, PhiS_pos V c _ _ h0]
      iintro ⟨⟨HS0, HS1, HR, Hg⟩, Ho, ⟨%d0, H0⟩, ⟨%d1, H1⟩, ⟨%d2, H2⟩, ⟨%d3, H3⟩, ⟨%d4, H4⟩, ⟨%d5, H5⟩⟩
      iapply (runB c Set.univ (grid0.coords t) _ _ _ _ _ _ _ _ _ _ _ _ _ _ _ _ (fun h => h0 ((hcond0_0 t).mp h)) (fun h => h1 ((hcond0_1 t).mp h))
        (iblk0 V c 0 t) (iblk0 V c 1 t) (iblk0 V c 2 t) (iblk0 V c 3 t) _ _
        (accAt V c (t.val - 1) (Nat.lt_of_le_of_lt (Nat.sub_le _ _) t.isLt)).1 (accAt V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0]; · iexact HS0
        isplitl [HS1]; · iexact HS1
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega)]
  refine .trans ?_ (PhiA0_join (F := F) c)
  iintro ⟨HS0, HS1, HR, Hg⟩
  isplitl [HS0]; · iexists _; iexact HS0
  isplitl [HS1]; · iexists _; iexact HS1
  isplitl [HR]; · iexact HR
  iexact Hg

end Region0

end Cert.KernelIdeal.Hand

end
-- ==== Proof.KI.Reg1.lean ====
/- Region 1 of @main (custom_call 1, the second pass `cc1__pass2_kernel`, pipeline 1), its class-A half at a
   parameter `V` — the TensorCore's buffer contents when the region is entered —, generic in the float
   interpretation `F`: each window's block at a point (`iblk1`), what the body leaves in the output window's
   buffer as a function of the six input blocks (`out1_6`: the one whole-buffer store of the quotient
   `(S − (z·w + b)·m) / (max(n − m, 1) + ε)`), the body's triple (`sound_kernel1`), the pipeline's proof data
   (`dat1`) and the body obligation at every grid point (`body_obligation1`). Windows 4 and 5 (the first pass's
   sums `S` and `n`) have a constant block index: they are fetched at the first point only and their staging
   buffers hold the same block at every later point. -/
import proofs.«127450_j71554155152270_2_alg».proof.Proof.Gen.KernelIdeal.Launch
import proofs.«127450_j71554155152270_2_alg».proof.Proof.Gen.KernelIdeal.Skeleton
import proofs.«127450_j71554155152270_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the window is not
    fetched its block index has not moved, so the previous point's block is this point's; the window is uncut and
    never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the window is not
    fetched its block index has not moved, so the previous point's block is this point's; the window is uncut and
    never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the window is not
    fetched its block index has not moved, so the previous point's block is this point's; the window is uncut and
    never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): where the window is not
    fetched its block index has not moved, so the previous point's block is this point's; the window is uncut and
    never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): where the window is not
    fetched its block index has not moved, so the previous point's block is this point's; the window is uncut and
    never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): where the window is not
    fetched its block index has not moved, so the previous point's block is this point's; the window is uncut and
    never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store is a whole buffer -/

abbrev r1_0 : Rect S16x1024 := Rect.unit (s := S16x1024) ![0, 0] S16x1024.size inb_S16x1024_S16x1024_0_0
abbrev r1_1 : Rect S1024x64 := Rect.unit (s := S1024x64) ![0, 0] S1024x64.size inb_S1024x64_S1024x64_0_0
abbrev r1_2 : Rect S16x64 := Rect.unit (s := S16x64) ![0, 0] S16x64.size inb_S16x64_S16x64_0_0
abbrev r1_3 : Rect S16x1 := Rect.unit (s := S16x1) ![0, 0] S16x1.size inb_S16x1_S16x1_0_0
abbrev r1_4 : Rect S16x1024x64 := Rect.unit (s := S16x1024x64) ![0, 0, 0] S16x1024x64.size inb_S16x1024x64_S16x1024x64_0_0_0

/-! ## What the body leaves in the output window's buffer -/

/-- Window 6's staging buffer after the body, from the six input windows' blocks: its one store as a piece, the
    payload the skeleton's `k1_pay1` of the six whole-buffer loads. -/
def out1_6 (x0 : Vec F S16x1024 .f32) (x1 : Vec F S16x1024 .f32) (x2 : Vec F S1024x64 .f32) (x3 : Vec F S1024x64 .f32)
    (x4 : Vec F S16x64 .f32) (x5 : Vec F S16x1 .f32) : Vec F S16x1024x64 .f32 :=
  View.canon [⟨r1_4, k1_pay1 (View.ld x0 r1_0) (View.ld x1 r1_0) (View.ld x2 r1_1) (View.ld x3 r1_1) (View.ld x4 r1_2) (View.ld x5 r1_3)⟩]

/-- The one store is the whole buffer, so it covers it. -/
theorem cover1_6 (p0 : Vec F S16x1024x64 .f32) (y : S16x1024x64.Idx) :
    ∃ pc ∈ ([⟨r1_4, p0⟩] : List (View.Piece (Elt F) S16x1024x64 .f32)), y ∈ pc.1.set :=
  View.cover_of_tiled [⟨r1_4, p0⟩] S16x1024x64.size (by rfl) y

/-! ## The body's triple -/

set_option maxHeartbeats 1000000 in
/-- The kernel body on whole staging memrefs, the inputs' at read contents `xW` and the output's at anything, runs to
    the continuation holding the inputs' as they were and the output's at `out1_6` of the inputs': the printed
    function is its skeleton, whose six loads, the load of the output buffer and the one store are run in order. -/
theorem sound_kernel1 (c : Dev nD) (E : Set ℕ) (i : grid1.Coords)
    (arg1 : Memref sig .tc .vmem S16x1024 .f32) (harg1 : arg1.IsWhole) (arg2 : Memref sig .tc .vmem S16x1024 .f32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S16x64 .f32) (harg5 : arg5.IsWhole) (arg6 : Memref sig .tc .vmem S16x1 .f32) (harg6 : arg6.IsWhole)
    (arg7 : Memref sig .tc .vmem S16x1024x64 .f32) (harg7 : arg7.IsWhole)
    (x0 : Vec F S16x1024 .f32) (x1 : Vec F S16x1024 .f32) (x2 : Vec F S1024x64 .f32) (x3 : Vec F S1024x64 .f32)
    (x4 : Vec F S16x64 .f32) (x5 : Vec F S16x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__pass2_kernel i arg1 harg1 arg2 harg2 arg3 harg3 arg4 harg4 arg5 harg5 arg6 harg6 arg7 harg7) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at point `t`
    each input's buffer at its block and the output's at `out1_6` of the six input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/- THE RUN of @main through its 19 items — 17 host stretches and the two kernel regions —, generic in the float
   interpretation `F`: the TensorCore's buffer contents at every boundary between items, a fold from the launch
   memory (`W0` … `W19`: a host stretch's operations applied in order; a region's arrays at what its write-backs
   leave, every other buffer as entered); every region's proof data at its entry contents (`V8e`, `V17e`); each item as
   a segment over the thread state "every unscoped buffer at the boundary's contents, the generator register at some
   state, nothing owed"; and the launch. `run_all`: every weakly fair execution terminates and every final memory
   holds, at every unscoped buffer, the last boundary's contents `W19`. Read off it: the frame (each argument array
   walks back through the fold to its launch contents), the result `main_v24` as the last host operation applied to
   region 1's output array, and region 0's first output array `main_v18_0` as region 0 left it. -/
import proofs.«127450_j71554155152270_2_alg».proof.Proof.KI.Reg0
import proofs.«127450_j71554155152270_2_alg».proof.Proof.KI.Reg1
import proofs.«127450_j71554155152270_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between items: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- After `hostOps0_7`. -/
abbrev W8 : Dev nD → Valuation τ sig (Elt F) := fun c => StableHlo.after hostOps0_7 (W7 m ρ c)
/-- Region 0's entry contents, read at the TensorCore's references (what region 0's proof data take). -/
abbrev V8e : (c : Dev nD) → (b : Ref sig .tc) → Buf (Elt F) ((c : Thread nD τ).loc b) := fun c b => W8 m ρ c b
/-- At region 0's exit: its arrays at what the pipeline leaves (the inputs as entered, each output's write-backs
    folded), every other buffer as entered. -/
def W9 (c : Dev nD) : Valuation τ sig (Elt F) :=
  Pipeline.withArrays spec0 c (W8 m ρ c) fun w => (dat0 (V8e m ρ) c).arrAt w cfg0.N
theorem W9_arr (c : Dev nD) (w : Fin cfg0.W) :
    W9 m ρ c (Proc.devRef .tc (Pipeline.arrRef spec0 w)) = (dat0 (V8e m ρ) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m ρ c (Proc.devRef .tc b) = W8 m ρ c (Proc.devRef .tc b) := by
  unfold W9; exact Pipeline.withArrays_of_ne spec0 c _ _ b hb
/-- The same read at the TensorCore's references (region 0's exit contents). -/
abbrev V9x : (c : Dev nD) → (b : Ref sig .tc) → Buf (Elt F) ((c : Thread nD τ).loc b) := fun c b => W9 m ρ c b
/-- At region 0's exit each of its arrays holds what the pipeline leaves (`hF0`) and every other buffer what it
    held at entry (`hrest0`). -/
theorem hF0 (c : Dev nD) (w : Fin cfg0.W) : (dat0 (V8e m ρ) c).arrAt w cfg0.N = V9x m ρ c (Pipeline.arrRef spec0 w) :=
  (W9_arr m ρ c w).symm
theorem hrest0 (c : Dev nD) : ∀ b, b ∉ Finset.univ.image (Pipeline.arrRef spec0) → V9x m ρ c b = V8e m ρ c b :=
  fun b hb => W9_of_ne m ρ c b fun w e => hb (Finset.mem_image.mpr ⟨w, Finset.mem_univ _, e⟩)

/-- After `hostOps1`. -/
abbrev W10 : Dev nD → Valuation τ sig (Elt F) := fun c => StableHlo.after hostOps1 (W9 m ρ c)
/-- After `hostOps1_1`. -/
abbrev W11 : Dev nD → Valuation τ sig (Elt F) := fun c => StableHlo.after hostOps1_1 (W10 m ρ c)
/-- After `hostOps1_2`. -/
abbrev W12 : Dev nD → Valuation τ sig (Elt F) := fun c => StableHlo.after hostOps1_2 (W11 m ρ c)
/-- After `hostOps1_3`. -/
abbrev W13 : Dev nD → Valuation τ sig (Elt F) := fun c => StableHlo.after hostOps1_3 (W12 m ρ c)
/-- After `hostOps1_4`. -/
abbrev W14 : Dev nD → Valuation τ sig (Elt F) := fun c => StableHlo.after hostOps1_4 (W13 m ρ c)
/-- After `hostOps1_5`. -/
abbrev W15 : Dev nD → Valuation τ sig (Elt F) := fun c => StableHlo.after hostOps1_5 (W14 m ρ c)
/-- After `hostOps1_6`. -/
abbrev W16 : Dev nD → Valuation τ sig (Elt F) := fun c => StableHlo.after hostOps1_6 (W15 m ρ c)
/-- After `hostOps1_7`. -/
abbrev W17 : Dev nD → Valuation τ sig (Elt F) := fun c => StableHlo.after hostOps1_7 (W16 m ρ c)
/-- Region 1's entry contents, read at the TensorCore's references (what region 1's proof data take). -/
abbrev V17e : (c : Dev nD) → (b : Ref sig .tc) → Buf (Elt F) ((c : Thread nD τ).loc b) := fun c b => W17 m ρ c b
/-- At region 1's exit: its arrays at what the pipeline leaves (the inputs as entered, each output's write-backs
    folded), every other buffer as entered. -/
def W18 (c : Dev nD) : Valuation τ sig (Elt F) :=
  Pipeline.withArrays spec1 c (W17 m ρ c) fun w => (dat1 (V17e m ρ) c).arrAt w cfg1.N
theorem W18_arr (c : Dev nD) (w : Fin cfg1.W) :
    W18 m ρ c (Proc.devRef .tc (Pipeline.arrRef spec1 w)) = (dat1 (V17e m ρ) c).arrAt w cfg1.N := by
  unfold W18; exact Pipeline.withArrays_arr spec1 launch1.win.arr_inj c _ _ w
theorem W18_of_ne (c : Dev nD) (b : Ref sig .tc) (hb : ∀ w, Pipeline.arrRef spec1 w ≠ b) :
    W18 m ρ c (Proc.devRef .tc b) = W17 m ρ c (Proc.devRef .tc b) := by
  unfold W18; exact Pipeline.withArrays_of_ne spec1 c _ _ b hb
/-- The same read at the TensorCore's references (region 1's exit contents). -/
abbrev V18x : (c : Dev nD) → (b : Ref sig .tc) → Buf (Elt F) ((c : Thread nD τ).loc b) := fun c b => W18 m ρ c b
/-- At region 1's exit each of its arrays holds what the pipeline leaves (`hF1`) and every other buffer what it
    held at entry (`hrest1`). -/
theorem hF1 (c : Dev nD) (w : Fin cfg1.W) : (dat1 (V17e m ρ) c).arrAt w cfg1.N = V18x m ρ c (Pipeline.arrRef spec1 w) :=
  (W18_arr m ρ c w).symm
theorem hrest1 (c : Dev nD) : ∀ b, b ∉ Finset.univ.image (Pipeline.arrRef spec1) → V18x m ρ c b = V17e m ρ c b :=
  fun b hb => W18_of_ne m ρ c b fun w e => hb (Finset.mem_image.mpr ⟨w, Finset.mem_univ _, e⟩)

/-- After `hostOps2`. -/
abbrev W19 : Dev nD → Valuation τ sig (Elt F) := fun c => StableHlo.after hostOps2 (W18 m ρ c)

/-! ## What each host stretch leaves unchanged: a reference none of its operations writes -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W10_of (c : Dev nD) (r : Ref sig .tc) (h : r ∉ hostOps1_W) : W10 m ρ c (Proc.devRef .tc r) = W9 m ρ c (Proc.devRef .tc r) :=
  StableHlo.after_of_writes_sub hostOps1 _ hostOps1_writes h
theorem W11_of (c : Dev nD) (r : Ref sig .tc) (h : r ∉ hostOps1_1_W) : W11 m ρ c (Proc.devRef .tc r) = W10 m ρ c (Proc.devRef .tc r) :=
  StableHlo.after_of_writes_sub hostOps1_1 _ hostOps1_1_writes h
theorem W12_of (c : Dev nD) (r : Ref sig .tc) (h : r ∉ hostOps1_2_W) : W12 m ρ c (Proc.devRef .tc r) = W11 m ρ c (Proc.devRef .tc r) :=
  StableHlo.after_of_writes_sub hostOps1_2 _ hostOps1_2_writes h
theorem W13_of (c : Dev nD) (r : Ref sig .tc) (h : r ∉ hostOps1_3_W) : W13 m ρ c (Proc.devRef .tc r) = W12 m ρ c (Proc.devRef .tc r) :=
  StableHlo.after_of_writes_sub hostOps1_3 _ hostOps1_3_writes h
theorem W14_of (c : Dev nD) (r : Ref sig .tc) (h : r ∉ hostOps1_4_W) : W14 m ρ c (Proc.devRef .tc r) = W13 m ρ c (Proc.devRef .tc r) :=
  StableHlo.after_of_writes_sub hostOps1_4 _ hostOps1_4_writes h
theorem W15_of (c : Dev nD) (r : Ref sig .tc) (h : r ∉ hostOps1_5_W) : W15 m ρ c (Proc.devRef .tc r) = W14 m ρ c (Proc.devRef .tc r) :=
  StableHlo.after_of_writes_sub hostOps1_5 _ hostOps1_5_writes h
theorem W16_of (c : Dev nD) (r : Ref sig .tc) (h : r ∉ hostOps1_6_W) : W16 m ρ c (Proc.devRef .tc r) = W15 m ρ c (Proc.devRef .tc r) :=
  StableHlo.after_of_writes_sub hostOps1_6 _ hostOps1_6_writes h
theorem W17_of (c : Dev nD) (r : Ref sig .tc) (h : r ∉ hostOps1_7_W) : W17 m ρ c (Proc.devRef .tc r) = W16 m ρ c (Proc.devRef .tc r) :=
  StableHlo.after_of_writes_sub hostOps1_7 _ hostOps1_7_writes h
theorem W19_of (c : Dev nD) (r : Ref sig .tc) (h : r ∉ hostOps2_W) : W19 m ρ c (Proc.devRef .tc r) = W18 m ρ c (Proc.devRef .tc r) :=
  StableHlo.after_of_writes_sub hostOps2 _ hostOps2_writes h

/-! ## The arguments end as launched -/

/-- `main_arg0` ends as launched: no host stretch writes it and it is no window's array of either region. -/
theorem W19_main_arg0 (c : Dev nD) : W19 m ρ c (Proc.devRef .tc main_arg0) = m ((c : Thread nD τ).loc main_arg0) :=
  (W19_of m ρ c main_arg0 (by decide)).trans <|
  (W18_of_ne m ρ c main_arg0 (by decide)).trans <|
  (W17_of m ρ c main_arg0 (by decide)).trans <|
  (W16_of m ρ c main_arg0 (by decide)).trans <|
  (W15_of m ρ c main_arg0 (by decide)).trans <|
  (W14_of m ρ c main_arg0 (by decide)).trans <|
  (W13_of m ρ c main_arg0 (by decide)).trans <|
  (W12_of m ρ c main_arg0 (by decide)).trans <|
  (W11_of m ρ c main_arg0 (by decide)).trans <|
  (W10_of m ρ c main_arg0 (by decide)).trans <|
  (W9_of_ne m ρ c main_arg0 (by decide)).trans <|
  (W8_of m ρ c main_arg0 (by decide)).trans <|
  (W7_of m ρ c main_arg0 (by decide)).trans <|
  (W6_of m ρ c main_arg0 (by decide)).trans <|
  (W5_of m ρ c main_arg0 (by decide)).trans <|
  (W4_of m ρ c main_arg0 (by decide)).trans <|
  (W3_of m ρ c main_arg0 (by decide)).trans <|
  (W2_of m ρ c main_arg0 (by decide)).trans <|
  (W1_of m ρ c main_arg0 (by decide)).trans <|
  rfl
/-- `main_arg1` ends as launched: no host stretch writes it and it is no window's array of either region. -/
theorem W19_main_arg1 (c : Dev nD) : W19 m ρ c (Proc.devRef .tc main_arg1) = m ((c : Thread nD τ).loc main_arg1) :=
  (W19_of m ρ c main_arg1 (by decide)).trans <|
  (W18_of_ne m ρ c main_arg1 (by decide)).trans <|
  (W17_of m ρ c main_arg1 (by decide)).trans <|
  (W16_of m ρ c main_arg1 (by decide)).trans <|
  (W15_of m ρ c main_arg1 (by decide)).trans <|
  (W14_of m ρ c main_arg1 (by decide)).trans <|
  (W13_of m ρ c main_arg1 (by decide)).trans <|
  (W12_of m ρ c main_arg1 (by decide)).trans <|
  (W11_of m ρ c main_arg1 (by decide)).trans <|
  (W10_of m ρ c main_arg1 (by decide)).trans <|
  (W9_of_ne m ρ c main_arg1 (by decide)).trans <|
  (W8_of m ρ c main_arg1 (by decide)).trans <|
  (W7_of m ρ c main_arg1 (by decide)).trans <|
  (W6_of m ρ c main_arg1 (by decide)).trans <|
  (W5_of m ρ c main_arg1 (by decide)).trans <|
  (W4_of m ρ c main_arg1 (by decide)).trans <|
  (W3_of m ρ c main_arg1 (by decide)).trans <|
  (W2_of m ρ c main_arg1 (by decide)).trans <|
  (W1_of m ρ c main_arg1 (by decide)).trans <|
  rfl
/-- `main_arg2` ends as launched: no host stretch writes it and it is no window's array of either region. -/
theorem W19_main_arg2 (c : Dev nD) : W19 m ρ c (Proc.devRef .tc main_arg2) = m ((c : Thread nD τ).loc main_arg2) :=
  (W19_of m ρ c main_arg2 (by decide)).trans <|
  (W18_of_ne m ρ c main_arg2 (by decide)).trans <|
  (W17_of m ρ c main_arg2 (by decide)).trans <|
  (W16_of m ρ c main_arg2 (by decide)).trans <|
  (W15_of m ρ c main_arg2 (by decide)).trans <|
  (W14_of m ρ c main_arg2 (by decide)).trans <|
  (W13_of m ρ c main_arg2 (by decide)).trans <|
  (W12_of m ρ c main_arg2 (by decide)).trans <|
  (W11_of m ρ c main_arg2 (by decide)).trans <|
  (W10_of m ρ c main_arg2 (by decide)).trans <|
  (W9_of_ne m ρ c main_arg2 (by decide)).trans <|
  (W8_of m ρ c main_arg2 (by decide)).trans <|
  (W7_of m ρ c main_arg2 (by decide)).trans <|
  (W6_of m ρ c main_arg2 (by decide)).trans <|
  (W5_of m ρ c main_arg2 (by decide)).trans <|
  (W4_of m ρ c main_arg2 (by decide)).trans <|
  (W3_of m ρ c main_arg2 (by decide)).trans <|
  (W2_of m ρ c main_arg2 (by decide)).trans <|
  (W1_of m ρ c main_arg2 (by decide)).trans <|
  rfl
/-- `main_arg3` ends as launched: no host stretch writes it and it is no window's array of either region. -/
theorem W19_main_arg3 (c : Dev nD) : W19 m ρ c (Proc.devRef .tc main_arg3) = m ((c : Thread nD τ).loc main_arg3) :=
  (W19_of m ρ c main_arg3 (by decide)).trans <|
  (W18_of_ne m ρ c main_arg3 (by decide)).trans <|
  (W17_of m ρ c main_arg3 (by decide)).trans <|
  (W16_of m ρ c main_arg3 (by decide)).trans <|
  (W15_of m ρ c main_arg3 (by decide)).trans <|
  (W14_of m ρ c main_arg3 (by decide)).trans <|
  (W13_of m ρ c main_arg3 (by decide)).trans <|
  (W12_of m ρ c main_arg3 (by decide)).trans <|
  (W11_of m ρ c main_arg3 (by decide)).trans <|
  (W10_of m ρ c main_arg3 (by decide)).trans <|
  (W9_of_ne m ρ c main_arg3 (by decide)).trans <|
  (W8_of m ρ c main_arg3 (by decide)).trans <|
  (W7_of m ρ c main_arg3 (by decide)).trans <|
  (W6_of m ρ c main_arg3 (by decide)).trans <|
  (W5_of m ρ c main_arg3 (by decide)).trans <|
  (W4_of m ρ c main_arg3 (by decide)).trans <|
  (W3_of m ρ c main_arg3 (by decide)).trans <|
  (W2_of m ρ c main_arg3 (by decide)).trans <|
  (W1_of m ρ c main_arg3 (by decide)).trans <|
  rfl
/-- `main_arg4` ends as launched: no host stretch writes it and it is no window's array of either region. -/
theorem W19_main_arg4 (c : Dev nD) : W19 m ρ c (Proc.devRef .tc main_arg4) = m ((c : Thread nD τ).loc main_arg4) :=
  (W19_of m ρ c main_arg4 (by decide)).trans <|
  (W18_of_ne m ρ c main_arg4 (by decide)).trans <|
  (W17_of m ρ c main_arg4 (by decide)).trans <|
  (W16_of m ρ c main_arg4 (by decide)).trans <|
  (W15_of m ρ c main_arg4 (by decide)).trans <|
  (W14_of m ρ c main_arg4 (by decide)).trans <|
  (W13_of m ρ c main_arg4 (by decide)).trans <|
  (W12_of m ρ c main_arg4 (by decide)).trans <|
  (W11_of m ρ c main_arg4 (by decide)).trans <|
  (W10_of m ρ c main_arg4 (by decide)).trans <|
  (W9_of_ne m ρ c main_arg4 (by decide)).trans <|
  (W8_of m ρ c main_arg4 (by decide)).trans <|
  (W7_of m ρ c main_arg4 (by decide)).trans <|
  (W6_of m ρ c main_arg4 (by decide)).trans <|
  (W5_of m ρ c main_arg4 (by decide)).trans <|
  (W4_of m ρ c main_arg4 (by decide)).trans <|
  (W3_of m ρ c main_arg4 (by decide)).trans <|
  (W2_of m ρ c main_arg4 (by decide)).trans <|
  (W1_of m ρ c main_arg4 (by decide)).trans <|
  rfl

/-! ## The two arrays the values are read from -/

/-- Region 0's first output array `main_v18_0` at the end is what region 0 left in it: region 1 stages it through an
    input window (which leaves the array as entered) and no host stretch after region 0 writes it. -/
theorem W19_v18_0 (c : Dev nD) : W19 m ρ c (Proc.devRef .tc main_v18_0) = (dat0 (V8e m ρ) c).arrAt 4 cfg0.N :=
  (W19_of m ρ c main_v18_0 (by decide)).trans <|
  ((W18_arr m ρ c 4).trans (((dat1 (V17e m ρ) c).arrAt_in 4 rfl _).trans (A_eq1 (V17e m ρ) c 4))).trans <|
  (W17_of m ρ c main_v18_0 (by decide)).trans <|
  (W16_of m ρ c main_v18_0 (by decide)).trans <|
  (W15_of m ρ c main_v18_0 (by decide)).trans <|
  (W14_of m ρ c main_v18_0 (by decide)).trans <|
  (W13_of m ρ c main_v18_0 (by decide)).trans <|
  (W12_of m ρ c main_v18_0 (by decide)).trans <|
  (W11_of m ρ c main_v18_0 (by decide)).trans <|
  (W10_of m ρ c main_v18_0 (by decide)).trans <|
  W9_arr m ρ c 4

/-- The result `main_v24` at the end is the last host operation, the slice to the first 100000 rows, applied to
    region 1's output array as region 1 left it. -/
theorem W19_v24 (c : Dev nD) : W19 m ρ c (Proc.devRef .tc main_v24)
    = extractStridedSlice S16x100000x64 ![0, 0, 0] ((dat1 (V17e m ρ) c).arrAt 6 cfg1.N) slices_S16x100352x64_S16x100000x64_0_0_0 :=
  by
  have h6 : W18 m ρ c (Proc.devRef .tc main_v23) = (dat1 (V17e m ρ) c).arrAt 6 cfg1.N := W18_arr m ρ c 6
  show (StableHlo.unary main_v23 main_v24 ((extractStridedSlice S16x100000x64 ![0, 0, 0] · slices_S16x100352x64_S16x100000x64_0_0_0) : (⟨S16x100352x64, .f32⟩ : BufTy).Contents (Elt F) → (⟨S16x100000x64, .f32⟩ : BufTy).Contents (Elt F)) : HloOp τ sig (Elt F)).result (W18 m ρ c) (Proc.devRef .tc main_v24) = _
  rw [StableHlo.unary_result', h6]

/-! ## The proof data family and the thread state -/

/-- Every pipeline's proof data, each at its region's entry contents — a literal `match`, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (V8e m ρ) c
  | ⟨1, _⟩ => fun c => dat1 (V17e m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it ends with
    those references at the stretch's operations applied to `W c`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W19`, the
    generator register at some state. -/
abbrev Tₙ (c : Dev nD) : sProp 𝕄 := iprop(StableHlo.held (c : Thread nD τ) (Pipeline.ucRefs τ sig) (W19 m ρ c) ∗ ∃ r, prngReg c r)

/-! ## The regions as segments -/

set_option backward.isDefEq.respectTransparency.types false in
/-- REGION 0 (custom_call 0) over the thread state: entered from every unscoped buffer at `W8`, left at `W9`. Its
    arrays are split out of the unscoped buffers at entry and put back at the exit contents; the generator register
    goes into the region's invariant and comes back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V8e m ρ) c).loose
  hwaits := Pipeline.hwaits_of_owed_zero _ _ _ _ L lv 0 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec0 c (V8e m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V8e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop((∃ r, prngReg c r) ∗ Pipeline.prefHeld (pcfgs (F := F) 0).pre c (fun _ => fullShare) (adm (F := F) 0).1 ∗ Pipeline.scopedRest (Pipeline.pin (pcfgs (F := F)) adm 0).spec c) ⊢ (Pipeline.ΦA spec0 c : sProp 𝕄) from ?_).trans
      (show (Pipeline.ΦA spec0 c : sProp 𝕄) ⊢ (pdats m ρ 0 c).Φ 0 from hin0 (V8e m ρ) c)
    unfold Pipeline.ΦA
    iintro ⟨Hp, -, Hr⟩
    isplitl [Hr]; · iexact Hr
    iexact Hp
  hout c := by
    rw [Pipeline.ownSems0_none]
    refine (show (pdats m ρ 0 c).Φ (Fin.last _) ⊢ (Pipeline.ΦA spec0 c : sProp 𝕄) from hout0 (V8e m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V8e m ρ c) (V9x m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W17`, left at `W18`. Its
    arrays are split out of the unscoped buffers at entry and put back at the exit contents; the generator register
    goes into the region's invariant and comes back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V17e m ρ) c).loose
  hwaits := Pipeline.hwaits_of_owed_zero _ _ _ _ L lv 1 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec1 c (V17e m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V17e m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V17e m ρ c) (V18x m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 19 segments in order: a host segment per stretch from its boundary's contents, a region per kernel call. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .region (reg0 m ρ),
    .host (hseg hostOps1 hostOps1_sub hostOps1_fresh (W9 m ρ)),
    .host (hseg hostOps1_1 hostOps1_1_sub hostOps1_1_fresh (W10 m ρ)),
    .host (hseg hostOps1_2 hostOps1_2_sub hostOps1_2_fresh (W11 m ρ)),
    .host (hseg hostOps1_3 hostOps1_3_sub hostOps1_3_fresh (W12 m ρ)),
    .host (hseg hostOps1_4 hostOps1_4_sub hostOps1_4_fresh (W13 m ρ)),
    .host (hseg hostOps1_5 hostOps1_5_sub hostOps1_5_fresh (W14 m ρ)),
    .host (hseg hostOps1_6 hostOps1_6_sub hostOps1_6_fresh (W15 m ρ)),
    .host (hseg hostOps1_7 hostOps1_7_sub hostOps1_7_fresh (W16 m ρ)),
    .region (reg1 m ρ),
    .host (hseg hostOps2 hostOps2_sub hostOps2_fresh (W18 m ρ)) ]

/-- @main is the run of the segments: @main is the chain of its items, and so is the segments' run. -/
theorem main_run (c : Dev nD) : main (F := F) c = Pipeline.Seg.run (segs m ρ) := by
  rw [main_chain c, Pipeline.Seg.run_eq_chain]
  rfl

set_option backward.isDefEq.respectTransparency.types false in
/-- THE RUN: at the compiled mesh, from any memory with zero counters, every weakly fair execution of @main on the
    TensorCores terminates, nothing faulting, and every final memory holds at every unscoped buffer of every core the
    last boundary's contents `W19`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W19 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- THE FRAME, at any `F`: every weakly fair execution of @main terminates and every final memory has the five
    argument arrays as launched — each read off `run_all`'s post and walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W19_main_arg0 m ρ c),
     (h c _ (mem_uc main_arg1 (by decide))).trans (W19_main_arg1 m ρ c),
     (h c _ (mem_uc main_arg2 (by decide))).trans (W19_main_arg2 m ρ c),
     (h c _ (mem_uc main_arg3 (by decide))).trans (W19_main_arg3 m ρ c),
     (h c _ (mem_uc main_arg4 (by decide))).trans (W19_main_arg4 m ρ c)⟩) (run_all m ρ)

end Cert.KernelIdeal.Hand

end
-- ==== Proof.Spec.lean ====
/-
  The masked leave-one-out pooling, index by index, as one pair of functions of the four arrays it reads.

  x0 (16 × 100000) are the inputs and mk (16 × 100000) the mask; w and b (100000 × 64) are the per-feature weights and
  biases. Feature q of sample p is encoded, in channel r, as the masked affine value

      term p q r = (x0 p q · w q r + b q r) · mk p q.

  The pooled sum is S p r = 0 + Σ_q term p q r, the number of present features is n p = 0 + Σ_q mk p q, and the
  leave-one-out context of feature q is

      c p q r = (S p r − term p q r) / (max (1, n p − mk p q) + ε),

  the division being the extended reals' (Ideal.div), 1 the word 0x3F800000 and ε the word 0x322BCC77, both kept as
  words.
-/
import Idealize.ShloMosaic.PureOps.Ideal
import Idealize.ShloMosaic.Lib.ValueIdx

noncomputable section

namespace Cert.Spec

open Idealize.ShloMosaic Idealize.ShloMosaic.ValueIdx
open scoped BigOperators

/-- The shape of the inputs and of the mask. -/
abbrev SBD : Shape := ⟨2, ![16, 100000]⟩
/-- The shape of the weights and of the biases. -/
abbrev SDH : Shape := ⟨2, ![100000, 64]⟩
/-- The shape of the pooled sum. -/
abbrev SBH : Shape := ⟨2, ![16, 64]⟩
/-- The shape of the leave-one-out contexts. -/
abbrev SBDH : Shape := ⟨3, ![16, 100000, 64]⟩

/-- The masked affine encoding of feature q of sample p in channel r. -/
def term (x0 mk : FVec Ideal SBD .f32) (w b : FVec Ideal SDH .f32) (p : Fin 16) (q : Fin 100000) (r : Fin 64) : EReal :=
  (x0 (ix2 p q) * w (ix2 q r) + b (ix2 q r)) * mk (ix2 p q)

/-- The pooled sum of sample p in channel r. -/
def Sval (x0 mk : FVec Ideal SBD .f32) (w b : FVec Ideal SDH .f32) (p : Fin 16) (r : Fin 64) : EReal :=
  0 + ∑ k : Fin 100000, term x0 mk w b p k r

/-- The number of present features of sample p. -/
def nval (mk : FVec Ideal SBD .f32) (p : Fin 16) : EReal :=
  0 + ∑ k : Fin 100000, mk (ix2 p k)

/-- The leave-one-out context of feature q of sample p in channel r. -/
def Cval (x0 mk : FVec Ideal SBD .f32) (w b : FVec Ideal SDH .f32) (p : Fin 16) (q : Fin 100000) (r : Fin 64) : EReal :=
  Ideal.div (Sval x0 mk w b p r - term x0 mk w b p q r)
    (max (Ideal.ofBits .f32 0x3F800000#32) (nval mk p - mk (ix2 p q)) + Ideal.ofBits .f32 0x322BCC77#32)

/-- The pooled sums as an array. -/
def Sspec (x0 mk : FVec Ideal SBD .f32) (w b : FVec Ideal SDH .f32) : FVec Ideal SBH .f32 :=
  fun i => Sval x0 mk w b (i 0) (i 1)

/-- The leave-one-out contexts as an array. -/
def Cspec (x0 mk : FVec Ideal SBD .f32) (w b : FVec Ideal SDH .f32) : FVec Ideal SBDH .f32 :=
  fun i => Cval x0 mk w b (i 0) (i 1) (i 2)

theorem Sspec_apply (x0 mk : FVec Ideal SBD .f32) (w b : FVec Ideal SDH .f32) (p : Fin 16) (r : Fin 64) :
    Sspec x0 mk w b (ix2 p r) = Sval x0 mk w b p r := rfl

theorem Cspec_apply (x0 mk : FVec Ideal SBD .f32) (w b : FVec Ideal SDH .f32) (p : Fin 16) (q : Fin 100000) (r : Fin 64) :
    Cspec x0 mk w b (ix3 p q r) = Cval x0 mk w b p q r := rfl

end Cert.Spec

end
-- ==== Proof.RefG.lean ====
/-
  The reference computes the specification.

  The reference broadcasts the inputs, the gathered weights and biases and the mask to 16 × 100000 × 64, forms the masked
  affine values, sums them over the features, sums the mask over the features, and divides the difference of the pooled
  sum and one masked value by the clamped difference of the count and one mask entry, plus ε. Read at an index, every
  broadcast reads its operand at the index with the broadcast axes dropped, every pointwise operation acts on the
  entries, and each of the two sums is its initial value 0 plus the sum over the feature axis. The two gathered tables
  enter only as arrays: which rows a gather reads plays no part here.
-/
import proofs.«127450_j71554155152270_2_alg».proof.Proof.Gen.ReferenceIdeal.Read
import proofs.«127450_j71554155152270_2_alg».proof.Proof.Spec

noncomputable section

namespace Cert.RefG

open Cert.ReferenceIdeal Cert.ReferenceIdeal.Read Idealize.ShloMosaic Idealize.ShloMosaic.ValueIdx Cert.Spec
open scoped BigOperators

variable (x0 : FVec Ideal S16x100000 .f32) (x1 : IVec S100000 32) (x2 : FVec Ideal S16x100000 .f32)
  (x3 x4 : FVec Ideal S100000x64 .f32)

/-- The masked affine value the reference forms at (p, k, r). -/
theorem masked_apply (p : Fin 16) (k : Fin 100000) (r : Fin 64) :
    val_main_v24 (F := Ideal) x0 x1 x2 x3 x4 (ix3 p k r)
      = term x0 x2 (val_main_v6 (F := Ideal) x1 x3) (val_main_v13 (F := Ideal) x1 x4) p k r := by
  have h14 : idx_main_v14 (idx_main_v16 (ix3 p k r)) = ix2 p k :=
    funext fun a => by match a with | ⟨0, _⟩ => rfl | ⟨1, _⟩ => rfl
  have h15 : idx_main_v15 (idx_main_v17 (ix3 p k r)) = ix2 k r :=
    funext fun a => by match a with | ⟨0, _⟩ => rfl | ⟨1, _⟩ => rfl
  have h19 : idx_main_v19 (idx_main_v20 (ix3 p k r)) = ix2 k r :=
    funext fun a => by match a with | ⟨0, _⟩ => rfl | ⟨1, _⟩ => rfl
  have h22 : idx_main_v22 (idx_main_v23 (ix3 p k r)) = ix2 p k :=
    funext fun a => by match a with | ⟨0, _⟩ => rfl | ⟨1, _⟩ => rfl
  rw [val_main_v24_apply, val_main_v21_apply, val_main_v18_apply, val_main_v16_apply, val_main_v14_apply,
    val_main_v17_apply, val_main_v15_apply, val_main_v20_apply, val_main_v19_apply, val_main_v23_apply,
    val_main_v22_apply, h14, h15, h19, h22]
  rfl

/-- The reference's pooled sum at (p, r). -/
theorem pooled_apply (p : Fin 16) (r : Fin 64) :
    val_main_v25 (F := Ideal) x0 x1 x2 x3 x4 (ix2 p r)
      = Sval x0 x2 (val_main_v6 (F := Ideal) x1 x3) (val_main_v13 (F := Ideal) x1 x4) p r := by
  rw [val_main_v25_apply, val_main_cst_apply, Ideal.ofBits_def, Ideal.ofBits_zero_f32]
  unfold Sval
  refine congrArg (0 + ·) (Finset.sum_congr rfl fun k _ => ?_)
  have h25 : idx_main_v25 (ix2 p r) k = ix3 p k r :=
    funext fun a => by match a with | ⟨0, _⟩ => rfl | ⟨1, _⟩ => rfl | ⟨2, _⟩ => rfl
  rw [h25, masked_apply]

/-- The reference's count of present features, as the clamped denominator reads it at (p, q). -/
theorem count_apply (p : Fin 16) (q : Fin 100000) :
    val_main_v30 (F := Ideal) x2 (ix3 p q (0 : Fin 1)) = nval x2 p := by
  have h27 : idx_main_v27 (idx_main_v28 (idx_main_v30 (ix3 p q (0 : Fin 1)))) = ix1 p :=
    funext fun a => by match a with | ⟨0, _⟩ => rfl
  rw [val_main_v30_apply, val_main_v28_apply, val_main_v27_apply, h27, val_main_v26_apply, val_main_cst_3_apply,
    Ideal.ofBits_def, Ideal.ofBits_zero_f32]
  unfold nval
  refine congrArg (0 + ·) (Finset.sum_congr rfl fun k _ => ?_)
  exact congrArg x2 (funext fun a => by match a with | ⟨0, _⟩ => rfl | ⟨1, _⟩ => rfl)

/-- The reference's first result is the specification's leave-one-out context. -/
theorem context_eq :
    val_main_v39 (F := Ideal) x0 x1 x2 x3 x4
      = Cspec x0 x2 (val_main_v6 (F := Ideal) x1 x3) (val_main_v13 (F := Ideal) x1 x4) := by
  funext i
  obtain ⟨p, q, r, rfl⟩ : ∃ (p : Fin 16) (q : Fin 100000) (r : Fin 64), i = ix3 p q r := ⟨i 0, i 1, i 2, eq_ix3 i⟩
  have h35 : idx_main_v35 (idx_main_v36 (ix3 p q r)) = ix2 p r :=
    funext fun a => by match a with | ⟨0, _⟩ => rfl | ⟨1, _⟩ => rfl
  have h38 : idx_main_v38 (ix3 p q r) = ix3 p q (0 : Fin 1) :=
    funext fun a => by match a with | ⟨0, _⟩ => rfl | ⟨1, _⟩ => rfl | ⟨2, _⟩ => rfl
  have h29 : idx_main_v29 (ix3 p q (0 : Fin 1)) = ix2 p q :=
    funext fun a => by match a with | ⟨0, _⟩ => rfl | ⟨1, _⟩ => rfl
  rw [Cspec_apply, val_main_v39_apply, val_main_v37_apply, val_main_v36_apply, val_main_v35_apply, h35, pooled_apply,
    masked_apply, val_main_v38_apply, h38, val_main_v34_apply, val_main_v32_apply, val_main_call0_v1_apply,
    val_main_call0_v0_apply, val_main_cst_4_apply, val_main_v31_apply, count_apply, val_main_v29_apply, h29,
    val_main_v33_apply, val_main_cst_5_apply]
  rfl

/-- The reference's second result is the specification's pooled sum. -/
theorem pooled_eq :
    val_main_v25 (F := Ideal) x0 x1 x2 x3 x4
      = Sspec x0 x2 (val_main_v6 (F := Ideal) x1 x3) (val_main_v13 (F := Ideal) x1 x4) := by
  funext i
  obtain ⟨p, r, rfl⟩ : ∃ (p : Fin 16) (r : Fin 64), i = ix2 p r := ⟨i 0, i 1, eq_ix2 i⟩
  rw [Sspec_apply, pooled_apply]

end Cert.RefG

end
-- ==== Proof.LibRealEntries2.lean ====
/-
  Entries that are real numbers, through the host operations that keep them so, for any shapes and dimension numbers.

  An extended real is "real" when it is the image of a real number. Sums, products and maxima of reals are real; a
  finite sum of reals is real. A gather reads, at every result index, SOME entry of its operand, so when every entry of
  the operand is real so is every entry of the result, whatever the dimension numbers and the indices. An accumulating
  scatter yields, at every index, the operand's entry plus a finite sum of update entries, so reals in, reals out. The
  reciprocal square root of a positive real is the real 1 / sqrt r. A selection between two reals is real.
-/
import Idealize.ShloMosaic.Lib.ValueIdx
import Idealize.ShloMosaic.Lib.Pipeline.Value
import Idealize.ShloMosaic.PureOps.Ideal.Laws

noncomputable section

namespace RealEntries2

open Idealize.ShloMosaic
open scoped BigOperators

/-- The extended real is (the image of) a real number. -/
def IsReal (x : EReal) : Prop := ∃ r : ℝ, x = (r : EReal)

/-- The extended real is a positive real number. -/
def IsPosReal (x : EReal) : Prop := ∃ r : ℝ, 0 < r ∧ x = (r : EReal)

theorem IsPosReal.isReal {x : EReal} (h : IsPosReal x) : IsReal x := by
  obtain ⟨r, _, hr⟩ := h
  exact ⟨r, hr⟩

/-- Realness passes along an equality. -/
theorem isReal_of_eq {x y : EReal} (h : x = y) (hy : IsReal y) : IsReal x := by
  obtain ⟨r, hr⟩ := hy
  exact ⟨r, h.trans hr⟩

theorem isPosReal_of_eq {x y : EReal} (h : x = y) (hy : IsPosReal y) : IsPosReal x := by
  obtain ⟨r, h0, hr⟩ := hy
  exact ⟨r, h0, h.trans hr⟩

theorem isReal_coe (r : ℝ) : IsReal (r : EReal) := ⟨r, rfl⟩

theorem isReal_zero : IsReal (0 : EReal) := ⟨0, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact isReal_add (h a (Finset.mem_insert_self a s)) (ih fun i hi => h i (Finset.mem_insert_of_mem hi))

/-- The larger of a real and a positive real is a positive real. -/
theorem isPosReal_max {x y : EReal} (hx : IsReal x) (hy : IsPosReal y) : IsPosReal (max x y) := by
  obtain ⟨a, rfl⟩ := hx
  obtain ⟨b, hb, rfl⟩ := hy
  rcases le_total (a : EReal) (b : EReal) with h | h
  · rw [max_eq_right h]
    exact ⟨b, hb, rfl⟩
  · rw [max_eq_left h]
    exact ⟨a, lt_of_lt_of_le hb (EReal.coe_le_coe_iff.mp h), rfl⟩

/-- The reciprocal square root of a positive real is a real. -/
theorem isReal_rsqrt {x : EReal} (hx : IsPosReal x) : IsReal (Ideal.rsqrt x) := by
  obtain ⟨r, hr, rfl⟩ := hx
  rw [Ideal.rsqrt_coe, if_neg (not_lt.mpr hr.le), if_neg (ne_of_gt hr)]
  exact ⟨_, rfl⟩

/-- A selection between two reals is real. -/
theorem isReal_select (c : BitVec 1) {a b : EReal} (ha : IsReal a) (hb : IsReal b) : IsReal (Scalar.select c a b) := by
  unfold Scalar.select
  split
  · exact ha
  · exact hb

/-- A gather of an array of reals is an array of reals: every result entry is some operand entry. -/
theorem gather_real {s si t : Shape} {w : Nat} (d : GatherDims s si t) (x : s.Idx → EReal) (idx : IVec si w)
    (hx : ∀ i, IsReal (x i)) (j : t.Idx) : IsReal (Host.gather d x idx j) :=
  hx (d.operandIdx j idx)

/-- An accumulating scatter of real updates into an array of reals is an array of reals. -/
theorem scatterAdd_real {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact isReal_add (hx i) (isReal_sum _ _ fun j _ => hu j)

/-- The same for the host's accumulating scatter read on the extended reals. -/
theorem hostScatterAdd_real {s si su : Shape} {w : Nat} {φ : FTy} (d : ScatterDims s si su) (x : FVec Ideal s φ) (idx : IVec si w)
    (upd : FVec Ideal su φ) (hx : ∀ i, IsReal (x i)) (hu : ∀ j, IsReal (upd j)) (i : s.Idx) :
    IsReal (Host.scatterAdd d x idx upd i) :=
  scatterAdd_real d x idx upd hx hu i

end RealEntries2

end
-- ==== Proof.KI.Gather.lean ====
/-
  The two gathered tables, as the kernel program's first host operations leave them.

  The kernel program normalises the feature ids and gathers the rows of the weight table and of the bias table by the
  same operations as the reference, from the same arguments: its two gathered arrays are the reference's two stages,
  and, a gather reading at every index some entry of its operand, they are real wherever the tables are.
-/
import proofs.«127450_j71554155152270_2_alg».proof.Proof.KI.Run
import proofs.«127450_j71554155152270_2_alg».proof.Proof.RefG
import proofs.«127450_j71554155152270_2_alg».proof.Proof.LibRealEntries2

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The gathered weights are the reference's stage. -/
theorem W1_v6 (c : Dev nD) :
    W1 m ρ c (Proc.devRef .tc main_v6)
      = Cert.ReferenceIdeal.Read.val_main_v6 (F := Ideal) (m ((c : Thread nD τ).loc main_arg1)) (m ((c : Thread nD τ).loc main_arg3)) := by
  show StableHlo.after hostOps0 (W0 m ρ c) (Proc.devRef .tc main_v6) = _
  after_results
  rfl

/-- The gathered biases are the reference's stage. -/
theorem W1_v13 (c : Dev nD) :
    W1 m ρ c (Proc.devRef .tc main_v13)
      = Cert.ReferenceIdeal.Read.val_main_v13 (F := Ideal) (m ((c : Thread nD τ).loc main_arg1)) (m ((c : Thread nD τ).loc main_arg4)) := by
  show StableHlo.after hostOps0 (W0 m ρ c) (Proc.devRef .tc main_v13) = _
  after_results
  rfl

/-- The first host stretch leaves the inputs … -/
theorem W1_arg0 (c : Dev nD) : W1 m ρ c (Proc.devRef .tc main_arg0) = m ((c : Thread nD τ).loc main_arg0) :=
  W1_of m ρ c main_arg0 (by decide)

/-- … and the mask as launched. -/
theorem W1_arg2 (c : Dev nD) : W1 m ρ c (Proc.devRef .tc main_arg2) = m ((c : Thread nD τ).loc main_arg2) :=
  W1_of m ρ c main_arg2 (by decide)

/-- The gathered weights are real where the weight table is. -/
theorem real_gW (ids : IVec Cert.ReferenceIdeal.S100000 32) (tb : FVec Ideal Cert.ReferenceIdeal.S100000x64 .f32)
    (h : ∀ i, RealEntries2.IsReal (tb i)) (i : Cert.ReferenceIdeal.S100000x64.Idx) :
    RealEntries2.IsReal (Cert.ReferenceIdeal.Read.val_main_v6 (F := Ideal) ids tb i) :=
  RealEntries2.gather_real _ tb _ h i

/-- The gathered biases are real where the bias table is. -/
theorem real_gB (ids : IVec Cert.ReferenceIdeal.S100000 32) (tb : FVec Ideal Cert.ReferenceIdeal.S100000x64 .f32)
    (h : ∀ i, RealEntries2.IsReal (tb i)) (i : Cert.ReferenceIdeal.S100000x64.Idx) :
    RealEntries2.IsReal (Cert.ReferenceIdeal.Read.val_main_v13 (F := Ideal) ids tb i) :=
  RealEntries2.gather_real _ tb _ h i

end Cert.KernelIdeal.Hand

end
-- ==== Proof.KI.Pay.lean ====
/-
  The values the two kernel bodies store, read at an index, on the extended reals.

  First body (one chunk of 6400 features): at the first chunk the two accumulators are set to zero; at every chunk the
  16 × 64 accumulator s receives, at (p, r), the two contractions over the chunk's features k

      s p r + ((Σ_k (x0 p k · x1 p k) · x2 k r) + Σ_k x1 p k · x3 k r)

  (x0 the inputs, x1 the mask, x2 the weights, x3 the biases of the chunk; the narrowing to the matrix unit's format is
  the identity on extended reals and a product into a zero accumulator is the bare sum), and the 16 × 1 accumulator n
  receives n p + Σ_k x1 p k. Second body (one chunk of 1024 features): at (p, q, r) it stores

      (S p r − (x0 p q · x2 q r + x3 q r) · x1 p q) / (max (1, n p − x1 p q) + ε),

  every broadcast reading its operand at the coordinates it keeps.
-/
import proofs.«127450_j71554155152270_2_alg».proof.Proof.Gen.KernelIdeal.Skeleton
import Idealize.ShloMosaic.Lib.StackMember

noncomputable section

namespace Cert.KernelIdeal.Pay

open Cert.KernelIdeal Cert.KernelIdeal.Gen Idealize.ShloMosaic Idealize.ShloMosaic.ValueIdx
open scoped BigOperators

/-! ## Layout operations at literal shapes -/

section Layout
variable {α : Type}

/-- A column [16, 1024] given a unit last axis and laid along 64 channels reads the column's entry. -/
theorem col3_apply (x : S16x1024.Idx → α) (h1 : S16x1024.ShapeCasts S16x1024x1) (h2 : S16x1024x1.Broadcasts S16x1024x64)
    (p : Fin 16) (q : Fin 1024) (r : Fin 64) :
    broadcastTo S16x1024x64 (shapeCast S16x1024x1 x h1) h2 (ix3 p q r) = x (ix2 p q) := by
  refine (broadcastTo_apply _ h2 (ix3 p q r) (ix3 p q (0 : Fin 1)) fun a => ?_).trans ?_
  · match a with
    | ⟨0, _⟩ => show p.val = if (16 : Nat) = 1 then 0 else p.val; rw [if_neg (by decide)]
    | ⟨1, _⟩ => show q.val = if (1024 : Nat) = 1 then 0 else q.val; rw [if_neg (by decide)]
    | ⟨2, _⟩ => show 0 = if (1 : Nat) = 1 then 0 else r.val; rw [if_pos rfl]
  · refine shapeCast_apply x h1 (ix3 p q (0 : Fin 1)) (ix2 p q) ?_
    rw [Shape.rowMajor_val_two, Shape.rowMajor_val_three]
    show p.val * 1024 + q.val = (p.val * 1024 + q.val) * 1 + 0
    omega

/-- A table [1024, 64] given a unit first axis and laid along 16 samples reads the table's entry. -/
theorem row3_apply (x : S1024x64.Idx → α) (h1 : S1024x64.ShapeCasts S1x1024x64) (h2 : S1x1024x64.Broadcasts S16x1024x64)
    (p : Fin 16) (q : Fin 1024) (r : Fin 64) :
    broadcastTo S16x1024x64 (shapeCast S1x1024x64 x h1) h2 (ix3 p q r) = x (ix2 q r) := by
  refine (broadcastTo_apply _ h2 (ix3 p q r) (ix3 (0 : Fin 1) q r) fun a => ?_).trans ?_
  · match a with
    | ⟨0, _⟩ => show 0 = if (1 : Nat) = 1 then 0 else p.val; rw [if_pos rfl]
    | ⟨1, _⟩ => show q.val = if (1024 : Nat) = 1 then 0 else q.val; rw [if_neg (by decide)]
    | ⟨2, _⟩ => show r.val = if (64 : Nat) = 1 then 0 else r.val; rw [if_neg (by decide)]
  · refine shapeCast_apply x h1 (ix3 (0 : Fin 1) q r) (ix2 q r) ?_
    rw [Shape.rowMajor_val_two, Shape.rowMajor_val_three]
    show q.val * 64 + r.val = (0 * 1024 + q.val) * 64 + r.val
    omega

/-- A matrix [16, 64] given a unit middle axis and laid along 1024 features reads the matrix's entry. -/
theorem mid3_apply (x : S16x64.Idx → α) (h1 : S16x64.ShapeCasts S16x1x64) (h2 : S16x1x64.Broadcasts S16x1024x64)
    (p : Fin 16) (q : Fin 1024) (r : Fin 64) :
    broadcastTo S16x1024x64 (shapeCast S16x1x64 x h1) h2 (ix3 p q r) = x (ix2 p r) := by
  refine (broadcastTo_apply _ h2 (ix3 p q r) (ix3 p (0 : Fin 1) r) fun a => ?_).trans ?_
  · match a with
    | ⟨0, _⟩ => show p.val = if (16 : Nat) = 1 then 0 else p.val; rw [if_neg (by decide)]
    | ⟨1, _⟩ => show 0 = if (1 : Nat) = 1 then 0 else q.val; rw [if_pos rfl]
    | ⟨2, _⟩ => show r.val = if (64 : Nat) = 1 then 0 else r.val; rw [if_neg (by decide)]
  · refine shapeCast_apply x h1 (ix3 p (0 : Fin 1) r) (ix2 p r) ?_
    rw [Shape.rowMajor_val_two, Shape.rowMajor_val_three]
    show p.val * 64 + r.val = (p.val * 1 + 0) * 64 + r.val
    omega

/-- A column [16, 1] laid along 1024 features reads the column's entry. -/
theorem col2_apply (x : S16x1.Idx → α) (h : S16x1.Broadcasts S16x1024) (p : Fin 16) (q : Fin 1024) :
    broadcastTo S16x1024 x h (ix2 p q) = x (ix2 p (0 : Fin 1)) := by
  refine broadcastTo_apply x h (ix2 p q) (ix2 p (0 : Fin 1)) fun a => ?_
  match a with
  | ⟨0, _⟩ => show p.val = if (16 : Nat) = 1 then 0 else p.val; rw [if_neg (by decide)]
  | ⟨1, _⟩ => show 0 = if (1 : Nat) = 1 then 0 else q.val; rw [if_pos rfl]

/-- A vector [16] given a unit last axis reads the vector's entry. -/
theorem vec_col_apply (x : S16.Idx → α) (h : S16.ShapeCasts S16x1) (p : Fin 16) :
    shapeCast S16x1 x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

end Layout

/-! ## The first body -/

/-- The zero the pooled-sum accumulator starts from. -/
theorem pay1_apply (p : Fin 16) (r : Fin 64) : k0_pay1 (F := Ideal) (ix2 p r) = 0 := by
  unfold k0_pay1
  simp only [shapeCast_self]
  exact Ideal.ofBits_zero_f32

/-- The zero the count accumulator starts from. -/
theorem pay2_apply (p : Fin 16) : k0_pay2 (F := Ideal) (ix2 p (0 : Fin 1)) = 0 := by
  unfold k0_pay2
  simp only [shapeCast_self]
  exact Ideal.ofBits_zero_f32

/-- A product of a [16, 6400] by a [6400, 64] matrix into a zero accumulator is the sum over the 6400 features. -/
theorem matmul_zero_apply {φ₁ φ₂ : FTy} (A : FVec Ideal S16x6400 φ₁) (B : FVec Ideal S6400x64 φ₂) (p : Fin 16) (r : Fin 64) :
    matmul dot_S16x6400_S6400x64_S16x64_1_0_0_1_n_n none A B (constant (F := Ideal) S16x64 .f32 0x00000000#32) (ix2 p r)
      = ∑ k : Fin 6400, A (ix2 p k) * B (ix2 k r) := by
  have hd : dot_S16x6400_S6400x64_S16x64_1_0_0_1_n_n = DotDims.plain 16 6400 64 := rfl
  rw [hd, matmul_zero_eq_dotGeneral]
  exact StackMember.dotGeneral_plain_apply none A B p r

/-- What a chunk adds to the pooled-sum accumulator. -/
theorem pay4_apply (x0 x1 : Vec Ideal S16x6400 .f32) (x2 x3 : Vec Ideal S6400x64 .f32) (s : Vec Ideal S16x64 .f32)
    (p : Fin 16) (r : Fin 64) :
    k0_pay4 (F := Ideal) x0 x1 x2 x3 s (ix2 p r)
      = s (ix2 p r) + ((∑ k : Fin 6400, (x0 (ix2 p k) * x1 (ix2 p k)) * x2 (ix2 k r))
          + ∑ k : Fin 6400, x1 (ix2 p k) * x3 (ix2 k r)) := by
  unfold k0_pay4 k0_pay3
  simp only [shapeCast_self]
  rw [addf_apply, addf_apply, matmul_zero_apply, matmul_zero_apply]
  rfl

/-- What a chunk adds to the count accumulator. -/
theorem pay5_apply (x1 : Vec Ideal S16x6400 .f32) (n : Vec Ideal S16x1 .f32) (p : Fin 16) :
    k0_pay5 (F := Ideal) x1 n (ix2 p (0 : Fin 1)) = n (ix2 p (0 : Fin 1)) + ∑ k : Fin 6400, x1 (ix2 p k) := by
  unfold k0_pay5 k0_pay3
  simp only [shapeCast_self]
  rw [addf_apply, vec_col_apply]
  refine congrArg (n (ix2 p (0 : Fin 1)) + ·) ?_
  refine (Ideal.multiReduction_add_single x1 0x00000000#32 reduces_S16x6400_S16 (.inl rfl) rfl (ix1 p)).trans ?_
  refine Finset.sum_congr rfl fun k _ => congrArg x1 ?_
  funext a
  apply Fin.ext
  match a with
  | ⟨0, _⟩ => rfl
  | ⟨1, _⟩ => rfl

/-! ## The second body -/

/-- The leave-one-out context the second body stores at (p, q, r). -/
theorem pay1k_apply (x0 x1 : Vec Ideal S16x1024 .f32) (x2 x3 : Vec Ideal S1024x64 .f32) (x4 : Vec Ideal S16x64 .f32)
    (x5 : Vec Ideal S16x1 .f32) (p : Fin 16) (q : Fin 1024) (r : Fin 64) :
    k1_pay1 (F := Ideal) x0 x1 x2 x3 x4 x5 (ix3 p q r)
      = Ideal.div (x4 (ix2 p r) - (x0 (ix2 p q) * x2 (ix2 q r) + x3 (ix2 q r)) * x1 (ix2 p q))
          (max (Ideal.ofBits .f32 0x3F800000#32) (x5 (ix2 p (0 : Fin 1)) - x1 (ix2 p q)) + Ideal.ofBits .f32 0x322BCC77#32) := by
  unfold k1_pay1
  simp only [shapeCast_self]
  rw [divf_apply, subf_apply, mid3_apply, mulf_apply, addf_apply, mulf_apply, col3_apply, row3_apply, row3_apply,
    col3_apply, col3_apply, addf_apply, maximumf_apply, subf_apply, col2_apply]
  rfl

end Cert.KernelIdeal.Pay

end
-- ==== Proof.Law.lean ====
/-
  A contraction accumulated chunk by chunk over zero-padded arrays equals the plain sum.

  Fix a row and a column, so that z, m (the row's entries) and w, b (the column's entries) are arrays indexed by
  j < N. Continue each by zeros to all naturals. The chunked computation starts from an accumulator a and, for
  t = 0, 1, …, T − 1, adds the chunk's contribution

      (Σ_{k<C} (z̄(Ct+k) · m̄(Ct+k)) · w̄(Ct+k)) + (Σ_{k<C} m̄(Ct+k) · b̄(Ct+k)).

  When every entry is (the image of) a real number and the chunks cover the arrays (N ≤ T·C), the result is
  a + Σ_{j<N} (z j · w j + b j) · m j. On the reals this is: a sum of chunk sums is the sum over the concatenated
  range, the padded tail adds zeros, and (z·m)·w + m·b = (z·w + b)·m. On the extended reals the same holds because
  real entries give real sums and the embedding of the reals preserves +, · and finite sums. (Realness is needed:
  with infinite entries of opposite sign the two sides may differ.) The same statement for the row sum of m.
-/
import Mathlib
import proofs.«127450_j71554155152270_2_alg».proof.Proof.LibRealEntries2

noncomputable section

namespace Cert.Law

open RealEntries2
open scoped BigOperators

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array of length N continued by zeros to all naturals. -/
def pad (N : ℕ) (f : Fin N → EReal) (j : ℕ) : EReal := if h : j < N then f ⟨j, h⟩ else 0

/-- The real array under a padded array of reals. -/
def rp (N : ℕ) (f : Fin N → EReal) (j : ℕ) : ℝ := if h : j < N then (f ⟨j, h⟩).toReal else 0

theorem pad_coe {N : ℕ} (f : Fin N → EReal) (hf : ∀ j, IsReal (f j)) (j : ℕ) :
    pad N f j = ((rp N f j : ℝ) : EReal) := by
  unfold pad rp
  split_ifs with h
  · obtain ⟨r, hr⟩ := hf ⟨j, h⟩
    rw [hr, EReal.toReal_coe]
  · rfl

theorem rp_of_lt {N : ℕ} (f : Fin N → EReal) (j : Fin N) : rp N f j = (f j).toReal := by
  unfold rp
  rw [dif_pos j.isLt]

theorem rp_of_ge {N : ℕ} (f : Fin N → EReal) (j : ℕ) (h : N ≤ j) : rp N f j = 0 := by
  unfold rp
  rw [dif_neg (not_lt.mpr h)]

theorem coe_toReal {x : EReal} (hx : IsReal x) : ((x.toReal : ℝ) : EReal) = x := by
  obtain ⟨r, rfl⟩ := hx
  rw [EReal.toReal_coe]

/-- Chunk t's contribution to the contraction: columns C·t + k, k < C, of the padded arrays. -/
def chunkS (C N : ℕ) (z m w b : Fin N → EReal) (t : ℕ) : EReal :=
  (∑ k : Fin C, (pad N z (C * t + k) * pad N m (C * t + k)) * pad N w (C * t + k))
    + ∑ k : Fin C, pad N m (C * t + k) * pad N b (C * t + k)

/-- Chunk t's contribution to the row sum of m. -/
def chunkN (C N : ℕ) (m : Fin N → EReal) (t : ℕ) : EReal := ∑ k : Fin C, pad N m (C * t + k)

/-- The accumulator after t steps from the start value a, step t adding g t. -/
def fold (a : EReal) (g : ℕ → EReal) : ℕ → EReal
  | 0 => a
  | t + 1 => fold a g t + g t

theorem fold_eq (a : EReal) (g : ℕ → EReal) (T : ℕ) : fold a g T = a + ∑ t ∈ Finset.range T, g t := by
  induction T with
  | zero => simp [fold]
  | succ T ih => rw [fold, ih, Finset.sum_range_succ, add_assoc]

/-- On the reals: a sum of chunk sums is the sum over the concatenated range. -/
theorem sum_chunks (C : ℕ) (h : ℕ → ℝ) (T : ℕ) :
    ∑ t ∈ Finset.range T, ∑ k : Fin C, h (C * t + k) = ∑ j ∈ Finset.range (T * C), h j := by
  induction T with
  | zero => simp
  | succ T ih =>
    rw [Finset.sum_range_succ, ih, Nat.succ_mul, Finset.sum_range_add,
      ← Finset.sum_range (fun k => h (C * T + k)), mul_comm]

/-- A tail of zeros adds nothing. -/
theorem sum_range_tail (N M : ℕ) (hNM : N ≤ M) (h : ℕ → ℝ) (h0 : ∀ j, N ≤ j → h j = 0) :
    ∑ j ∈ Finset.range M, h j = ∑ j ∈ Finset.range N, h j := by
  obtain ⟨d, rfl⟩ := Nat.exists_eq_add_of_le hNM
  rw [Finset.sum_range_add, Finset.sum_eq_zero (fun k _ => h0 _ (Nat.le_add_right N k)), add_zero]

/-- A fold of real chunk sums of a real array that vanishes from N on is the sum over j < N. -/
theorem sum_fold_real (C T N : ℕ) (hN : N ≤ T * C) (h : ℕ → ℝ) (h0 : ∀ j, N ≤ j → h j = 0) :
    ∑ t ∈ Finset.range T, ((∑ k : Fin C, h (C * t + k) : ℝ) : EReal) = ((∑ j : Fin N, h j : ℝ) : EReal) := by
  rw [← coe_sum, sum_chunks, sum_range_tail N (T * C) hN h h0, Finset.sum_range]

/-- The chunked contraction of padded real arrays is the plain masked affine sum. -/
theorem foldS_eq (a : EReal) (C T N : ℕ) (hN : N ≤ T * C) (z m w b : Fin N → EReal)
    (hz : ∀ j, IsReal (z j)) (hm : ∀ j, IsReal (m j)) (hw : ∀ j, IsReal (w j)) (hb : ∀ j, IsReal (b j)) :
    fold a (chunkS C N z m w b) T = a + ∑ j : Fin N, (z j * w j + b j) * m j := by
  rw [fold_eq]
  congr 1
  have hc : ∀ t, chunkS C N z m w b t
      = ((∑ k : Fin C, (fun j => rp N z j * rp N m j * rp N w j + rp N m j * rp N b j) (C * t + k) : ℝ) : EReal) := by
    intro t
    unfold chunkS
    simp only [pad_coe z hz, pad_coe m hm, pad_coe w hw, pad_coe b hb, ← EReal.coe_mul, ← coe_sum, ← EReal.coe_add,
      ← Finset.sum_add_distrib]
  rw [Finset.sum_congr rfl (fun t _ => hc t),
    sum_fold_real C T N hN (fun j => rp N z j * rp N m j * rp N w j + rp N m j * rp N b j) (fun j hj => by
      simp only [rp_of_ge _ j hj, mul_zero, zero_mul, add_zero]), coe_sum]
  refine Finset.sum_congr rfl fun j _ => ?_
  simp only [rp_of_lt]
  rw [← coe_toReal (hz j), ← coe_toReal (hm j), ← coe_toReal (hw j), ← coe_toReal (hb j)]
  simp only [EReal.toReal_coe, ← EReal.coe_mul, ← EReal.coe_add]
  congr 1
  ring

/-- The chunked row sum of a padded real array is the plain row sum. -/
theorem foldN_eq (a : EReal) (C T N : ℕ) (hN : N ≤ T * C) (m : Fin N → EReal) (hm : ∀ j, IsReal (m j)) :
    fold a (chunkN C N m) T = a + ∑ j : Fin N, m j := by
  rw [fold_eq]
  congr 1
  have hc : ∀ t, chunkN C N m t = ((∑ k : Fin C, (fun j => rp N m j) (C * t + k) : ℝ) : EReal) := by
    intro t
    unfold chunkN
    simp only [pad_coe m hm, ← coe_sum]
  rw [Finset.sum_congr rfl (fun t _ => hc t), sum_fold_real C T N hN (fun j => rp N m j) (fun j hj => rp_of_ge _ j hj),
    coe_sum]
  refine Finset.sum_congr rfl fun j _ => ?_
  rw [rp_of_lt, coe_toReal (hm j)]

end Cert.Law

end
-- ==== Proof.KI.Chunk.lean ====
/-
  From one chunk to the whole: what the two kernel bodies store, in terms of the specification.

  First call. At chunk t the body reads the blocks of the zero-padded inputs, mask, weights and biases whose features are
  6400 t + k, k < 6400, and adds to the two accumulators the chunk's contributions (Law.chunkS, Law.chunkN). Starting
  from zero, after t chunks the accumulators hold the t-step folds; after all 16 chunks, every entry being real, they
  hold the specification's pooled sum and count (the law of chunked accumulation over zero-padded arrays).

  Second call. At a feature j = 1024 t + q below 100000 the body, reading the pooled sum and the count the first call
  left, stores the specification's leave-one-out context of feature j.
-/
import proofs.«127450_j71554155152270_2_alg».proof.Proof.KI.Pay
import proofs.«127450_j71554155152270_2_alg».proof.Proof.Law
import proofs.«127450_j71554155152270_2_alg».proof.Proof.Spec

noncomputable section

namespace Cert.KernelIdeal.Chunk

open Cert.KernelIdeal Cert.KernelIdeal.Gen Cert.KernelIdeal.Pay Idealize.ShloMosaic Idealize.ShloMosaic.ValueIdx
open Cert.Spec RealEntries2
open scoped BigOperators

variable (z mk : FVec Ideal SBD .f32) (w b : FVec Ideal SDH .f32)

/-- Row p of the inputs, of the mask; column r of the weights, of the biases: the four arrays of the law. -/
abbrev zrow (p : Fin 16) : Fin 100000 → EReal := fun j => z (ix2 p j)
abbrev mrow (p : Fin 16) : Fin 100000 → EReal := fun j => mk (ix2 p j)
abbrev wcol (r : Fin 64) : Fin 100000 → EReal := fun j => w (ix2 j r)
abbrev bcol (r : Fin 64) : Fin 100000 → EReal := fun j => b (ix2 j r)

/-- The pooled-sum accumulator at (p, r) after t chunks. -/
def accS (p : Fin 16) (r : Fin 64) (t : ℕ) : EReal :=
  Cert.Law.fold 0 (Cert.Law.chunkS 6400 100000 (zrow z p) (mrow mk p) (wcol w r) (bcol b r)) t

/-- The count accumulator at p after t chunks. -/
def accN (p : Fin 16) (t : ℕ) : EReal :=
  Cert.Law.fold 0 (Cert.Law.chunkN 6400 100000 (mrow mk p)) t

theorem accS_zero (p : Fin 16) (r : Fin 64) : accS z mk w b p r 0 = 0 := rfl

theorem accN_zero (p : Fin 16) : accN mk p 0 = 0 := rfl

/-- One chunk of the pooled sum: the body's store over the chunk's blocks of the padded arrays, the accumulator
    holding the t-step fold, is the (t + 1)-step fold. -/
theorem pay4_step (x0 x1 : Vec Ideal S16x6400 .f32) (x2 x3 : Vec Ideal S6400x64 .f32) (s : Vec Ideal S16x64 .f32)
    (p : Fin 16) (r : Fin 64) (t : ℕ)
    (h0 : ∀ k : Fin 6400, x0 (ix2 p k) = Cert.Law.pad 100000 (zrow z p) (6400 * t + k))
    (h1 : ∀ k : Fin 6400, x1 (ix2 p k) = Cert.Law.pad 100000 (mrow mk p) (6400 * t + k))
    (h2 : ∀ k : Fin 6400, x2 (ix2 k r) = Cert.Law.pad 100000 (wcol w r) (6400 * t + k))
    (h3 : ∀ k : Fin 6400, x3 (ix2 k r) = Cert.Law.pad 100000 (bcol b r) (6400 * t + k))
    (hs : s (ix2 p r) = accS z mk w b p r t) :
    k0_pay4 (F := Ideal) x0 x1 x2 x3 s (ix2 p r) = accS z mk w b p r (t + 1) := by
  rw [pay4_apply, hs]
  show _ = accS z mk w b p r t + Cert.Law.chunkS 6400 100000 (zrow z p) (mrow mk p) (wcol w r) (bcol b r) t
  refine congrArg (accS z mk w b p r t + ·) ?_
  unfold Cert.Law.chunkS
  refine congrArg₂ (· + ·) (Finset.sum_congr rfl fun k _ => ?_) (Finset.sum_congr rfl fun k _ => ?_)
  · rw [h0 k, h1 k, h2 k]
  · rw [h1 k, h3 k]

/-- One chunk of the count. -/
theorem pay5_step (x1 : Vec Ideal S16x6400 .f32) (n : Vec Ideal S16x1 .f32) (p : Fin 16) (t : ℕ)
    (h1 : ∀ k : Fin 6400, x1 (ix2 p k) = Cert.Law.pad 100000 (mrow mk p) (6400 * t + k))
    (hn : n (ix2 p (0 : Fin 1)) = accN mk p t) :
    k0_pay5 (F := Ideal) x1 n (ix2 p (0 : Fin 1)) = accN mk p (t + 1) := by
  rw [pay5_apply, hn]
  show _ = accN mk p t + Cert.Law.chunkN 6400 100000 (mrow mk p) t
  refine congrArg (accN mk p t + ·) ?_
  unfold Cert.Law.chunkN
  exact Finset.sum_congr rfl fun k _ => h1 k

/-- After the 16 chunks the pooled-sum accumulator holds the specification's pooled sum. -/
theorem accS_final (hz : ∀ i, IsReal (z i)) (hm : ∀ i, IsReal (mk i)) (hw : ∀ i, IsReal (w i)) (hb : ∀ i, IsReal (b i))
    (p : Fin 16) (r : Fin 64) : accS z mk w b p r 16 = Sval z mk w b p r := by
  unfold accS
  rw [Cert.Law.foldS_eq 0 6400 16 100000 (by norm_num) (zrow z p) (mrow mk p) (wcol w r) (bcol b r)
    (fun j => hz _) (fun j => hm _) (fun j => hw _) (fun j => hb _)]
  rfl

/-- After the 16 chunks the count accumulator holds the specification's count. -/
theorem accN_final (hm : ∀ i, IsReal (mk i)) (p : Fin 16) : accN mk p 16 = nval mk p := by
  unfold accN
  rw [Cert.Law.foldN_eq 0 6400 16 100000 (by norm_num) (mrow mk p) (fun j => hm _)]
  rfl

/-- The second body at a feature j of the unpadded range: the specification's leave-one-out context. -/
theorem pay1k_spec (x0 x1 : Vec Ideal S16x1024 .f32) (x2 x3 : Vec Ideal S1024x64 .f32) (x4 : Vec Ideal S16x64 .f32)
    (x5 : Vec Ideal S16x1 .f32) (p : Fin 16) (q : Fin 1024) (r : Fin 64) (j : Fin 100000)
    (h0 : x0 (ix2 p q) = z (ix2 p j)) (h1 : x1 (ix2 p q) = mk (ix2 p j))
    (h2 : x2 (ix2 q r) = w (ix2 j r)) (h3 : x3 (ix2 q r) = b (ix2 j r))
    (h4 : x4 (ix2 p r) = Sval z mk w b p r) (h5 : x5 (ix2 p (0 : Fin 1)) = nval mk p) :
    k1_pay1 (F := Ideal) x0 x1 x2 x3 x4 x5 (ix3 p q r) = Cval z mk w b p j r := by
  rw [pay1k_apply, h0, h1, h2, h3, h4, h5]
  rfl

/-! ## The accumulators over a family of blocks -/

/-- The two accumulators after grid point n, over the families of blocks the points read (block families as functions
    of the point's number): at point 0 from the zero fill, afterwards from what the point before left. -/
def accOf (Z M : ℕ → Vec Ideal S16x6400 .f32) (Wk Bk : ℕ → Vec Ideal S6400x64 .f32) :
    ℕ → Vec Ideal S16x64 .f32 × Vec Ideal S16x1 .f32
  | 0 => (k0_pay4 (F := Ideal) (Z 0) (M 0) (Wk 0) (Bk 0) (k0_pay1 (F := Ideal)),
      k0_pay5 (F := Ideal) (M 0) (k0_pay2 (F := Ideal)))
  | n + 1 => (k0_pay4 (F := Ideal) (Z (n + 1)) (M (n + 1)) (Wk (n + 1)) (Bk (n + 1)) (accOf Z M Wk Bk n).1,
      k0_pay5 (F := Ideal) (M (n + 1)) (accOf Z M Wk Bk n).2)

section Family

variable (Z M : ℕ → Vec Ideal S16x6400 .f32) (Wk Bk : ℕ → Vec Ideal S6400x64 .f32)
  (hZ : ∀ t < 16, ∀ (p : Fin 16) (k : Fin 6400), Z t (ix2 p k) = Cert.Law.pad 100000 (fun j => z (ix2 p j)) (6400 * t + k))
  (hM : ∀ t < 16, ∀ (p : Fin 16) (k : Fin 6400), M t (ix2 p k) = Cert.Law.pad 100000 (fun j => mk (ix2 p j)) (6400 * t + k))
  (hW : ∀ t < 16, ∀ (k : Fin 6400) (r : Fin 64), Wk t (ix2 k r) = Cert.Law.pad 100000 (fun j => w (ix2 j r)) (6400 * t + k))
  (hB : ∀ t < 16, ∀ (k : Fin 6400) (r : Fin 64), Bk t (ix2 k r) = Cert.Law.pad 100000 (fun j => b (ix2 j r)) (6400 * t + k))

include hZ hM hW hB in
/-- After point n the pooled-sum accumulator holds the (n + 1)-step fold. -/
theorem accOf_fst (n : ℕ) (hn : n < 16) (p : Fin 16) (r : Fin 64) :
    (accOf Z M Wk Bk n).1 (ix2 p r) = accS z mk w b p r (n + 1) := by
  induction n with
  | zero =>
    exact pay4_step z mk w b (Z 0) (M 0) (Wk 0) (Bk 0) _ p r 0 (fun k => hZ 0 hn p k) (fun k => hM 0 hn p k)
      (fun k => hW 0 hn k r) (fun k => hB 0 hn k r) (pay1_apply p r)
  | succ n ih =>
    exact pay4_step z mk w b (Z (n + 1)) (M (n + 1)) (Wk (n + 1)) (Bk (n + 1)) _ p r (n + 1) (fun k => hZ (n + 1) hn p k)
      (fun k => hM (n + 1) hn p k) (fun k => hW (n + 1) hn k r) (fun k => hB (n + 1) hn k r) (ih (Nat.lt_of_succ_lt hn))

include hM in
/-- After point n the count accumulator holds the (n + 1)-step fold. -/
theorem accOf_snd (n : ℕ) (hn : n < 16) (p : Fin 16) :
    (accOf Z M Wk Bk n).2 (ix2 p (0 : Fin 1)) = accN mk p (n + 1) := by
  induction n with
  | zero => exact pay5_step mk (M 0) _ p 0 (fun k => hM 0 hn p k) (pay2_apply p)
  | succ n ih => exact pay5_step mk (M (n + 1)) _ p (n + 1) (fun k => hM (n + 1) hn p k) (ih (Nat.lt_of_succ_lt hn))

variable (hz : ∀ i, IsReal (z i)) (hm : ∀ i, IsReal (mk i)) (hw : ∀ i, IsReal (w i)) (hb : ∀ i, IsReal (b i))

include hZ hM hW hB hz hm hw hb in
/-- After the last point the pooled-sum accumulator holds the specification's pooled sum. -/
theorem accOf_S (p : Fin 16) (r : Fin 64) : (accOf Z M Wk Bk 15).1 (ix2 p r) = Sval z mk w b p r :=
  (accOf_fst z mk w b Z M Wk Bk hZ hM hW hB 15 (by norm_num) p r).trans (accS_final z mk w b hz hm hw hb p r)

include hM hm in
/-- After the last point the count accumulator holds the specification's count. -/
theorem accOf_n (p : Fin 16) : (accOf Z M Wk Bk 15).2 (ix2 p (0 : Fin 1)) = nval mk p :=
  (accOf_snd mk Z M Wk Bk hM 15 (by norm_num) p).trans (accN_final mk hm p)

include hZ hM hW hB hz hm hw hb in
/-- As an array: the first call's first result is the specification's pooled sums. -/
theorem accOf_Sspec : (accOf Z M Wk Bk 15).1 = Sspec z mk w b := by
  funext i
  obtain ⟨p, r, rfl⟩ : ∃ (p : Fin 16) (r : Fin 64), i = ix2 p r := ⟨i 0, i 1, eq_ix2 i⟩
  rw [Sspec_apply]
  exact accOf_S z mk w b Z M Wk Bk hZ hM hW hB hz hm hw hb p r

end Family

/-! ## The second call over its blocks -/

/-- The second body at point t over the blocks of the 352-padded arrays, reading the first call's results: at a feature
    1024 t + q of the unpadded range, the specification's leave-one-out context. -/
theorem chunk2 (X0 X1 : Vec Ideal S16x1024 .f32) (X2 X3 : Vec Ideal S1024x64 .f32) (X4 : Vec Ideal S16x64 .f32)
    (X5 : Vec Ideal S16x1 .f32) (t : ℕ) (p : Fin 16) (q : Fin 1024) (r : Fin 64) (hj : 1024 * t + q.val < 100000)
    (h0 : X0 (ix2 p q) = Cert.Law.pad 100000 (fun j => z (ix2 p j)) (1024 * t + q))
    (h1 : X1 (ix2 p q) = Cert.Law.pad 100000 (fun j => mk (ix2 p j)) (1024 * t + q))
    (h2 : X2 (ix2 q r) = Cert.Law.pad 100000 (fun j => w (ix2 j r)) (1024 * t + q))
    (h3 : X3 (ix2 q r) = Cert.Law.pad 100000 (fun j => b (ix2 j r)) (1024 * t + q))
    (h4 : X4 = Sspec z mk w b) (h5 : X5 (ix2 p (0 : Fin 1)) = nval mk p) :
    k1_pay1 (F := Ideal) X0 X1 X2 X3 X4 X5 (ix3 p q r) = Cval z mk w b p ⟨1024 * t + q.val, hj⟩ r := by
  refine pay1k_spec z mk w b X0 X1 X2 X3 X4 X5 p q r ⟨1024 * t + q.val, hj⟩ ?_ ?_ ?_ ?_ ?_ h5
  · rw [h0]; unfold Cert.Law.pad; rw [dif_pos hj]
  · rw [h1]; unfold Cert.Law.pad; rw [dif_pos hj]
  · rw [h2]; unfold Cert.Law.pad; rw [dif_pos hj]
  · rw [h3]; unfold Cert.Law.pad; rw [dif_pos hj]
  · rw [h4, Sspec_apply]

end Cert.KernelIdeal.Chunk

end
-- ==== Proof.KI.Glue.lean ====
/-
  The host operations around the two kernel calls, read at an index.

  Before each call the inputs and the mask are continued by columns of zeros, and the weights and biases by rows of
  zeros, up to a whole number of chunks: the padded array reads the operand where the padded coordinate is below the
  operand's extent and the padding value, the integer 0 converted to the real 0, beyond it. After the second call the
  result keeps the first 100000 features: the slice reads its operand at the same coordinates.
-/
import proofs.«127450_j71554155152270_2_alg».proof.KernelIdeal
import Idealize.ShloMosaic.Lib.KernelVsHost
import Idealize.ShloMosaic.Lib.ValueLayout

noncomputable section

namespace Cert.KernelIdeal.Glue

open Cert.KernelIdeal Idealize.ShloMosaic Idealize.ShloMosaic.ValueIdx

section Pads
variable {α : Type}

/-- Columns added on the high side: inside the operand's columns the operand, beyond them the padding value. -/
theorem pad_cols_apply {n0 n1 m hi : Nat} (x : (⟨2, ![n0, n1]⟩ : Shape).Idx → α) {u : Shape} (v : u.Idx → α)
    (h : (⟨2, ![n0, n1]⟩ : Shape).Pads (![0, 0] : Fin 2 → Nat) ![0, hi] ![0, 0] ⟨2, ![n0, m]⟩) (hu : 0 < u.numel)
    (p : Fin n0) (j : Fin m) :
    pad ⟨2, ![n0, m]⟩ ![0, 0] ![0, hi] ![0, 0] x v h hu (ix2 p j)
      = if hj : j.val < n1 then x (ix2 p ⟨j.val, hj⟩) else v (Shape.Idx.first hu) := by
  by_cases hj : j.val < n1
  · rw [dif_pos hj]
    refine pad_apply_of_inside _ _ _ x v h hu (ix2 p j) (ix2 p ⟨j.val, hj⟩) fun a => ?_
    match a with
    | ⟨0, _⟩ => show p.val = 0 + p.val * (0 + 1); omega
    | ⟨1, _⟩ => show j.val = 0 + j.val * (0 + 1); omega
  · rw [dif_neg hj]
    refine pad_apply_of_not_inside _ _ _ x v h hu (ix2 p j) (1 : Fin 2) fun hin => hj ?_
    have h3 : (j.val - 0) / (0 + 1) < n1 := hin.2.2
    omega

/-- Rows added on the high side: inside the operand's rows the operand, beyond them the padding value. -/
theorem pad_rows_apply {n0 n1 m hi : Nat} (x : (⟨2, ![n0, n1]⟩ : Shape).Idx → α) {u : Shape} (v : u.Idx → α)
    (h : (⟨2, ![n0, n1]⟩ : Shape).Pads (![0, 0] : Fin 2 → Nat) ![hi, 0] ![0, 0] ⟨2, ![m, n1]⟩) (hu : 0 < u.numel)
    (j : Fin m) (r : Fin n1) :
    pad ⟨2, ![m, n1]⟩ ![0, 0] ![hi, 0] ![0, 0] x v h hu (ix2 j r)
      = if hj : j.val < n0 then x (ix2 ⟨j.val, hj⟩ r) else v (Shape.Idx.first hu) := by
  by_cases hj : j.val < n0
  · rw [dif_pos hj]
    refine pad_apply_of_inside _ _ _ x v h hu (ix2 j r) (ix2 ⟨j.val, hj⟩ r) fun a => ?_
    match a with
    | ⟨0, _⟩ => show j.val = 0 + j.val * (0 + 1); omega
    | ⟨1, _⟩ => show r.val = 0 + r.val * (0 + 1); omega
  · rw [dif_neg hj]
    refine pad_apply_of_not_inside _ _ _ x v h hu (ix2 j r) (0 : Fin 2) fun hin => hj ?_
    have h3 : (j.val - 0) / (0 + 1) < n0 := hin.2.2
    omega

end Pads

/-- The padding value: the integer 0 converted, the real 0. -/
theorem padval_apply (i : S_.Idx) : (sitofp .f32 (constantI S_ 32 0#32) : FVec Ideal S_ .f32) i = 0 := by
  show (((0#32 : BitVec 32).toInt : ℝ) : EReal) = 0
  simp

variable [Cert.KernelIdeal.Facts]
open Cert.KernelIdeal.Facts₀ Cert.KernelIdeal.Facts

/-- The first call's padded inputs (and mask): 2400 columns of zeros after the 100000. -/
theorem pad1_cols (x : FVec Ideal S16x100000 .f32) (p : Fin 16) (j : Fin 102400) :
    pad S16x102400 ![0, 0] ![0, 2400] ![0, 0] x (sitofp .f32 (constantI S_ 32 0#32) : FVec Ideal S_ .f32)
        pads_S16x100000_S16x102400_000_024000 h_S_ (ix2 p j)
      = if hj : j.val < 100000 then x (ix2 p ⟨j.val, hj⟩) else 0 := by
  rw [pad_cols_apply, padval_apply]

/-- The first call's padded weights (and biases): 2400 rows of zeros after the 100000. -/
theorem pad1_rows (x : FVec Ideal S100000x64 .f32) (j : Fin 102400) (r : Fin 64) :
    pad S102400x64 ![0, 0] ![2400, 0] ![0, 0] x (sitofp .f32 (constantI S_ 32 0#32) : FVec Ideal S_ .f32)
        pads_S100000x64_S102400x64_024000_000 h_S_ (ix2 j r)
      = if hj : j.val < 100000 then x (ix2 ⟨j.val, hj⟩ r) else 0 := by
  rw [pad_rows_apply, padval_apply]

/-- The second call's padded inputs (and mask): 352 columns of zeros after the 100000. -/
theorem pad2_cols (x : FVec Ideal S16x100000 .f32) (p : Fin 16) (j : Fin 100352) :
    pad S16x100352 ![0, 0] ![0, 352] ![0, 0] x (sitofp .f32 (constantI S_ 32 0#32) : FVec Ideal S_ .f32)
        pads_S16x100000_S16x100352_000_03520 h_S_ (ix2 p j)
      = if hj : j.val < 100000 then x (ix2 p ⟨j.val, hj⟩) else 0 := by
  rw [pad_cols_apply, padval_apply]

/-- The second call's padded weights (and biases): 352 rows of zeros after the 100000. -/
theorem pad2_rows (x : FVec Ideal S100000x64 .f32) (j : Fin 100352) (r : Fin 64) :
    pad S100352x64 ![0, 0] ![352, 0] ![0, 0] x (sitofp .f32 (constantI S_ 32 0#32) : FVec Ideal S_ .f32)
        pads_S100000x64_S100352x64_03520_000 h_S_ (ix2 j r)
      = if hj : j.val < 100000 then x (ix2 ⟨j.val, hj⟩ r) else 0 := by
  rw [pad_rows_apply, padval_apply]

/-- The result keeps the first 100000 features of the second call's output. -/
theorem slice_apply {α : Type} (X : S16x100352x64.Idx → α) (p : Fin 16) (q : Fin 100000) (r : Fin 64) :
    extractStridedSlice S16x100000x64 ![0, 0, 0] X slices_S16x100352x64_S16x100000x64_0_0_0 (ix3 p q r)
      = X (ix3 p ⟨q.val, Nat.lt_trans q.isLt (by decide)⟩ r) :=
  slice3_axis1_apply 0 X slices_S16x100352x64_S16x100000x64_0_0_0 p q r _ (Nat.zero_add _).symm

end Cert.KernelIdeal.Glue

end
-- ==== Proof.Fin.lean ====
/-
  Finiteness: under the precondition every entry of the four float arguments is a real number.

  The precondition is the conjunction of four statements "every |entry| is below +∞", each printed as a reduction by
  "and" over the whole array of the comparison |x| < +∞ (the word 0x7F800000). A conjunction of bits is 1 exactly when
  both are; a reduction by "and" from 1 that is 1 met only 1s; and an extended real whose absolute value max (x, −x) is
  below +∞ is neither +∞ nor −∞, hence the image of a real.
-/
import proofs.«127450_j71554155152270_2_alg».proof.Proof.Gen.Pre_finite_inputs
import proofs.«127450_j71554155152270_2_alg».proof.Proof.LibRealEntries2
import Idealize.ShloMosaic.Lib.ReduceAll
import Idealize.ShloMosaic.Lib.ValueIdx
import Idealize.ShloMosaic.PureOps.Ideal.Laws

noncomputable section

namespace Cert.Fin

open Idealize.ShloMosaic RealEntries2 Cert.Pre_finite_inputs

/-- The word 0x7F800000 is +∞. -/
theorem ofBits_inf : Ideal.ofBits .f32 0x7F800000#32 = ⊤ := by
  simp [Ideal.ofBits, Ideal.ieee]

/-- An extended real whose absolute value is below +∞ is real. -/
theorem isReal_of_abs_lt (x : EReal)
    (h : FloatOps.cmpf (F := Ideal) (φ := .f32) .olt (FloatOps.hostAbsf (F := Ideal) (φ := .f32) x) (Ideal.ofBits .f32 0x7F800000#32) = 1#1) :
    IsReal x := by
  rw [ofBits_inf] at h
  induction x using EReal.rec with
  | bot => exact absurd h (by decide)
  | top => exact absurd h (by decide)
  | coe r => exact ⟨r, rfl⟩

instance : Subsingleton S_.Idx := ⟨fun a b => funext fun d => d.elim0⟩

theorem real_of_pre (a0 : FVec Ideal S16x100000 .f32) (a1 : IVec S100000 32) (a2 : FVec Ideal S16x100000 .f32)
    (a3 a4 : FVec Ideal S100000x64 .f32)
    (h : Cert.Pre_finite_inputs.fn (F := Ideal) a0 a1 a2 a3 a4 = fun _ => 1#1) :
    (∀ i, IsReal (a0 i)) ∧ (∀ i, IsReal (a2 i)) ∧ (∀ i, IsReal (a3 i)) ∧ (∀ i, IsReal (a4 i)) := by
  have h0 := congrFun h ValueIdx.ix0
  dsimp only [Cert.Pre_finite_inputs.fn, Cert.Pre_finite_inputs.fn_part1] at h0
  obtain ⟨h012, h4⟩ := IntOp.andi_eq_one.1 h0
  obtain ⟨h01, h3⟩ := IntOp.andi_eq_one.1 h012
  obtain ⟨h0', h2⟩ := IntOp.andi_eq_one.1 h01
  exact ⟨fun i => isReal_of_abs_lt (a0 i) (Host.reduce_andi_all _ _ _ _ ValueIdx.ix0 h0' i),
    fun i => isReal_of_abs_lt (a2 i) (Host.reduce_andi_all _ _ _ _ ValueIdx.ix0 h2 i),
    fun i => isReal_of_abs_lt (a3 i) (Host.reduce_andi_all _ _ _ _ ValueIdx.ix0 h3 i),
    fun i => isReal_of_abs_lt (a4 i) (Host.reduce_andi_all _ _ _ _ ValueIdx.ix0 h4 i)⟩

end Cert.Fin

end
-- ==== Proof.KI.Entry.lean ====
/- The entry contents of the two regions. Between the launch and the first region the host stretches normalise the
   feature ids, gather the two tables and pad the four operands with zeros to a multiple of the first call's chunk
   (2400 more columns / rows); between the two regions they pad the same four operands to a multiple of the second call's
   chunk (352 more). Each padded array is read here as the padding operation applied to the launch contents (or to the
   gathered table), by walking the array's buffer back through the stretches that do not write it; the second region
   finds the first region's two output arrays as the first region left them. -/
import proofs.«127450_j71554155152270_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-! ## What each padding stretch writes, from the contents before it -/

theorem W2_v14_gen (Wp : Valuation τ sig (Elt F)) : StableHlo.after hostOps0_1 Wp (Proc.devRef .tc main_v14)
    = pad S16x102400 ![0, 0] ![0, 2400] ![0, 0] (Wp (Proc.devRef .tc main_arg0)) (sitofp .f32 (Wp (Proc.devRef .tc main_c_3))) pads_S16x100000_S16x102400_000_024000 h_S_ := by
  after_results; rfl

theorem W2_v14 (c : Dev nD) : W2 m ρ c (Proc.devRef .tc main_v14)
    = pad S16x102400 ![0, 0] ![0, 2400] ![0, 0] (W1 m ρ c (Proc.devRef .tc main_arg0)) (sitofp .f32 (W1 m ρ c (Proc.devRef .tc main_c_3))) pads_S16x100000_S16x102400_000_024000 h_S_ :=
  W2_v14_gen (W1 m ρ c)

theorem W4_v15_gen (Wp : Valuation τ sig (Elt F)) : StableHlo.after hostOps0_3 Wp (Proc.devRef .tc main_v15)
    = pad S16x102400 ![0, 0] ![0, 2400] ![0, 0] (Wp (Proc.devRef .tc main_arg2)) (sitofp .f32 (Wp (Proc.devRef .tc main_c_4))) pads_S16x100000_S16x102400_000_024000 h_S_ := by
  after_results; rfl

theorem W4_v15 (c : Dev nD) : W4 m ρ c (Proc.devRef .tc main_v15)
    = pad S16x102400 ![0, 0] ![0, 2400] ![0, 0] (W3 m ρ c (Proc.devRef .tc main_arg2)) (sitofp .f32 (W3 m ρ c (Proc.devRef .tc main_c_4))) pads_S16x100000_S16x102400_000_024000 h_S_ :=
  W4_v15_gen (W3 m ρ c)

theorem W6_v16_gen (Wp : Valuation τ sig (Elt F)) : StableHlo.after hostOps0_5 Wp (Proc.devRef .tc main_v16)
    = pad S102400x64 ![0, 0] ![2400, 0] ![0, 0] (Wp (Proc.devRef .tc main_v6)) (sitofp .f32 (Wp (Proc.devRef .tc main_c_5))) pads_S100000x64_S102400x64_024000_000 h_S_ := by
  after_results; rfl

theorem W6_v16 (c : Dev nD) : W6 m ρ c (Proc.devRef .tc main_v16)
    = pad S102400x64 ![0, 0] ![2400, 0] ![0, 0] (W5 m ρ c (Proc.devRef .tc main_v6)) (sitofp .f32 (W5 m ρ c (Proc.devRef .tc main_c_5))) pads_S100000x64_S102400x64_024000_000 h_S_ :=
  W6_v16_gen (W5 m ρ c)

theorem W8_v17_gen (Wp : Valuation τ sig (Elt F)) : StableHlo.after hostOps0_7 Wp (Proc.devRef .tc main_v17)
    = pad S102400x64 ![0, 0] ![2400, 0] ![0, 0] (Wp (Proc.devRef .tc main_v13)) (sitofp .f32 (Wp (Proc.devRef .tc main_c_6))) pads_S100000x64_S102400x64_024000_000 h_S_ := by
  after_results; rfl

theorem W8_v17 (c : Dev nD) : W8 m ρ c (Proc.devRef .tc main_v17)
    = pad S102400x64 ![0, 0] ![2400, 0] ![0, 0] (W7 m ρ c (Proc.devRef .tc main_v13)) (sitofp .f32 (W7 m ρ c (Proc.devRef .tc main_c_6))) pads_S100000x64_S102400x64_024000_000 h_S_ :=
  W8_v17_gen (W7 m ρ c)

theorem W11_v19_gen (Wp : Valuation τ sig (Elt F)) : StableHlo.after hostOps1_1 Wp (Proc.devRef .tc main_v19)
    = pad S16x100352 ![0, 0] ![0, 352] ![0, 0] (Wp (Proc.devRef .tc main_arg0)) (sitofp .f32 (Wp (Proc.devRef .tc main_c_7))) pads_S16x100000_S16x100352_000_03520 h_S_ := by
  after_results; rfl

theorem W11_v19 (c : Dev nD) : W11 m ρ c (Proc.devRef .tc main_v19)
    = pad S16x100352 ![0, 0] ![0, 352] ![0, 0] (W10 m ρ c (Proc.devRef .tc main_arg0)) (sitofp .f32 (W10 m ρ c (Proc.devRef .tc main_c_7))) pads_S16x100000_S16x100352_000_03520 h_S_ :=
  W11_v19_gen (W10 m ρ c)

theorem W13_v20_gen (Wp : Valuation τ sig (Elt F)) : StableHlo.after hostOps1_3 Wp (Proc.devRef .tc main_v20)
    = pad S16x100352 ![0, 0] ![0, 352] ![0, 0] (Wp (Proc.devRef .tc main_arg2)) (sitofp .f32 (Wp (Proc.devRef .tc main_c_8))) pads_S16x100000_S16x100352_000_03520 h_S_ := by
  after_results; rfl

theorem W13_v20 (c : Dev nD) : W13 m ρ c (Proc.devRef .tc main_v20)
    = pad S16x100352 ![0, 0] ![0, 352] ![0, 0] (W12 m ρ c (Proc.devRef .tc main_arg2)) (sitofp .f32 (W12 m ρ c (Proc.devRef .tc main_c_8))) pads_S16x100000_S16x100352_000_03520 h_S_ :=
  W13_v20_gen (W12 m ρ c)

theorem W15_v21_gen (Wp : Valuation τ sig (Elt F)) : StableHlo.after hostOps1_5 Wp (Proc.devRef .tc main_v21)
    = pad S100352x64 ![0, 0] ![352, 0] ![0, 0] (Wp (Proc.devRef .tc main_v6)) (sitofp .f32 (Wp (Proc.devRef .tc main_c_9))) pads_S100000x64_S100352x64_03520_000 h_S_ := by
  after_results; rfl

theorem W15_v21 (c : Dev nD) : W15 m ρ c (Proc.devRef .tc main_v21)
    = pad S100352x64 ![0, 0] ![352, 0] ![0, 0] (W14 m ρ c (Proc.devRef .tc main_v6)) (sitofp .f32 (W14 m ρ c (Proc.devRef .tc main_c_9))) pads_S100000x64_S100352x64_03520_000 h_S_ :=
  W15_v21_gen (W14 m ρ c)

theorem W17_v22_gen (Wp : Valuation τ sig (Elt F)) : StableHlo.after hostOps1_7 Wp (Proc.devRef .tc main_v22)
    = pad S100352x64 ![0, 0] ![352, 0] ![0, 0] (Wp (Proc.devRef .tc main_v13)) (sitofp .f32 (Wp (Proc.devRef .tc main_c_10))) pads_S100000x64_S100352x64_03520_000 h_S_ := by
  after_results; rfl

theorem W17_v22 (c : Dev nD) : W17 m ρ c (Proc.devRef .tc main_v22)
    = pad S100352x64 ![0, 0] ![352, 0] ![0, 0] (W16 m ρ c (Proc.devRef .tc main_v13)) (sitofp .f32 (W16 m ρ c (Proc.devRef .tc main_c_10))) pads_S100000x64_S100352x64_03520_000 h_S_ :=
  W17_v22_gen (W16 m ρ c)

/-! ## The padding value: each call's zero word, written by the stretch before it -/

theorem W1_main_c_3_gen (Wp : Valuation τ sig (Elt F)) : StableHlo.after hostOps0 Wp (Proc.devRef .tc main_c_3) = constantI S_ 32 0#32 := by
  after_results <;> rfl

theorem W3_main_c_4_gen (Wp : Valuation τ sig (Elt F)) : StableHlo.after hostOps0_2 Wp (Proc.devRef .tc main_c_4) = constantI S_ 32 0#32 := by
  after_results <;> rfl

theorem W5_main_c_5_gen (Wp : Valuation τ sig (Elt F)) : StableHlo.after hostOps0_4 Wp (Proc.devRef .tc main_c_5) = constantI S_ 32 0#32 := by
  after_results <;> rfl

theorem W7_main_c_6_gen (Wp : Valuation τ sig (Elt F)) : StableHlo.after hostOps0_6 Wp (Proc.devRef .tc main_c_6) = constantI S_ 32 0#32 := by
  after_results <;> rfl

theorem W10_main_c_7_gen (Wp : Valuation τ sig (Elt F)) : StableHlo.after hostOps1 Wp (Proc.devRef .tc main_c_7) = constantI S_ 32 0#32 := by
  after_results <;> rfl

theorem W12_main_c_8_gen (Wp : Valuation τ sig (Elt F)) : StableHlo.after hostOps1_2 Wp (Proc.devRef .tc main_c_8) = constantI S_ 32 0#32 := by
  after_results <;> rfl

theorem W14_main_c_9_gen (Wp : Valuation τ sig (Elt F)) : StableHlo.after hostOps1_4 Wp (Proc.devRef .tc main_c_9) = constantI S_ 32 0#32 := by
  after_results <;> rfl

theorem W16_main_c_10_gen (Wp : Valuation τ sig (Elt F)) : StableHlo.after hostOps1_6 Wp (Proc.devRef .tc main_c_10) = constantI S_ 32 0#32 := by
  after_results <;> rfl

/-! ## The entry contents of the two regions' input arrays -/

theorem V8e_v14 (c : Dev nD) : V8e m ρ c main_v14
    = pad S16x102400 ![0, 0] ![0, 2400] ![0, 0] (m ((c : Thread nD τ).loc main_arg0)) (sitofp .f32 (constantI S_ 32 0#32)) pads_S16x100000_S16x102400_000_024000 h_S_ := by
  have hin : W1 m ρ c (Proc.devRef .tc main_arg0) = (m ((c : Thread nD τ).loc main_arg0)) :=
  (W1_of m ρ c main_arg0 (by decide)).trans <|
  rfl
  have hc : W1 m ρ c (Proc.devRef .tc main_c_3) = constantI S_ 32 0#32 :=
  W1_main_c_3_gen (W0 m ρ c)
  have h : V8e m ρ c main_v14 = W2 m ρ c (Proc.devRef .tc main_v14) :=
  (W8_of m ρ c main_v14 (by decide)).trans <|
  (W7_of m ρ c main_v14 (by decide)).trans <|
  (W6_of m ρ c main_v14 (by decide)).trans <|
  (W5_of m ρ c main_v14 (by decide)).trans <|
  (W4_of m ρ c main_v14 (by decide)).trans <|
  (W3_of m ρ c main_v14 (by decide)).trans <|
  rfl
  rw [h, W2_v14, hin, hc]

theorem V8e_v15 (c : Dev nD) : V8e m ρ c main_v15
    = pad S16x102400 ![0, 0] ![0, 2400] ![0, 0] (m ((c : Thread nD τ).loc main_arg2)) (sitofp .f32 (constantI S_ 32 0#32)) pads_S16x100000_S16x102400_000_024000 h_S_ := by
  have hin : W3 m ρ c (Proc.devRef .tc main_arg2) = (m ((c : Thread nD τ).loc main_arg2)) :=
  (W3_of m ρ c main_arg2 (by decide)).trans <|
  (W2_of m ρ c main_arg2 (by decide)).trans <|
  (W1_of m ρ c main_arg2 (by decide)).trans <|
  rfl
  have hc : W3 m ρ c (Proc.devRef .tc main_c_4) = constantI S_ 32 0#32 :=
  W3_main_c_4_gen (W2 m ρ c)
  have h : V8e m ρ c main_v15 = W4 m ρ c (Proc.devRef .tc main_v15) :=
  (W8_of m ρ c main_v15 (by decide)).trans <|
  (W7_of m ρ c main_v15 (by decide)).trans <|
  (W6_of m ρ c main_v15 (by decide)).trans <|
  (W5_of m ρ c main_v15 (by decide)).trans <|
  rfl
  rw [h, W4_v15, hin, hc]

theorem V8e_v16 (c : Dev nD) : V8e m ρ c main_v16
    = pad S102400x64 ![0, 0] ![2400, 0] ![0, 0] (W1 m ρ c (Proc.devRef .tc main_v6)) (sitofp .f32 (constantI S_ 32 0#32)) pads_S100000x64_S102400x64_024000_000 h_S_ := by
  have hin : W5 m ρ c (Proc.devRef .tc main_v6) = (W1 m ρ c (Proc.devRef .tc main_v6)) :=
  (W5_of m ρ c main_v6 (by decide)).trans <|
  (W4_of m ρ c main_v6 (by decide)).trans <|
  (W3_of m ρ c main_v6 (by decide)).trans <|
  (W2_of m ρ c main_v6 (by decide)).trans <|
  rfl
  have hc : W5 m ρ c (Proc.devRef .tc main_c_5) = constantI S_ 32 0#32 :=
  W5_main_c_5_gen (W4 m ρ c)
  have h : V8e m ρ c main_v16 = W6 m ρ c (Proc.devRef .tc main_v16) :=
  (W8_of m ρ c main_v16 (by decide)).trans <|
  (W7_of m ρ c main_v16 (by decide)).trans <|
  rfl
  rw [h, W6_v16, hin, hc]

theorem V8e_v17 (c : Dev nD) : V8e m ρ c main_v17
    = pad S102400x64 ![0, 0] ![2400, 0] ![0, 0] (W1 m ρ c (Proc.devRef .tc main_v13)) (sitofp .f32 (constantI S_ 32 0#32)) pads_S100000x64_S102400x64_024000_000 h_S_ := by
  have hin : W7 m ρ c (Proc.devRef .tc main_v13) = (W1 m ρ c (Proc.devRef .tc main_v13)) :=
  (W7_of m ρ c main_v13 (by decide)).trans <|
  (W6_of m ρ c main_v13 (by decide)).trans <|
  (W5_of m ρ c main_v13 (by decide)).trans <|
  (W4_of m ρ c main_v13 (by decide)).trans <|
  (W3_of m ρ c main_v13 (by decide)).trans <|
  (W2_of m ρ c main_v13 (by decide)).trans <|
  rfl
  have hc : W7 m ρ c (Proc.devRef .tc main_c_6) = constantI S_ 32 0#32 :=
  W7_main_c_6_gen (W6 m ρ c)
  have h : V8e m ρ c main_v17 = W8 m ρ c (Proc.devRef .tc main_v17) :=
  rfl
  rw [h, W8_v17, hin, hc]

theorem V17e_v19 (c : Dev nD) : V17e m ρ c main_v19
    = pad S16x100352 ![0, 0] ![0, 352] ![0, 0] (m ((c : Thread nD τ).loc main_arg0)) (sitofp .f32 (constantI S_ 32 0#32)) pads_S16x100000_S16x100352_000_03520 h_S_ := by
  have hin : W10 m ρ c (Proc.devRef .tc main_arg0) = (m ((c : Thread nD τ).loc main_arg0)) :=
  (W10_of m ρ c main_arg0 (by decide)).trans <|
  (W9_of_ne m ρ c main_arg0 (by decide)).trans <|
  (W8_of m ρ c main_arg0 (by decide)).trans <|
  (W7_of m ρ c main_arg0 (by decide)).trans <|
  (W6_of m ρ c main_arg0 (by decide)).trans <|
  (W5_of m ρ c main_arg0 (by decide)).trans <|
  (W4_of m ρ c main_arg0 (by decide)).trans <|
  (W3_of m ρ c main_arg0 (by decide)).trans <|
  (W2_of m ρ c main_arg0 (by decide)).trans <|
  (W1_of m ρ c main_arg0 (by decide)).trans <|
  rfl
  have hc : W10 m ρ c (Proc.devRef .tc main_c_7) = constantI S_ 32 0#32 :=
  W10_main_c_7_gen (W9 m ρ c)
  have h : V17e m ρ c main_v19 = W11 m ρ c (Proc.devRef .tc main_v19) :=
  (W17_of m ρ c main_v19 (by decide)).trans <|
  (W16_of m ρ c main_v19 (by decide)).trans <|
  (W15_of m ρ c main_v19 (by decide)).trans <|
  (W14_of m ρ c main_v19 (by decide)).trans <|
  (W13_of m ρ c main_v19 (by decide)).trans <|
  (W12_of m ρ c main_v19 (by decide)).trans <|
  rfl
  rw [h, W11_v19, hin, hc]

theorem V17e_v20 (c : Dev nD) : V17e m ρ c main_v20
    = pad S16x100352 ![0, 0] ![0, 352] ![0, 0] (m ((c : Thread nD τ).loc main_arg2)) (sitofp .f32 (constantI S_ 32 0#32)) pads_S16x100000_S16x100352_000_03520 h_S_ := by
  have hin : W12 m ρ c (Proc.devRef .tc main_arg2) = (m ((c : Thread nD τ).loc main_arg2)) :=
  (W12_of m ρ c main_arg2 (by decide)).trans <|
  (W11_of m ρ c main_arg2 (by decide)).trans <|
  (W10_of m ρ c main_arg2 (by decide)).trans <|
  (W9_of_ne m ρ c main_arg2 (by decide)).trans <|
  (W8_of m ρ c main_arg2 (by decide)).trans <|
  (W7_of m ρ c main_arg2 (by decide)).trans <|
  (W6_of m ρ c main_arg2 (by decide)).trans <|
  (W5_of m ρ c main_arg2 (by decide)).trans <|
  (W4_of m ρ c main_arg2 (by decide)).trans <|
  (W3_of m ρ c main_arg2 (by decide)).trans <|
  (W2_of m ρ c main_arg2 (by decide)).trans <|
  (W1_of m ρ c main_arg2 (by decide)).trans <|
  rfl
  have hc : W12 m ρ c (Proc.devRef .tc main_c_8) = constantI S_ 32 0#32 :=
  W12_main_c_8_gen (W11 m ρ c)
  have h : V17e m ρ c main_v20 = W13 m ρ c (Proc.devRef .tc main_v20) :=
  (W17_of m ρ c main_v20 (by decide)).trans <|
  (W16_of m ρ c main_v20 (by decide)).trans <|
  (W15_of m ρ c main_v20 (by decide)).trans <|
  (W14_of m ρ c main_v20 (by decide)).trans <|
  rfl
  rw [h, W13_v20, hin, hc]

theorem V17e_v21 (c : Dev nD) : V17e m ρ c main_v21
    = pad S100352x64 ![0, 0] ![352, 0] ![0, 0] (W1 m ρ c (Proc.devRef .tc main_v6)) (sitofp .f32 (constantI S_ 32 0#32)) pads_S100000x64_S100352x64_03520_000 h_S_ := by
  have hin : W14 m ρ c (Proc.devRef .tc main_v6) = (W1 m ρ c (Proc.devRef .tc main_v6)) :=
  (W14_of m ρ c main_v6 (by decide)).trans <|
  (W13_of m ρ c main_v6 (by decide)).trans <|
  (W12_of m ρ c main_v6 (by decide)).trans <|
  (W11_of m ρ c main_v6 (by decide)).trans <|
  (W10_of m ρ c main_v6 (by decide)).trans <|
  (W9_of_ne m ρ c main_v6 (by decide)).trans <|
  (W8_of m ρ c main_v6 (by decide)).trans <|
  (W7_of m ρ c main_v6 (by decide)).trans <|
  (W6_of m ρ c main_v6 (by decide)).trans <|
  (W5_of m ρ c main_v6 (by decide)).trans <|
  (W4_of m ρ c main_v6 (by decide)).trans <|
  (W3_of m ρ c main_v6 (by decide)).trans <|
  (W2_of m ρ c main_v6 (by decide)).trans <|
  rfl
  have hc : W14 m ρ c (Proc.devRef .tc main_c_9) = constantI S_ 32 0#32 :=
  W14_main_c_9_gen (W13 m ρ c)
  have h : V17e m ρ c main_v21 = W15 m ρ c (Proc.devRef .tc main_v21) :=
  (W17_of m ρ c main_v21 (by decide)).trans <|
  (W16_of m ρ c main_v21 (by decide)).trans <|
  rfl
  rw [h, W15_v21, hin, hc]

theorem V17e_v22 (c : Dev nD) : V17e m ρ c main_v22
    = pad S100352x64 ![0, 0] ![352, 0] ![0, 0] (W1 m ρ c (Proc.devRef .tc main_v13)) (sitofp .f32 (constantI S_ 32 0#32)) pads_S100000x64_S100352x64_03520_000 h_S_ := by
  have hin : W16 m ρ c (Proc.devRef .tc main_v13) = (W1 m ρ c (Proc.devRef .tc main_v13)) :=
  (W16_of m ρ c main_v13 (by decide)).trans <|
  (W15_of m ρ c main_v13 (by decide)).trans <|
  (W14_of m ρ c main_v13 (by decide)).trans <|
  (W13_of m ρ c main_v13 (by decide)).trans <|
  (W12_of m ρ c main_v13 (by decide)).trans <|
  (W11_of m ρ c main_v13 (by decide)).trans <|
  (W10_of m ρ c main_v13 (by decide)).trans <|
  (W9_of_ne m ρ c main_v13 (by decide)).trans <|
  (W8_of m ρ c main_v13 (by decide)).trans <|
  (W7_of m ρ c main_v13 (by decide)).trans <|
  (W6_of m ρ c main_v13 (by decide)).trans <|
  (W5_of m ρ c main_v13 (by decide)).trans <|
  (W4_of m ρ c main_v13 (by decide)).trans <|
  (W3_of m ρ c main_v13 (by decide)).trans <|
  (W2_of m ρ c main_v13 (by decide)).trans <|
  rfl
  have hc : W16 m ρ c (Proc.devRef .tc main_c_10) = constantI S_ 32 0#32 :=
  W16_main_c_10_gen (W15 m ρ c)
  have h : V17e m ρ c main_v22 = W17 m ρ c (Proc.devRef .tc main_v22) :=
  rfl
  rw [h, W17_v22, hin, hc]

/-- The second region finds the first region's two output arrays as the first region left them. -/
theorem V17e_v18_0 (c : Dev nD) : V17e m ρ c main_v18_0 = (dat0 (V8e m ρ) c).arrAt 4 cfg0.N :=
  (W17_of m ρ c main_v18_0 (by decide)).trans <|
  (W16_of m ρ c main_v18_0 (by decide)).trans <|
  (W15_of m ρ c main_v18_0 (by decide)).trans <|
  (W14_of m ρ c main_v18_0 (by decide)).trans <|
  (W13_of m ρ c main_v18_0 (by decide)).trans <|
  (W12_of m ρ c main_v18_0 (by decide)).trans <|
  (W11_of m ρ c main_v18_0 (by decide)).trans <|
  (W10_of m ρ c main_v18_0 (by decide)).trans <|
  W9_arr m ρ c 4

theorem V17e_v18_1 (c : Dev nD) : V17e m ρ c main_v18_1 = (dat0 (V8e m ρ) c).arrAt 5 cfg0.N :=
  (W17_of m ρ c main_v18_1 (by decide)).trans <|
  (W16_of m ρ c main_v18_1 (by decide)).trans <|
  (W15_of m ρ c main_v18_1 (by decide)).trans <|
  (W14_of m ρ c main_v18_1 (by decide)).trans <|
  (W13_of m ρ c main_v18_1 (by decide)).trans <|
  (W12_of m ρ c main_v18_1 (by decide)).trans <|
  (W11_of m ρ c main_v18_1 (by decide)).trans <|
  (W10_of m ρ c main_v18_1 (by decide)).trans <|
  W9_arr m ρ c 5

end Cert.KernelIdeal.Hand

end
-- ==== Proof.KI.Arrays.lean ====
/- FROM BLOCKS TO ARRAYS, for both kernel regions, at a parameter `V` of the region-entry contents and generic in
   the float interpretation `F`. (A) An input window's block at a grid point is its array read at block index × block
   size + the coordinate inside the block (`iblkK_W_at`, `iblkK_W_apply`); a window whose block is its whole array reads
   the array itself at every point (`iblk1_4_eq`, `iblk1_5_eq`). (B) Region 0's two output arrays, written back at the
   last point only, end at what the accumulation holds there (`arr0_4`, `arr0_5`). (C) Region 1's output array, every
   point writing back its own block of 1024 rows of axis 1, ends at ONE function of the index: the body's result at
   the point `j / 1024` read at row `j % 1024` (`G1`, `arr1_6_eq`, `arr1_6`), and that result is the payload of the six
   input blocks (`out1_6_eq`). -/
import proofs.«127450_j71554155152270_2_alg».proof.Proof.KI.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-! ## The printed index maps, decided over the grids -/

/-- Region 0's windows: the two [16, 6400] windows move along axis 1 with the grid point, the two [6400, 64] windows
    along axis 0, and the two output windows stay at block (0, 0). -/
theorem idx0 : ∀ t : Fin cfg0.N,
    win0_0.index t (0 : Fin 2) = 0
    ∧ win0_0.index t (1 : Fin 2) = t.val
    ∧ win0_1.index t (0 : Fin 2) = 0
    ∧ win0_1.index t (1 : Fin 2) = t.val
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0 :=
  (by decide +kernel : ∀ t : Fin grid0.N, _)

/-- Region 1's input windows: the two [16, 1024] windows move along axis 1 with the grid point, the two [1024, 64]
    windows along axis 0, and the windows of the first pass's sums stay at block (0, 0). -/
theorem idx1 : ∀ t : Fin cfg1.N,
    win1_0.index t (0 : Fin 2) = 0
    ∧ win1_0.index t (1 : Fin 2) = t.val
    ∧ win1_1.index t (0 : Fin 2) = 0
    ∧ win1_1.index t (1 : Fin 2) = t.val
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0 :=
  (by decide +kernel : ∀ t : Fin grid1.N, _)

/-- Region 1's output window moves along axis 1 with the grid point and stays at block 0 on the other two axes. -/
theorem idx1_6 : ∀ t : Fin cfg1.N,
    win1_6.index t (0 : Fin 3) = 0 ∧ win1_6.index t (1 : Fin 3) = t.val ∧ win1_6.index t (2 : Fin 3) = 0 :=
  (by decide +kernel : ∀ t : Fin grid1.N, _)

section Blocks

variable (V : (c : Dev nD) → (b : Ref sig .tc) → Buf (Elt F) ((c : Thread nD τ).loc b))

/-! ## (A) The block reads -/

/-- Window 0 of region 0: its block at point `t`, read at `x`, is its array read at the index whose coordinate on axis 1 is `6400 t + x`'s and on the other `x`'s. -/
theorem iblk0_0_at (c : Dev nD) (t : Fin cfg0.N) (x : S16x6400.Idx) (k : S16x102400.Idx) (hk0 : (k 0).val = (x 0).val) (hk1 : (k 1).val = 6400 * t.val + (x 1).val) :
    (iblk0 V c 0 t : Vec F S16x6400 .f32) x = (V c (Pipeline.arrRef spec0 0) : S16x102400.Idx → Elt F .f32) k := by
  obtain ⟨e0_0, e0_1, -⟩ := idx0 t
  unfold iblk0
  rw [View.read_apply]
  show (V c (Pipeline.arrRef spec0 0) : S16x102400.Idx → Elt F .f32) _ = _
  congr 1
  funext a
  apply Fin.ext
  match a with
  | ⟨0, _⟩ => show win0_0.index t (0 : Fin 2) * 16 + 1 * (x 0).val = (k 0).val; rw [e0_0, hk0]; omega
  | ⟨1, _⟩ => show win0_0.index t (1 : Fin 2) * 6400 + 1 * (x 1).val = (k 1).val; rw [e0_1, hk1]; omega

/-- Window 1 of region 0: its block at point `t`, read at `x`, is its array read at the index whose coordinate on axis 1 is `6400 t + x`'s and on the other `x`'s. -/
theorem iblk0_1_at (c : Dev nD) (t : Fin cfg0.N) (x : S16x6400.Idx) (k : S16x102400.Idx) (hk0 : (k 0).val = (x 0).val) (hk1 : (k 1).val = 6400 * t.val + (x 1).val) :
    (iblk0 V c 1 t : Vec F S16x6400 .f32) x = (V c (Pipeline.arrRef spec0 1) : S16x102400.Idx → Elt F .f32) k := by
  obtain ⟨-, -, e1_0, e1_1, -⟩ := idx0 t
  unfold iblk0
  rw [View.read_apply]
  show (V c (Pipeline.arrRef spec0 1) : S16x102400.Idx → Elt F .f32) _ = _
  congr 1
  funext a
  apply Fin.ext
  match a with
  | ⟨0, _⟩ => show win0_1.index t (0 : Fin 2) * 16 + 1 * (x 0).val = (k 0).val; rw [e1_0, hk0]; omega
  | ⟨1, _⟩ => show win0_1.index t (1 : Fin 2) * 6400 + 1 * (x 1).val = (k 1).val; rw [e1_1, hk1]; omega

/-- Window 2 of region 0: its block at point `t`, read at `x`, is its array read at the index whose coordinate on axis 0 is `6400 t + x`'s and on the other `x`'s. -/
theorem iblk0_2_at (c : Dev nD) (t : Fin cfg0.N) (x : S6400x64.Idx) (k : S102400x64.Idx) (hk0 : (k 0).val = 6400 * t.val + (x 0).val) (hk1 : (k 1).val = (x 1).val) :
    (iblk0 V c 2 t : Vec F S6400x64 .f32) x = (V c (Pipeline.arrRef spec0 2) : S102400x64.Idx → Elt F .f32) k := by
  obtain ⟨-, -, -, -, e2_0, e2_1, -⟩ := idx0 t
  unfold iblk0
  rw [View.read_apply]
  show (V c (Pipeline.arrRef spec0 2) : S102400x64.Idx → Elt F .f32) _ = _
  congr 1
  funext a
  apply Fin.ext
  match a with
  | ⟨0, _⟩ => show win0_2.index t (0 : Fin 2) * 6400 + 1 * (x 0).val = (k 0).val; rw [e2_0, hk0]; omega
  | ⟨1, _⟩ => show win0_2.index t (1 : Fin 2) * 64 + 1 * (x 1).val = (k 1).val; rw [e2_1, hk1]; omega

/-- Window 3 of region 0: its block at point `t`, read at `x`, is its array read at the index whose coordinate on axis 0 is `6400 t + x`'s and on the other `x`'s. -/
theorem iblk0_3_at (c : Dev nD) (t : Fin cfg0.N) (x : S6400x64.Idx) (k : S102400x64.Idx) (hk0 : (k 0).val = 6400 * t.val + (x 0).val) (hk1 : (k 1).val = (x 1).val) :
    (iblk0 V c 3 t : Vec F S6400x64 .f32) x = (V c (Pipeline.arrRef spec0 3) : S102400x64.Idx → Elt F .f32) k := by
  obtain ⟨-, -, -, -, -, -, e3_0, e3_1, -⟩ := idx0 t
  unfold iblk0
  rw [View.read_apply]
  show (V c (Pipeline.arrRef spec0 3) : S102400x64.Idx → Elt F .f32) _ = _
  congr 1
  funext a
  apply Fin.ext
  match a with
  | ⟨0, _⟩ => show win0_3.index t (0 : Fin 2) * 6400 + 1 * (x 0).val = (k 0).val; rw [e3_0, hk0]; omega
  | ⟨1, _⟩ => show win0_3.index t (1 : Fin 2) * 64 + 1 * (x 1).val = (k 1).val; rw [e3_1, hk1]; omega

/-- Window 0 of region 1: its block at point `t`, read at `x`, is its array read at the index whose coordinate on axis 1 is `1024 t + x`'s and on the other `x`'s. -/
theorem iblk1_0_at (c : Dev nD) (t : Fin cfg1.N) (x : S16x1024.Idx) (k : S16x100352.Idx) (hk0 : (k 0).val = (x 0).val) (hk1 : (k 1).val = 1024 * t.val + (x 1).val) :
    (iblk1 V c 0 t : Vec F S16x1024 .f32) x = (V c (Pipeline.arrRef spec1 0) : S16x100352.Idx → Elt F .f32) k := by
  obtain ⟨e0_0, e0_1, -⟩ := idx1 t
  unfold iblk1
  rw [View.read_apply]
  show (V c (Pipeline.arrRef spec1 0) : S16x100352.Idx → Elt F .f32) _ = _
  congr 1
  funext a
  apply Fin.ext
  match a with
  | ⟨0, _⟩ => show win1_0.index t (0 : Fin 2) * 16 + 1 * (x 0).val = (k 0).val; rw [e0_0, hk0]; omega
  | ⟨1, _⟩ => show win1_0.index t (1 : Fin 2) * 1024 + 1 * (x 1).val = (k 1).val; rw [e0_1, hk1]; omega

/-- Window 1 of region 1: its block at point `t`, read at `x`, is its array read at the index whose coordinate on axis 1 is `1024 t + x`'s and on the other `x`'s. -/
theorem iblk1_1_at (c : Dev nD) (t : Fin cfg1.N) (x : S16x1024.Idx) (k : S16x100352.Idx) (hk0 : (k 0).val = (x 0).val) (hk1 : (k 1).val = 1024 * t.val + (x 1).val) :
    (iblk1 V c 1 t : Vec F S16x1024 .f32) x = (V c (Pipeline.arrRef spec1 1) : S16x100352.Idx → Elt F .f32) k := by
  obtain ⟨-, -, e1_0, e1_1, -⟩ := idx1 t
  unfold iblk1
  rw [View.read_apply]
  show (V c (Pipeline.arrRef spec1 1) : S16x100352.Idx → Elt F .f32) _ = _
  congr 1
  funext a
  apply Fin.ext
  match a with
  | ⟨0, _⟩ => show win1_1.index t (0 : Fin 2) * 16 + 1 * (x 0).val = (k 0).val; rw [e1_0, hk0]; omega
  | ⟨1, _⟩ => show win1_1.index t (1 : Fin 2) * 1024 + 1 * (x 1).val = (k 1).val; rw [e1_1, hk1]; omega

/-- Window 2 of region 1: its block at point `t`, read at `x`, is its array read at the index whose coordinate on axis 0 is `1024 t + x`'s and on the other `x`'s. -/
theorem iblk1_2_at (c : Dev nD) (t : Fin cfg1.N) (x : S1024x64.Idx) (k : S100352x64.Idx) (hk0 : (k 0).val = 1024 * t.val + (x 0).val) (hk1 : (k 1).val = (x 1).val) :
    (iblk1 V c 2 t : Vec F S1024x64 .f32) x = (V c (Pipeline.arrRef spec1 2) : S100352x64.Idx → Elt F .f32) k := by
  obtain ⟨-, -, -, -, e2_0, e2_1, -⟩ := idx1 t
  unfold iblk1
  rw [View.read_apply]
  show (V c (Pipeline.arrRef spec1 2) : S100352x64.Idx → Elt F .f32) _ = _
  congr 1
  funext a
  apply Fin.ext
  match a with
  | ⟨0, _⟩ => show win1_2.index t (0 : Fin 2) * 1024 + 1 * (x 0).val = (k 0).val; rw [e2_0, hk0]; omega
  | ⟨1, _⟩ => show win1_2.index t (1 : Fin 2) * 64 + 1 * (x 1).val = (k 1).val; rw [e2_1, hk1]; omega

/-- Window 3 of region 1: its block at point `t`, read at `x`, is its array read at the index whose coordinate on axis 0 is `1024 t + x`'s and on the other `x`'s. -/
theorem iblk1_3_at (c : Dev nD) (t : Fin cfg1.N) (x : S1024x64.Idx) (k : S100352x64.Idx) (hk0 : (k 0).val = 1024 * t.val + (x 0).val) (hk1 : (k 1).val = (x 1).val) :
    (iblk1 V c 3 t : Vec F S1024x64 .f32) x = (V c (Pipeline.arrRef spec1 3) : S100352x64.Idx → Elt F .f32) k := by
  obtain ⟨-, -, -, -, -, -, e3_0, e3_1, -⟩ := idx1 t
  unfold iblk1
  rw [View.read_apply]
  show (V c (Pipeline.arrRef spec1 3) : S100352x64.Idx → Elt F .f32) _ = _
  congr 1
  funext a
  apply Fin.ext
  match a with
  | ⟨0, _⟩ => show win1_3.index t (0 : Fin 2) * 1024 + 1 * (x 0).val = (k 0).val; rw [e3_0, hk0]; omega
  | ⟨1, _⟩ => show win1_3.index t (1 : Fin 2) * 64 + 1 * (x 1).val = (k 1).val; rw [e3_1, hk1]; omega

/-- Window 4 of region 1: its block at point `t`, read at `x`, is its array read at the index whose coordinate on each axis is `x`'s (the block is the whole array). -/
theorem iblk1_4_at (c : Dev nD) (t : Fin cfg1.N) (x : S16x64.Idx) (k : S16x64.Idx) (hk0 : (k 0).val = (x 0).val) (hk1 : (k 1).val = (x 1).val) :
    (iblk1 V c 4 t : Vec F S16x64 .f32) x = (V c (Pipeline.arrRef spec1 4) : S16x64.Idx → Elt F .f32) k := by
  obtain ⟨-, -, -, -, -, -, -, -, e4_0, e4_1, -⟩ := idx1 t
  unfold iblk1
  rw [View.read_apply]
  show (V c (Pipeline.arrRef spec1 4) : S16x64.Idx → Elt F .f32) _ = _
  congr 1
  funext a
  apply Fin.ext
  match a with
  | ⟨0, _⟩ => show win1_4.index t (0 : Fin 2) * 16 + 1 * (x 0).val = (k 0).val; rw [e4_0, hk0]; omega
  | ⟨1, _⟩ => show win1_4.index t (1 : Fin 2) * 64 + 1 * (x 1).val = (k 1).val; rw [e4_1, hk1]; omega

/-- Window 5 of region 1: its block at point `t`, read at `x`, is its array read at the index whose coordinate on each axis is `x`'s (the block is the whole array). -/
theorem iblk1_5_at (c : Dev nD) (t : Fin cfg1.N) (x : S16x1.Idx) (k : S16x1.Idx) (hk0 : (k 0).val = (x 0).val) (hk1 : (k 1).val = (x 1).val) :
    (iblk1 V c 5 t : Vec F S16x1 .f32) x = (V c (Pipeline.arrRef spec1 5) : S16x1.Idx → Elt F .f32) k := by
  obtain ⟨-, -, -, -, -, -, -, -, -, -, e5_0, e5_1⟩ := idx1 t
  unfold iblk1
  rw [View.read_apply]
  show (V c (Pipeline.arrRef spec1 5) : S16x1.Idx → Elt F .f32) _ = _
  congr 1
  funext a
  apply Fin.ext
  match a with
  | ⟨0, _⟩ => show win1_5.index t (0 : Fin 2) * 16 + 1 * (x 0).val = (k 0).val; rw [e5_0, hk0]; omega
  | ⟨1, _⟩ => show win1_5.index t (1 : Fin 2) * 1 + 1 * (x 1).val = (k 1).val; rw [e5_1, hk1]; omega

/-! ### At literal coordinates -/

theorem iblk0_0_apply (c : Dev nD) (t : Fin cfg0.N) (p : Fin 16) (k : Fin 6400) :
    (iblk0 V c 0 t : Vec F S16x6400 .f32) (ix2 p k)
      = (V c (Pipeline.arrRef spec0 0) : S16x102400.Idx → Elt F .f32) (ix2 p ⟨6400 * t.val + k.val, by have ht : t.val < 16 := Nat.lt_of_lt_of_eq t.isLt N_0; have hk := k.isLt; omega⟩) :=
  iblk0_0_at V c t (ix2 p k) (ix2 p ⟨6400 * t.val + k.val, by have ht : t.val < 16 := Nat.lt_of_lt_of_eq t.isLt N_0; have hk := k.isLt; omega⟩) rfl rfl

theorem iblk0_1_apply (c : Dev nD) (t : Fin cfg0.N) (p : Fin 16) (k : Fin 6400) :
    (iblk0 V c 1 t : Vec F S16x6400 .f32) (ix2 p k)
      = (V c (Pipeline.arrRef spec0 1) : S16x102400.Idx → Elt F .f32) (ix2 p ⟨6400 * t.val + k.val, by have ht : t.val < 16 := Nat.lt_of_lt_of_eq t.isLt N_0; have hk := k.isLt; omega⟩) :=
  iblk0_1_at V c t (ix2 p k) (ix2 p ⟨6400 * t.val + k.val, by have ht : t.val < 16 := Nat.lt_of_lt_of_eq t.isLt N_0; have hk := k.isLt; omega⟩) rfl rfl

theorem iblk0_2_apply (c : Dev nD) (t : Fin cfg0.N) (k : Fin 6400) (r : Fin 64) :
    (iblk0 V c 2 t : Vec F S6400x64 .f32) (ix2 k r)
      = (V c (Pipeline.arrRef spec0 2) : S102400x64.Idx → Elt F .f32) (ix2 ⟨6400 * t.val + k.val, by have ht : t.val < 16 := Nat.lt_of_lt_of_eq t.isLt N_0; have hk := k.isLt; omega⟩ r) :=
  iblk0_2_at V c t (ix2 k r) (ix2 ⟨6400 * t.val + k.val, by have ht : t.val < 16 := Nat.lt_of_lt_of_eq t.isLt N_0; have hk := k.isLt; omega⟩ r) rfl rfl

theorem iblk0_3_apply (c : Dev nD) (t : Fin cfg0.N) (k : Fin 6400) (r : Fin 64) :
    (iblk0 V c 3 t : Vec F S6400x64 .f32) (ix2 k r)
      = (V c (Pipeline.arrRef spec0 3) : S102400x64.Idx → Elt F .f32) (ix2 ⟨6400 * t.val + k.val, by have ht : t.val < 16 := Nat.lt_of_lt_of_eq t.isLt N_0; have hk := k.isLt; omega⟩ r) :=
  iblk0_3_at V c t (ix2 k r) (ix2 ⟨6400 * t.val + k.val, by have ht : t.val < 16 := Nat.lt_of_lt_of_eq t.isLt N_0; have hk := k.isLt; omega⟩ r) rfl rfl

theorem iblk1_0_apply (c : Dev nD) (t : Fin cfg1.N) (p : Fin 16) (k : Fin 1024) :
    (iblk1 V c 0 t : Vec F S16x1024 .f32) (ix2 p k)
      = (V c (Pipeline.arrRef spec1 0) : S16x100352.Idx → Elt F .f32) (ix2 p ⟨1024 * t.val + k.val, by have ht : t.val < 98 := Nat.lt_of_lt_of_eq t.isLt N_1; have hk := k.isLt; omega⟩) :=
  iblk1_0_at V c t (ix2 p k) (ix2 p ⟨1024 * t.val + k.val, by have ht : t.val < 98 := Nat.lt_of_lt_of_eq t.isLt N_1; have hk := k.isLt; omega⟩) rfl rfl

theorem iblk1_1_apply (c : Dev nD) (t : Fin cfg1.N) (p : Fin 16) (k : Fin 1024) :
    (iblk1 V c 1 t : Vec F S16x1024 .f32) (ix2 p k)
      = (V c (Pipeline.arrRef spec1 1) : S16x100352.Idx → Elt F .f32) (ix2 p ⟨1024 * t.val + k.val, by have ht : t.val < 98 := Nat.lt_of_lt_of_eq t.isLt N_1; have hk := k.isLt; omega⟩) :=
  iblk1_1_at V c t (ix2 p k) (ix2 p ⟨1024 * t.val + k.val, by have ht : t.val < 98 := Nat.lt_of_lt_of_eq t.isLt N_1; have hk := k.isLt; omega⟩) rfl rfl

theorem iblk1_2_apply (c : Dev nD) (t : Fin cfg1.N) (k : Fin 1024) (r : Fin 64) :
    (iblk1 V c 2 t : Vec F S1024x64 .f32) (ix2 k r)
      = (V c (Pipeline.arrRef spec1 2) : S100352x64.Idx → Elt F .f32) (ix2 ⟨1024 * t.val + k.val, by have ht : t.val < 98 := Nat.lt_of_lt_of_eq t.isLt N_1; have hk := k.isLt; omega⟩ r) :=
  iblk1_2_at V c t (ix2 k r) (ix2 ⟨1024 * t.val + k.val, by have ht : t.val < 98 := Nat.lt_of_lt_of_eq t.isLt N_1; have hk := k.isLt; omega⟩ r) rfl rfl

theorem iblk1_3_apply (c : Dev nD) (t : Fin cfg1.N) (k : Fin 1024) (r : Fin 64) :
    (iblk1 V c 3 t : Vec F S1024x64 .f32) (ix2 k r)
      = (V c (Pipeline.arrRef spec1 3) : S100352x64.Idx → Elt F .f32) (ix2 ⟨1024 * t.val + k.val, by have ht : t.val < 98 := Nat.lt_of_lt_of_eq t.isLt N_1; have hk := k.isLt; omega⟩ r) :=
  iblk1_3_at V c t (ix2 k r) (ix2 ⟨1024 * t.val + k.val, by have ht : t.val < 98 := Nat.lt_of_lt_of_eq t.isLt N_1; have hk := k.isLt; omega⟩ r) rfl rfl

/-- Window 4 of region 1 has a constant block index and its block is its whole array: at every point the block is the array. -/
theorem iblk1_4_eq (c : Dev nD) (t : Fin cfg1.N) :
    (iblk1 V c 4 t : Vec F S16x64 .f32) = (V c (Pipeline.arrRef spec1 4) : S16x64.Idx → Elt F .f32) :=
  funext fun x => iblk1_4_at V c t x x rfl rfl

/-- Window 5 of region 1 has a constant block index and its block is its whole array: at every point the block is the array. -/
theorem iblk1_5_eq (c : Dev nD) (t : Fin cfg1.N) :
    (iblk1 V c 5 t : Vec F S16x1 .f32) = (V c (Pipeline.arrRef spec1 5) : S16x1.Idx → Elt F .f32) :=
  funext fun x => iblk1_5_at V c t x x rfl rfl

end Blocks

/-! ## (B) Region 0's output arrays -/

section Region0Out

variable (V : (c : Dev nD) → (b : Ref sig .tc) → Buf (Elt F) ((c : Thread nD τ).loc b))

/-- The last point of region 0's grid of 16. -/
theorem h15 : 15 < cfg0.N := Nat.lt_of_lt_of_eq (by decide : 15 < 16) N_0.symm

/-- The one write-back of window 4, at the last point, writes what the accumulation holds there: block (0, 0) of the
    [16, 64] array read through zero offsets is the array. -/
theorem flushed0_4_eq (c : Dev nD) (t : Fin cfg0.N) (hf : (cfg0.win 4).flush t = true) :
    (dat0 V c).flushed 4 t = ((cfg0.win 4).blk t).view.read (Elt F) (accAt V c 15 h15).1 := by
  have h1 : t.val = 15 := by
    have hm := (flush0_4 t).mp hf
    have ht : t.val < 16 := Nat.lt_of_lt_of_eq t.isLt N_0
    omega
  obtain rfl : t = t0_15 := Fin.ext h1
  show (cfg0.win 4).cut (grid0.coords t0_15) ((dat0 V c).after 4 t0_15) = _
  rw [after0_4]
  have hz' : (fun a => win0_4.index t0_15 a * main_v18_0.ty.shape.size a) = fun _ => 0 := funext fun a => by fin_cases a <;> decide
  exact (Memref.read_access_unit_zero (Elt F) main_v18_0 hz' (fun a => by rw [congrFun hz' a]; simp) _).symm

/-- So region 0's output array `main_v18_0` ends holding it: the last point's block covers the array. -/
theorem arr0_4 (c : Dev nD) : (dat0 V c).arrAt 4 cfg0.N = (accAt V c 15 h15).1 :=
  (dat0 V c).arrAt_eq_of_cover 4 (accAt V c 15 h15).1 (flushed0_4_eq V c) fun i =>
    ⟨t0_15, (flush0_4 t0_15).mpr rfl, by
      show i ∈ ((View.whole main_v18_0).slice (win0_4.rect t0_15)).set
      rw [View.set_slice_whole, Rect.mem_set_unit]
      intro a
      have h0 : (i 0 : Nat) < 16 := (i 0).isLt
      have h1 : (i 1 : Nat) < 64 := (i 1).isLt
      match a with
      | ⟨0, _⟩ => show win0_4.index t0_15 0 * win0_4.size 0 ≤ (i 0 : Nat) ∧ (i 0 : Nat) < win0_4.index t0_15 0 * win0_4.size 0 + win0_4.xsize (grid0.coords t0_15) 0
                  rw [show win0_4.index t0_15 0 * win0_4.size 0 = 0 from by decide +kernel, show win0_4.xsize (grid0.coords t0_15) 0 = 16 from by decide +kernel]; omega
      | ⟨1, _⟩ => show win0_4.index t0_15 1 * win0_4.size 1 ≤ (i 1 : Nat) ∧ (i 1 : Nat) < win0_4.index t0_15 1 * win0_4.size 1 + win0_4.xsize (grid0.coords t0_15) 1
                  rw [show win0_4.index t0_15 1 * win0_4.size 1 = 0 from by decide +kernel, show win0_4.xsize (grid0.coords t0_15) 1 = 64 from by decide +kernel]; omega⟩

/-- The one write-back of window 5, at the last point, writes what the accumulation holds there: block (0, 0) of the
    [16, 1] array read through zero offsets is the array. -/
theorem flushed0_5_eq (c : Dev nD) (t : Fin cfg0.N) (hf : (cfg0.win 5).flush t = true) :
    (dat0 V c).flushed 5 t = ((cfg0.win 5).blk t).view.read (Elt F) (accAt V c 15 h15).2 := by
  have h1 : t.val = 15 := by
    have hm := (flush0_5 t).mp hf
    have ht : t.val < 16 := Nat.lt_of_lt_of_eq t.isLt N_0
    omega
  obtain rfl : t = t0_15 := Fin.ext h1
  show (cfg0.win 5).cut (grid0.coords t0_15) ((dat0 V c).after 5 t0_15) = _
  rw [after0_5]
  have hz' : (fun a => win0_5.index t0_15 a * main_v18_1.ty.shape.size a) = fun _ => 0 := funext fun a => by fin_cases a <;> decide
  exact (Memref.read_access_unit_zero (Elt F) main_v18_1 hz' (fun a => by rw [congrFun hz' a]; simp) _).symm

/-- So region 0's output array `main_v18_1` ends holding it: the last point's block covers the array. -/
theorem arr0_5 (c : Dev nD) : (dat0 V c).arrAt 5 cfg0.N = (accAt V c 15 h15).2 :=
  (dat0 V c).arrAt_eq_of_cover 5 (accAt V c 15 h15).2 (flushed0_5_eq V c) fun i =>
    ⟨t0_15, (flush0_5 t0_15).mpr rfl, by
      show i ∈ ((View.whole main_v18_1).slice (win0_5.rect t0_15)).set
      rw [View.set_slice_whole, Rect.mem_set_unit]
      intro a
      have h0 : (i 0 : Nat) < 16 := (i 0).isLt
      have h1 : (i 1 : Nat) < 1 := (i 1).isLt
      match a with
      | ⟨0, _⟩ => show win0_5.index t0_15 0 * win0_5.size 0 ≤ (i 0 : Nat) ∧ (i 0 : Nat) < win0_5.index t0_15 0 * win0_5.size 0 + win0_5.xsize (grid0.coords t0_15) 0
                  rw [show win0_5.index t0_15 0 * win0_5.size 0 = 0 from by decide +kernel, show win0_5.xsize (grid0.coords t0_15) 0 = 16 from by decide +kernel]; omega
      | ⟨1, _⟩ => show win0_5.index t0_15 1 * win0_5.size 1 ≤ (i 1 : Nat) ∧ (i 1 : Nat) < win0_5.index t0_15 1 * win0_5.size 1 + win0_5.xsize (grid0.coords t0_15) 1
                  rw [show win0_5.index t0_15 1 * win0_5.size 1 = 0 from by decide +kernel, show win0_5.xsize (grid0.coords t0_15) 1 = 1 from by decide +kernel]; omega⟩

end Region0Out

/-! ## (C) Region 1's output array -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's result is the payload of its six input blocks: its one store is the whole buffer and each of its loads a
    whole block. -/
theorem out1_6_eq (x0 x1 : Vec F S16x1024 .f32) (x2 x3 : Vec F S1024x64 .f32) (x4 : Vec F S16x64 .f32) (x5 : Vec F S16x1 .f32) :
    out1_6 x0 x1 x2 x3 x4 x5 = k1_pay1 x0 x1 x2 x3 x4 x5 := by
  unfold out1_6
  rw [View.canon_unit_zero zeros3]
  simp only [View.ld_unit_zero (S := S16x1024) zeros2, View.ld_unit_zero (S := S1024x64) zeros2, View.ld_unit_zero (S := S16x64) zeros2,
    View.ld_unit_zero (S := S16x1) zeros2]

/-- The grid point whose block holds row `j` of axis 1: `j / 1024`. -/
def tOf (j : Fin 100352) : Fin cfg1.N :=
  ⟨j.val / 1024, Nat.lt_of_lt_of_eq (by have := j.isLt; omega : j.val / 1024 < 98) N_1.symm⟩

theorem tOf_val (j : Fin 100352) : (tOf j).val = j.val / 1024 := rfl

/-- An index's coordinate on axis 1, as a number below the literal extent. -/
def row (i : S16x100352x64.Idx) : Fin 100352 := ⟨(i 1).val, (i 1).isLt⟩

theorem row_val (i : S16x100352x64.Idx) : (row i).val = (i 1).val := rfl

/-- An index of the output array, inside the block that holds it: row `j % 1024` of axis 1, the other coordinates kept. -/
def locOf (i : S16x100352x64.Idx) : S16x1024x64.Idx :=
  ix3 (⟨(i 0).val, (i 0).isLt⟩ : Fin 16) (⟨(i 1).val % 1024, Nat.mod_lt _ (by decide)⟩ : Fin 1024) (⟨(i 2).val, (i 2).isLt⟩ : Fin 64)

section Region1Out

variable (V : (c : Dev nD) → (b : Ref sig .tc) → Buf (Elt F) ((c : Thread nD τ).loc b))

/-- THE ARRAY region 1 leaves, as one function of the index: the body's result at the point whose block holds the
    index, read at the index's place inside that block. -/
def G1 (c : Dev nD) : S16x100352x64.Idx → Elt F .f32 := fun i =>
  out1_6 (iblk1 V c 0 (tOf (row i))) (iblk1 V c 1 (tOf (row i))) (iblk1 V c 2 (tOf (row i))) (iblk1 V c 3 (tOf (row i))) (iblk1 V c 4 (tOf (row i))) (iblk1 V c 5 (tOf (row i))) (locOf i)

/-- At an index whose axis-1 coordinate is `1024 t + y₁` with `y₁` inside the block, that function is the body's result
    at point `t` read at `y`. -/
theorem G1_at (c : Dev nD) (t : Fin cfg1.N) (y : S16x1024x64.Idx) (i : S16x100352x64.Idx)
    (h0 : (i 0).val = (y 0).val) (h1 : (i 1).val = 1024 * t.val + (y 1).val) (h2 : (i 2).val = (y 2).val) :
    G1 V c i = out1_6 (iblk1 V c 0 t) (iblk1 V c 1 t) (iblk1 V c 2 t) (iblk1 V c 3 t) (iblk1 V c 4 t) (iblk1 V c 5 t) y := by
  have hy1 : (y 1).val < 1024 := (y 1).isLt
  have ht : tOf (row i) = t := Fin.ext (by rw [tOf_val, row_val]; omega)
  have hy : locOf i = y := by
    funext a
    apply Fin.ext
    match a with
    | ⟨0, _⟩ => exact h0
    | ⟨1, _⟩ => show (i 1).val % 1024 = (y 1).val; omega
    | ⟨2, _⟩ => exact h2
  show out1_6 (iblk1 V c 0 (tOf (row i))) (iblk1 V c 1 (tOf (row i))) (iblk1 V c 2 (tOf (row i))) (iblk1 V c 3 (tOf (row i))) (iblk1 V c 4 (tOf (row i))) (iblk1 V c 5 (tOf (row i))) (locOf i) = _
  rw [ht, hy]

/-- The window is uncut: what its write-back writes of a buffer's contents `X` is `X`, entry by entry. -/
theorem cut1_6_apply (X : Vec F S16x1024x64 .f32) (t : Fin cfg1.N) (y : S16x1024x64.Idx) :
    (cfg1.win 6).cut (grid1.coords t) X y = X y := rfl

/-- Block `t` of an array `G`, read at `y`, is `G` at the array index of `y` in that block. -/
theorem read1_6_apply (G : S16x100352x64.Idx → Elt F .f32) (t : Fin cfg1.N) (y : S16x1024x64.Idx) :
    ((cfg1.win 6).blk t).view.read (Elt F) G y = G (((cfg1.win 6).blk t).view.emb y) := rfl

/-- WHAT POINT `t` WRITES BACK is block `t` of `G1`. -/
theorem flushed1_6_eq (c : Dev nD) (t : Fin cfg1.N) :
    (dat1 V c).flushed 6 t = ((cfg1.win 6).blk t).view.read (Elt F) (G1 V c) := by
  show (cfg1.win 6).cut (grid1.coords t) ((dat1 V c).after 6 t) = _
  rw [after1_6]
  obtain ⟨e0, e1, e2⟩ := idx1_6 t
  funext y
  refine (cut1_6_apply _ t y).trans (Eq.trans ?_ (read1_6_apply (G1 V c) t y).symm)
  refine (G1_at V c t y (((cfg1.win 6).blk t).view.emb y) ?_ ?_ ?_).symm
  · show win1_6.index t (0 : Fin 3) * 16 + 1 * (y 0).val = (y 0).val; rw [e0]; omega
  · show win1_6.index t (1 : Fin 3) * 1024 + 1 * (y 1).val = 1024 * t.val + (y 1).val; rw [e1]; omega
  · show win1_6.index t (2 : Fin 3) * 64 + 1 * (y 2).val = (y 2).val; rw [e2]; omega

/-- Every index of the output array is in the block of the point `(i 1) / 1024`, and every point writes its block back. -/
theorem cover1_6_arr (i : S16x100352x64.Idx) :
    ∃ t : Fin cfg1.N, (cfg1.win 6).flush t = true ∧ i ∈ ((cfg1.win 6).blk t).view.set := by
  have hi0 : (i 0).val < 16 := (i 0).isLt
  have hi1 : (i 1).val < 100352 := (i 1).isLt
  have hi2 : (i 2).val < 64 := (i 2).isLt
  refine ⟨tOf (row i), flush1_6 _, ?_⟩
  obtain ⟨e0, e1, e2⟩ := idx1_6 (tOf (row i))
  have htv : (tOf (row i)).val = (i 1).val / 1024 := rfl
  show i ∈ ((View.whole main_v23).slice (win1_6.rect (tOf (row i)))).set
  rw [View.set_slice_whole, Rect.mem_set_unit]
  intro a
  match a with
  | ⟨0, _⟩ => show win1_6.index (tOf (row i)) (0 : Fin 3) * 16 ≤ (i 0).val ∧ (i 0).val < win1_6.index (tOf (row i)) (0 : Fin 3) * 16 + 16; rw [e0]; omega
  | ⟨1, _⟩ => show win1_6.index (tOf (row i)) (1 : Fin 3) * 1024 ≤ (i 1).val ∧ (i 1).val < win1_6.index (tOf (row i)) (1 : Fin 3) * 1024 + 1024; rw [e1, htv]; omega
  | ⟨2, _⟩ => show win1_6.index (tOf (row i)) (2 : Fin 3) * 64 ≤ (i 2).val ∧ (i 2).val < win1_6.index (tOf (row i)) (2 : Fin 3) * 64 + 64; rw [e2]; omega

/-- THE ARRAY after region 1 is `G1`. -/
theorem arr1_6_eq (c : Dev nD) : (dat1 V c).arrAt 6 cfg1.N = G1 V c :=
  (dat1 V c).arrAt_eq_of_cover 6 (G1 V c) (fun t _ => flushed1_6_eq V c t) cover1_6_arr

/-- At literal coordinates: entry `(p, j, r)` is the body's result at point `j / 1024`, read at `(p, j % 1024, r)`. -/
theorem arr1_6 (c : Dev nD) (p : Fin 16) (j : Fin 100352) (r : Fin 64) :
    ((dat1 V c).arrAt 6 cfg1.N : S16x100352x64.Idx → Elt F .f32) (ix3 p j r)
      = out1_6 (iblk1 V c 0 (tOf j)) (iblk1 V c 1 (tOf j)) (iblk1 V c 2 (tOf j)) (iblk1 V c 3 (tOf j)) (iblk1 V c 4 (tOf j)) (iblk1 V c 5 (tOf j))
          (ix3 p (⟨j.val % 1024, Nat.mod_lt _ (by decide)⟩ : Fin 1024) r) := by
  rw [arr1_6_eq]
  rfl

end Region1Out

end Cert.KernelIdeal.Hand

end
-- ==== Proof.KI.Final.lean ====
/-
  The kernel program computes the specification.

  First call: the two accumulators, point by point, are the accumulators over the families of blocks the points read;
  those blocks are blocks of the zero-padded inputs, mask and gathered tables; so, every entry being real under the
  precondition, the first call leaves the specification's pooled sums and counts. Second call: every entry of its
  output array is the second body's value at the point and row that hold it, over blocks of the zero-padded arrays and
  the first call's two results; at a feature below 100000 that is the specification's leave-one-out context, and the
  final slice keeps exactly those features.
-/
import proofs.«127450_j71554155152270_2_alg».proof.Proof.KI.Gather
import proofs.«127450_j71554155152270_2_alg».proof.Proof.KI.Chunk
import proofs.«127450_j71554155152270_2_alg».proof.Proof.KI.Glue
import proofs.«127450_j71554155152270_2_alg».proof.Proof.Fin
import proofs.«127450_j71554155152270_2_alg».proof.Proof.KI.Entry
import proofs.«127450_j71554155152270_2_alg».proof.Proof.KI.Arrays

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open Cert.Spec RealEntries2

/-! ## The first call's accumulators over families of blocks -/

section Families

variable (V : (c : Dev nD) → (b : Ref sig .tc) → Buf (Elt Ideal) ((c : Thread nD τ).loc b))

/-- The blocks of the first call's four input windows as families over the point's number (zero past the grid). -/
def famZ (c : Dev nD) (t : ℕ) : Vec Ideal S16x6400 .f32 := if h : t < cfg0.N then iblk0 V c 0 ⟨t, h⟩ else fun _ => 0
def famM (c : Dev nD) (t : ℕ) : Vec Ideal S16x6400 .f32 := if h : t < cfg0.N then iblk0 V c 1 ⟨t, h⟩ else fun _ => 0
def famW (c : Dev nD) (t : ℕ) : Vec Ideal S6400x64 .f32 := if h : t < cfg0.N then iblk0 V c 2 ⟨t, h⟩ else fun _ => 0
def famB (c : Dev nD) (t : ℕ) : Vec Ideal S6400x64 .f32 := if h : t < cfg0.N then iblk0 V c 3 ⟨t, h⟩ else fun _ => 0

theorem famZ_of_lt (c : Dev nD) (t : ℕ) (h : t < cfg0.N) : famZ V c t = iblk0 V c 0 ⟨t, h⟩ := dif_pos h
theorem famM_of_lt (c : Dev nD) (t : ℕ) (h : t < cfg0.N) : famM V c t = iblk0 V c 1 ⟨t, h⟩ := dif_pos h
theorem famW_of_lt (c : Dev nD) (t : ℕ) (h : t < cfg0.N) : famW V c t = iblk0 V c 2 ⟨t, h⟩ := dif_pos h
theorem famB_of_lt (c : Dev nD) (t : ℕ) (h : t < cfg0.N) : famB V c t = iblk0 V c 3 ⟨t, h⟩ := dif_pos h

/-- The accumulators point by point are the accumulators over the block families. -/
theorem accAt_eq_accOf (c : Dev nD) (n : ℕ) (hn : n < cfg0.N) :
    accAt V c n hn = Chunk.accOf (famZ V c) (famM V c) (famW V c) (famB V c) n := by
  induction n with
  | zero =>
    show _ = (k0_pay4 (F := Ideal) (famZ V c 0) (famM V c 0) (famW V c 0) (famB V c 0) (k0_pay1 (F := Ideal)),
      k0_pay5 (F := Ideal) (famM V c 0) (k0_pay2 (F := Ideal)))
    rw [famZ_of_lt V c 0 hn, famM_of_lt V c 0 hn, famW_of_lt V c 0 hn, famB_of_lt V c 0 hn]
    rfl
  | succ n ih =>
    show _ = (k0_pay4 (F := Ideal) (famZ V c (n + 1)) (famM V c (n + 1)) (famW V c (n + 1)) (famB V c (n + 1))
        (Chunk.accOf (famZ V c) (famM V c) (famW V c) (famB V c) n).1,
      k0_pay5 (F := Ideal) (famM V c (n + 1)) (Chunk.accOf (famZ V c) (famM V c) (famW V c) (famB V c) n).2)
    rw [famZ_of_lt V c (n + 1) hn, famM_of_lt V c (n + 1) hn, famW_of_lt V c (n + 1) hn, famB_of_lt V c (n + 1) hn,
      ← ih (Nat.lt_of_succ_lt hn)]
    rfl

end Families

/-! ## The first call leaves the specification's pooled sums and counts -/

section Values

variable (m : (ℓ : Loc nD τ sig) → Buf (Elt Ideal) ℓ) (ρ : Dev nD → PrngReg)
  (hpre : ∀ c : Dev nD, Cert.Pre_finite_inputs.fn (F := Ideal) (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) = fun _ => 1#1)

/-- The gathered weights and biases of core c. -/
abbrev gW (c : Dev nD) : FVec Ideal SDH .f32 :=
  Cert.ReferenceIdeal.Read.val_main_v6 (F := Ideal) (m ((c.tc : Thread nD τ).loc main_arg1)) (m ((c.tc : Thread nD τ).loc main_arg3))
abbrev gB (c : Dev nD) : FVec Ideal SDH .f32 :=
  Cert.ReferenceIdeal.Read.val_main_v13 (F := Ideal) (m ((c.tc : Thread nD τ).loc main_arg1)) (m ((c.tc : Thread nD τ).loc main_arg4))

theorem famZ_pad (c : Dev nD) (t : ℕ) (ht : t < 16) (p : Fin 16) (k : Fin 6400) :
    famZ (V8e m ρ) c t (ix2 p k)
      = Cert.Law.pad 100000 (fun j => (m ((c.tc : Thread nD τ).loc main_arg0) : SBD.Idx → EReal) (ix2 p j)) (6400 * t + k) := by
  have htN : t < cfg0.N := Nat.lt_of_lt_of_eq ht N_0.symm
  rw [famZ_of_lt _ c t htN, iblk0_0_apply]
  show (V8e m ρ c main_v14 : S16x102400.Idx → EReal) _ = _
  rw [V8e_v14, Glue.pad1_cols]
  rfl

theorem famM_pad (c : Dev nD) (t : ℕ) (ht : t < 16) (p : Fin 16) (k : Fin 6400) :
    famM (V8e m ρ) c t (ix2 p k)
      = Cert.Law.pad 100000 (fun j => (m ((c.tc : Thread nD τ).loc main_arg2) : SBD.Idx → EReal) (ix2 p j)) (6400 * t + k) := by
  have htN : t < cfg0.N := Nat.lt_of_lt_of_eq ht N_0.symm
  rw [famM_of_lt _ c t htN, iblk0_1_apply]
  show (V8e m ρ c main_v15 : S16x102400.Idx → EReal) _ = _
  rw [V8e_v15, Glue.pad1_cols]
  rfl

theorem famW_pad (c : Dev nD) (t : ℕ) (ht : t < 16) (k : Fin 6400) (r : Fin 64) :
    famW (V8e m ρ) c t (ix2 k r) = Cert.Law.pad 100000 (fun j => gW m c (ix2 j r)) (6400 * t + k) := by
  have htN : t < cfg0.N := Nat.lt_of_lt_of_eq ht N_0.symm
  rw [famW_of_lt _ c t htN, iblk0_2_apply]
  show (V8e m ρ c main_v16 : S102400x64.Idx → EReal) _ = _
  rw [V8e_v16, W1_v6, Glue.pad1_rows]
  rfl

theorem famB_pad (c : Dev nD) (t : ℕ) (ht : t < 16) (k : Fin 6400) (r : Fin 64) :
    famB (V8e m ρ) c t (ix2 k r) = Cert.Law.pad 100000 (fun j => gB m c (ix2 j r)) (6400 * t + k) := by
  have htN : t < cfg0.N := Nat.lt_of_lt_of_eq ht N_0.symm
  rw [famB_of_lt _ c t htN, iblk0_3_apply]
  show (V8e m ρ c main_v17 : S102400x64.Idx → EReal) _ = _
  rw [V8e_v17, W1_v13, Glue.pad1_rows]
  rfl

include hpre in
/-- The first call's first output array is the specification's pooled sums. -/
theorem kernel_S (c : Dev nD) :
    (dat0 (V8e m ρ) c).arrAt 4 cfg0.N
      = Sspec (m ((c.tc : Thread nD τ).loc main_arg0)) (m ((c.tc : Thread nD τ).loc main_arg2)) (gW m c) (gB m c) := by
  obtain ⟨hz, hm, h3, h4⟩ := Cert.Fin.real_of_pre _ _ _ _ _ (hpre c)
  rw [arr0_4, accAt_eq_accOf]
  exact Chunk.accOf_Sspec _ _ _ _ _ _ _ _ (fun t ht p k => famZ_pad m ρ c t ht p k) (fun t ht p k => famM_pad m ρ c t ht p k)
    (fun t ht k r => famW_pad m ρ c t ht k r) (fun t ht k r => famB_pad m ρ c t ht k r) hz hm
    (real_gW _ _ h3) (real_gB _ _ h4)

include hpre in
/-- The first call's second output array holds the specification's counts. -/
theorem kernel_n (c : Dev nD) (p : Fin 16) :
    ((dat0 (V8e m ρ) c).arrAt 5 cfg0.N : S16x1.Idx → EReal) (ix2 p (0 : Fin 1))
      = nval (m ((c.tc : Thread nD τ).loc main_arg2)) p := by
  obtain ⟨hz, hm, h3, h4⟩ := Cert.Fin.real_of_pre _ _ _ _ _ (hpre c)
  rw [arr0_5, accAt_eq_accOf]
  exact Chunk.accOf_n _ _ _ _ _ (fun t ht p k => famM_pad m ρ c t ht p k) hm p

end Values

/-! ## The second call leaves the specification's leave-one-out contexts -/

section Contexts

variable (m : (ℓ : Loc nD τ sig) → Buf (Elt Ideal) ℓ) (ρ : Dev nD → PrngReg)
  (hpre : ∀ c : Dev nD, Cert.Pre_finite_inputs.fn (F := Ideal) (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) = fun _ => 1#1)

theorem blk1_0_pad (c : Dev nD) (t : Fin cfg1.N) (p : Fin 16) (q : Fin 1024) :
    (iblk1 (V17e m ρ) c 0 t : Vec Ideal S16x1024 .f32) (ix2 p q)
      = Cert.Law.pad 100000 (fun j => (m ((c.tc : Thread nD τ).loc main_arg0) : SBD.Idx → EReal) (ix2 p j)) (1024 * t.val + q) := by
  rw [iblk1_0_apply]
  show (V17e m ρ c main_v19 : S16x100352.Idx → EReal) _ = _
  rw [V17e_v19, Glue.pad2_cols]
  rfl

theorem blk1_1_pad (c : Dev nD) (t : Fin cfg1.N) (p : Fin 16) (q : Fin 1024) :
    (iblk1 (V17e m ρ) c 1 t : Vec Ideal S16x1024 .f32) (ix2 p q)
      = Cert.Law.pad 100000 (fun j => (m ((c.tc : Thread nD τ).loc main_arg2) : SBD.Idx → EReal) (ix2 p j)) (1024 * t.val + q) := by
  rw [iblk1_1_apply]
  show (V17e m ρ c main_v20 : S16x100352.Idx → EReal) _ = _
  rw [V17e_v20, Glue.pad2_cols]
  rfl

theorem blk1_2_pad (c : Dev nD) (t : Fin cfg1.N) (q : Fin 1024) (r : Fin 64) :
    (iblk1 (V17e m ρ) c 2 t : Vec Ideal S1024x64 .f32) (ix2 q r)
      = Cert.Law.pad 100000 (fun j => gW m c (ix2 j r)) (1024 * t.val + q) := by
  rw [iblk1_2_apply]
  show (V17e m ρ c main_v21 : S100352x64.Idx → EReal) _ = _
  rw [V17e_v21, W1_v6, Glue.pad2_rows]
  rfl

theorem blk1_3_pad (c : Dev nD) (t : Fin cfg1.N) (q : Fin 1024) (r : Fin 64) :
    (iblk1 (V17e m ρ) c 3 t : Vec Ideal S1024x64 .f32) (ix2 q r)
      = Cert.Law.pad 100000 (fun j => gB m c (ix2 j r)) (1024 * t.val + q) := by
  rw [iblk1_3_apply]
  show (V17e m ρ c main_v22 : S100352x64.Idx → EReal) _ = _
  rw [V17e_v22, W1_v13, Glue.pad2_rows]
  rfl

include hpre in
/-- The result array, the second call's output cut to the first 100000 features, is the specification's contexts. -/
theorem kernel_c (c : Dev nD) :
    extractStridedSlice S16x100000x64 ![0, 0, 0] ((dat1 (V17e m ρ) c).arrAt 6 cfg1.N) slices_S16x100352x64_S16x100000x64_0_0_0
      = Cspec (m ((c.tc : Thread nD τ).loc main_arg0)) (m ((c.tc : Thread nD τ).loc main_arg2)) (gW m c) (gB m c) := by
  funext i
  obtain ⟨p, q, r, rfl⟩ : ∃ (p : Fin 16) (q : Fin 100000) (r : Fin 64), i = ix3 p q r := ⟨i 0, i 1, i 2, eq_ix3 i⟩
  have hq : q.val < 100352 := Nat.lt_trans q.isLt (by decide)
  rw [Glue.slice_apply, Cspec_apply, arr1_6, out1_6_eq]
  have hj : 1024 * (tOf ⟨q.val, hq⟩).val + q.val % 1024 < 100000 := by
    rw [tOf_val]; show 1024 * (q.val / 1024) + q.val % 1024 < 100000; rw [Nat.div_add_mod]; exact q.isLt
  have hqq : (⟨1024 * (tOf ⟨q.val, hq⟩).val + q.val % 1024, hj⟩ : Fin 100000) = q :=
    Fin.ext (show 1024 * (q.val / 1024) + q.val % 1024 = q.val from Nat.div_add_mod _ _)
  refine (Chunk.chunk2 _ _ (gW m c) (gB m c) _ _ _ _ _ _ (tOf ⟨q.val, hq⟩).val p ⟨q.val % 1024, Nat.mod_lt _ (by decide)⟩ r hj
    (blk1_0_pad m ρ c _ p _) (blk1_1_pad m ρ c _ p _) (blk1_2_pad m ρ c _ _ r) (blk1_3_pad m ρ c _ _ r) ?_ ?_).trans ?_
  · rw [iblk1_4_eq]
    show (V17e m ρ c main_v18_0 : S16x64.Idx → EReal) = _
    rw [V17e_v18_0]
    exact kernel_S m ρ hpre c
  · rw [iblk1_5_eq]
    show (V17e m ρ c main_v18_1 : S16x1.Idx → EReal) (ix2 p (0 : Fin 1)) = _
    rw [V17e_v18_1]
    exact kernel_n m ρ hpre c p
  · rw [hqq]

include hpre in
/-- THE KERNEL PROGRAM'S RUN at the specification: it terminates with its first result at the specification's contexts,
    its second at the specification's pooled sums, and its five arguments unchanged. -/
theorem kernel_run :
    θ_run (defs (F := Ideal)) (onTc (τ := τ) (main (F := Ideal))) ⟨m, fun _ => 0, ρ⟩ fun r => ∀ c : Dev nD,
      r.2.mem ((c.tc : Thread nD τ).loc main_v24)
          = Cspec (m ((c.tc : Thread nD τ).loc main_arg0)) (m ((c.tc : Thread nD τ).loc main_arg2)) (gW m c) (gB m c)
      ∧ r.2.mem ((c.tc : Thread nD τ).loc main_v18_0)
          = Sspec (m ((c.tc : Thread nD τ).loc main_arg0)) (m ((c.tc : Thread nD τ).loc main_arg2)) (gW m c) (gB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c =>
      ⟨(h c _ (mem_uc main_v24 (by decide))).trans ((W19_v24 m ρ c).trans (kernel_c m ρ hpre c)),
        (h c _ (mem_uc main_v18_0 (by decide))).trans ((W19_v18_0 m ρ c).trans (kernel_S m ρ hpre c)),
        (h c _ (mem_uc main_arg0 (by decide))).trans (W19_main_arg0 m ρ c),
        (h c _ (mem_uc main_arg1 (by decide))).trans (W19_main_arg1 m ρ c),
        (h c _ (mem_uc main_arg2 (by decide))).trans (W19_main_arg2 m ρ c),
        (h c _ (mem_uc main_arg3 (by decide))).trans (W19_main_arg3 m ρ c),
        (h c _ (mem_uc main_arg4 (by decide))).trans (W19_main_arg4 m ρ c)⟩)
    (run_all (F := Ideal) m ρ)

end Contexts

end Cert.KernelIdeal.Hand

end
-- ==== Proof.RefRun.lean ====
/-
  The reference's run, restated at the specification.

  Every weakly fair execution of the reference terminates with its first result at the specification's leave-one-out
  contexts and its second at the specification's pooled sums, both of the launch contents of the inputs, the mask and
  the two gathered tables, and with its five arguments unchanged: the generated run gives each result at the
  operations' composed term, that term is the last stage of the operation-by-operation reading, and the last stage is
  the specification.
-/
import proofs.«127450_j71554155152270_2_alg».proof.Proof.RefG

noncomputable section

namespace Cert.RefG

open Cert.ReferenceIdeal Cert.ReferenceIdeal.Gen Idealize.ShloMosaic Idealize.ShloMosaic.TcCoe Idealize.SL.Sem
open Cert.Spec

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v39)
          = Cspec (m ((c.tc : Thread nD τ).loc main_arg0)) (m ((c.tc : Thread nD τ).loc main_arg2))
              (Read.val_main_v6 (F := Ideal) (m ((c.tc : Thread nD τ).loc main_arg1)) (m ((c.tc : Thread nD τ).loc main_arg3)))
              (Read.val_main_v13 (F := Ideal) (m ((c.tc : Thread nD τ).loc main_arg1)) (m ((c.tc : Thread nD τ).loc main_arg4)))
      ∧ r.2.mem ((c.tc : Thread nD τ).loc main_v25)
          = Sspec (m ((c.tc : Thread nD τ).loc main_arg0)) (m ((c.tc : Thread nD τ).loc main_arg2))
              (Read.val_main_v6 (F := Ideal) (m ((c.tc : Thread nD τ).loc main_arg1)) (m ((c.tc : Thread nD τ).loc main_arg3)))
              (Read.val_main_v13 (F := Ideal) (m ((c.tc : Thread nD τ).loc main_arg1)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨(h c).1.trans ((Read.val_main_v39_eq (F := Ideal) m c).trans (context_eq _ _ _ _ _)),
      (h c).2.1.trans ((Read.val_main_v25_eq (F := Ideal) _ _ _ _ _).trans (pooled_eq _ _ _ _ _)),
      (h c).2.2⟩)
    (Cert.ReferenceIdeal.Value.run (F := Ideal) m ρ)

end Cert.RefG

end
-- ==== Proof.Algebraic.lean ====
/-
  The idealized kernel and the idealized reference compute the same results.

  Both runs end at the specification: the kernel program's first result is the specification's leave-one-out contexts
  and its second the specification's pooled sums, of its own launch contents; the reference's two results are the same
  two functions of its launch contents. The two memories agree on the five arguments, and both programs gather the
  weight and bias tables by the same operations, so the results are equal as arrays of extended reals. Finiteness of the
  inputs is used on the kernel's side only, where a sum over chunks of zero-padded arrays is rearranged.
-/
import proofs.«127450_j71554155152270_2_alg».proof.Defs
import proofs.«127450_j71554155152270_2_alg».proof.Proof.KI.Final
import proofs.«127450_j71554155152270_2_alg».proof.Proof.RefRun

set_option maxRecDepth 16384

noncomputable section

namespace Cert.Proof

open Idealize.ShloMosaic Idealize.ShloMosaic.TcCoe Idealize.SL.Sem
open Cert.Spec

theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cspec (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (Cert.KernelIdeal.Hand.gW m c) (Cert.KernelIdeal.Hand.gB m c),
    fun c => Sspec (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (Cert.KernelIdeal.Hand.gW m c) (Cert.KernelIdeal.Hand.gB m c),
    Cert.KernelIdeal.Hand.kernel_run m ρ hpre, ?_⟩
  refine (θ_run (Cert.ReferenceIdeal.defs (F := Ideal)) _ _).mono (fun _ h c => ?_) (Cert.RefG.ref_run m' ρ')
  obtain ⟨h0, h1, h2⟩ := h c
  obtain ⟨a0, a1, a2, a3, a4⟩ := hagree c
  refine ⟨?_, ?_, h2⟩
  · rw [h0, a0, a1, a2, a3, a4]
  · rw [h1, a0, a1, a2, a3, a4]

end Cert.Proof

end
-- ==== Proof.lean ====
/- The proof of `Cert.Claim`: the three frames, the (empty) idealization ledger and the equality of results over the
   extended reals.
   The two kernel programs run as two pipelined regions among host stretches. Each frame is read off ONE run theorem
   that names every unscoped buffer's final contents: the first region sums, chunk by chunk over sixteen grid points,
   the products (z·mask)·w + mask·b and the row sums of the mask into two accumulators carried between points and
   stored at the last point; the second region computes, block by block, (S − e)/(max(1, n − mask) + ε) from those two
   sums. The reference's frame is its straight-line run. For the equality of results both programs are read index by
   index: moving the mask across the sum (distributivity) is valid because every entry is real under the precondition,
   the padded tail contributes zeros, and the quotient is the same expression on both sides. -/
import proofs.«127450_j71554155152270_2_alg».proof.Defs
import proofs.«127450_j71554155152270_2_alg».proof.Proof.Gen.Kernel
import proofs.«127450_j71554155152270_2_alg».proof.Proof.Gen.KernelIdeal
import proofs.«127450_j71554155152270_2_alg».proof.Proof.Gen.ReferenceIdeal
import proofs.«127450_j71554155152270_2_alg».proof.Proof.Gen.Pre_finite_inputs
import proofs.«127450_j71554155152270_2_alg».proof.Proof.Gen.ReferenceIdeal.Run
import proofs.«127450_j71554155152270_2_alg».proof.Proof.K.Run
import proofs.«127450_j71554155152270_2_alg».proof.Proof.KI.Run
import proofs.«127450_j71554155152270_2_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
